-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v369) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x2048x4096 : Shape := ⟨4, ![1, 1, 2048, 4096]⟩
abbrev S_ : Shape := ⟨0, ![]⟩

class Facts : Prop where
  bcast_S_S1x1x2048x4096 : S_.BroadcastsInDim S1x1x2048x4096 (![] : Fin 0 → Fin S1x1x2048x4096.rank)
  reducesTo_S1x1x2048x4096_S_d0_1_2_3 : S1x1x2048x4096.ReducesTo [0, 1, 2, 3] S_
  h_S_ : 0 < S_.numel

variable [Facts]

def fn {F : FTy → Type} [FloatOps F] (main_arg0 : FVec F S1x1x2048x4096 .f32) (main_arg1 : FVec F S1x1x2048x4096 .f32) : IVec S_ 1 :=
  let main_v0 : FVec F S1x1x2048x4096 .f32 := Host.absf main_arg0
  let main_cst : FVec F S_ .f32 := constant S_ .f32 0x7F800000#32
  let main_v1 : FVec F S1x1x2048x4096 .f32 := broadcastInDim S1x1x2048x4096 ![] bcast_S_S1x1x2048x4096 main_cst
  let main_v2 : IVec S1x1x2048x4096 1 := cmpf .olt main_v0 main_v1
  let main_c : IVec S_ 1 := constantI S_ 1 1#1
  let main_v3 : IVec S_ 1 := (fun x v => Host.reduce IntOp.andi x v reducesTo_S1x1x2048x4096_S_d0_1_2_3 h_S_) main_v2 main_c
  let main_v4 : FVec F S1x1x2048x4096 .f32 := Host.absf main_arg1
  let main_cst_0 : FVec F S_ .f32 := constant S_ .f32 0x7F800000#32
  let main_v5 : FVec F S1x1x2048x4096 .f32 := broadcastInDim S1x1x2048x4096 ![] bcast_S_S1x1x2048x4096 main_cst_0
  let main_v6 : IVec S1x1x2048x4096 1 := cmpf .olt main_v4 main_v5
  let main_c_1 : IVec S_ 1 := constantI S_ 1 1#1
  let main_v7 : IVec S_ 1 := (fun x v => Host.reduce IntOp.andi x v reducesTo_S1x1x2048x4096_S_d0_1_2_3 h_S_) main_v6 main_c_1
  let main_v8 : IVec S_ 1 := andi main_v3 main_v7
  main_v8
-- ==== Kernel.lean ====
abbrev S1x1x2048x4096 : Shape := ⟨4, ![1, 1, 2048, 4096]⟩
abbrev S2048x4096 : Shape := ⟨2, ![2048, 4096]⟩
abbrev S_ : Shape := ⟨0, ![]⟩
abbrev S2068x4096 : Shape := ⟨2, ![2068, 4096]⟩
abbrev S2068x256 : Shape := ⟨2, ![2068, 256]⟩
abbrev S2048x256 : Shape := ⟨2, ![2048, 256]⟩
abbrev S2048x4116 : Shape := ⟨2, ![2048, 4116]⟩
abbrev S128x4116 : Shape := ⟨2, ![128, 4116]⟩
abbrev S128x4096 : Shape := ⟨2, ![128, 4096]⟩
abbrev S1x1 : Shape := ⟨2, ![1, 1]⟩
abbrev S64x4096 : Shape := ⟨2, ![64, 4096]⟩
abbrev S64 : Shape := ⟨1, ![64]⟩
abbrev S64x1 : Shape := ⟨2, ![64, 1]⟩
abbrev S1 : Shape := ⟨1, ![1]⟩

abbrev nBuf : Space → Nat
  | .hbm => 33
  | .vmem => 30
  | .smem => 0
  | _ => 0

abbrev bufTy : (tb : Table) → Fin (tcTables nBuf tb) → BufTy
  | .hbm, ⟨0, _⟩ => ⟨S1x1x2048x4096, .f32⟩
  | .hbm, ⟨1, _⟩ => ⟨S1x1x2048x4096, .f32⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S_, .f32⟩
  | .hbm, ⟨6, _⟩ => ⟨S2068x4096, .f32⟩
  | .hbm, ⟨7, _⟩ => ⟨S2048x4096, .f32⟩
  | .hbm, ⟨8, _⟩ => ⟨S_, .f32⟩
  | .hbm, ⟨9, _⟩ => ⟨S_, .f32⟩
  | .hbm, ⟨10, _⟩ => ⟨S2048x4116, .f32⟩
  | .hbm, ⟨11, _⟩ => ⟨S2048x4096, .f32⟩
  | .hbm, ⟨12, _⟩ => ⟨S_, .f32⟩
  | .hbm, ⟨13, _⟩ => ⟨S_, .f32⟩
  | .hbm, ⟨14, _⟩ => ⟨S2068x4096, .f32⟩
  | .hbm, ⟨15, _⟩ => ⟨S2048x4096, .f32⟩
  | .hbm, ⟨16, _⟩ => ⟨S_, .f32⟩
  | .hbm, ⟨17, _⟩ => ⟨S_, .f32⟩
  | .hbm, ⟨18, _⟩ => ⟨S2048x4116, .f32⟩
  | .hbm, ⟨19, _⟩ => ⟨S2048x4096, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .local _ .vmem, ⟨0, _⟩ => ⟨S2068x256, .f32⟩
  | .local _ .vmem, ⟨1, _⟩ => ⟨S2068x256, .f32⟩
  | .local _ .vmem, ⟨2, _⟩ => ⟨S2048x256, .f32⟩
  | .local _ .vmem, ⟨3, _⟩ => ⟨S2048x256, .f32⟩
  | .local _ .vmem, ⟨4, _⟩ => ⟨S128x4116, .f32⟩
  | .local _ .vmem, ⟨5, _⟩ => ⟨S128x4116, .f32⟩
  | .local _ .vmem, ⟨6, _⟩ => ⟨S128x4096, .f32⟩
  | .local _ .vmem, ⟨7, _⟩ => ⟨S128x4096, .f32⟩
  | .local _ .vmem, ⟨8, _⟩ => ⟨S2068x256, .f32⟩
  | .local _ .vmem, ⟨9, _⟩ => ⟨S2068x256, .f32⟩
  | .local _ .vmem, ⟨10, _⟩ => ⟨S2048x256, .f32⟩
  | .local _ .vmem, ⟨11, _⟩ => ⟨S2048x256, .f32⟩
  | .local _ .vmem, ⟨12, _⟩ => ⟨S128x4116, .f32⟩
  | .local _ .vmem, ⟨13, _⟩ => ⟨S128x4116, .f32⟩
  | .local _ .vmem, ⟨14, _⟩ => ⟨S128x4096, .f32⟩
  | .local _ .vmem, ⟨15, _⟩ => ⟨S128x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | .local _ .vmem, ⟨19, _⟩ => ⟨S64x4096, .f32⟩
  | .local _ .vmem, ⟨20, _⟩ => ⟨S64x4096, .f32⟩
  | .local _ .vmem, ⟨21, _⟩ => ⟨S64x4096, .f32⟩
  | .local _ .vmem, ⟨22, _⟩ => ⟨S64x4096, .f32⟩
  | .local _ .vmem, ⟨23, _⟩ => ⟨S64x4096, .f32⟩
  | .local _ .vmem, ⟨24, _⟩ => ⟨S1x1, .f32⟩
  | .local _ .vmem, ⟨25, _⟩ => ⟨S1x1, .f32⟩
  | .local _ .vmem, ⟨26, _⟩ => ⟨S1x1, .f32⟩
  | .local _ .vmem, ⟨27, _⟩ => ⟨S1x1, .f32⟩
  | .local _ .vmem, ⟨28, _⟩ => ⟨S1x1, .f32⟩
  | .local _ .vmem, ⟨29, _⟩ => ⟨S1x1, .f32⟩
  | _, _ => ⟨S1x1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_call2_v0 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_call3_v0 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_cst_4 : Ref sig .tc := ⟨.hbm, 29, rfl⟩
abbrev main_call4_v0 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg3_1 : Ref sig .tc := ⟨.vmem, 23, rfl⟩
abbrev cc4_stg4_0 : Ref sig .tc := ⟨.vmem, 24, rfl⟩
abbrev cc4_stg5_0 : Ref sig .tc := ⟨.vmem, 25, rfl⟩
abbrev cc4_stg6_0 : Ref sig .tc := ⟨.vmem, 26, rfl⟩
abbrev cc4_scratch0 : Ref sig .tc := ⟨.vmem, 27, rfl⟩
abbrev cc4_scratch1 : Ref sig .tc := ⟨.vmem, 28, rfl⟩
abbrev cc4_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc4_sem4_0 : DmaSem sig := 24
abbrev cc4_sem5_0 : DmaSem sig := 25
abbrev cc4_sem6_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2068x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4116 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2068x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x4116 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![32], ![false]⟩

def k4_cond2 (i : grid4.Coords) : BitVec 1 :=
  let arg0 : BitVec 32 := BitVec.ofNat 32 (i 0).val
  let c31_i32 : BitVec 32 := 31#32
  let v51 : BitVec 1 := Scalar.cmpi .eq arg0 c31_i32
  let v52 : BitVec 32 := Scalar.extui v51
  let c0_i32_28 : BitVec 32 := 0#32
  let v53 : BitVec 1 := Scalar.cmpi .ne v52 c0_i32_28
  v53

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S64x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S64x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S64x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S64x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  shapeCasts_S1x1x2048x4096_S2048x4096 : S1x1x2048x4096.ShapeCasts S2048x4096
  pads_S2048x4096_S2068x4096_10100_000 : S2048x4096.Pads (![10, 0] : Fin 2 → Nat) ![10, 0] ![0, 0] S2068x4096
  h_S_ : 0 < S_.numel
  inb_S2068x256_S2068x256_0_0 : ∀ a, (![0, 0] : Fin 2 → Nat) a + S2068x256.size a ≤ S2068x256.size a
  h_S2068x256 : 0 < S2068x256.numel
  shapeCasts_S2068x256_S2068x256 : S2068x256.ShapeCasts S2068x256
  slices_S2068x256_o0_0_S2048x256 : S2068x256.Slices ![0, 0] S2048x256
  slices_S2068x256_o1_0_S2048x256 : S2068x256.Slices ![1, 0] S2048x256
  slices_S2068x256_o2_0_S2048x256 : S2068x256.Slices ![2, 0] S2048x256
  slices_S2068x256_o3_0_S2048x256 : S2068x256.Slices ![3, 0] S2048x256
  slices_S2068x256_o4_0_S2048x256 : S2068x256.Slices ![4, 0] S2048x256
  slices_S2068x256_o5_0_S2048x256 : S2068x256.Slices ![5, 0] S2048x256
  slices_S2068x256_o6_0_S2048x256 : S2068x256.Slices ![6, 0] S2048x256
  slices_S2068x256_o7_0_S2048x256 : S2068x256.Slices ![7, 0] S2048x256
  slices_S2068x256_o8_0_S2048x256 : S2068x256.Slices ![8, 0] S2048x256
  slices_S2068x256_o9_0_S2048x256 : S2068x256.Slices ![9, 0] S2048x256
  slices_S2068x256_o10_0_S2048x256 : S2068x256.Slices ![10, 0] S2048x256
  slices_S2068x256_o11_0_S2048x256 : S2068x256.Slices ![11, 0] S2048x256
  slices_S2068x256_o12_0_S2048x256 : S2068x256.Slices ![12, 0] S2048x256
  slices_S2068x256_o13_0_S2048x256 : S2068x256.Slices ![13, 0] S2048x256
  slices_S2068x256_o14_0_S2048x256 : S2068x256.Slices ![14, 0] S2048x256
  slices_S2068x256_o15_0_S2048x256 : S2068x256.Slices ![15, 0] S2048x256
  slices_S2068x256_o16_0_S2048x256 : S2068x256.Slices ![16, 0] S2048x256
  slices_S2068x256_o17_0_S2048x256 : S2068x256.Slices ![17, 0] S2048x256
  slices_S2068x256_o18_0_S2048x256 : S2068x256.Slices ![18, 0] S2048x256
  slices_S2068x256_o19_0_S2048x256 : S2068x256.Slices ![19, 0] S2048x256
  slices_S2068x256_o20_0_S2048x256 : S2068x256.Slices ![20, 0] S2048x256
  inb_S2048x256_S2048x256_0_0 : ∀ a, (![0, 0] : Fin 2 → Nat) a + S2048x256.size a ≤ S2048x256.size a
  h_S2048x256 : 0 < S2048x256.numel
  pads_S2048x4096_S2048x4116_000_10100 : S2048x4096.Pads (![0, 10] : Fin 2 → Nat) ![0, 10] ![0, 0] S2048x4116
  inb_S128x4116_S128x4116_0_0 : ∀ a, (![0, 0] : Fin 2 → Nat) a + S128x4116.size a ≤ S128x4116.size a
  h_S128x4116 : 0 < S128x4116.numel
  shapeCasts_S128x4116_S128x4116 : S128x4116.ShapeCasts S128x4116
  slices_S128x4116_o0_0_S128x4096 : S128x4116.Slices ![0, 0] S128x4096
  slices_S128x4116_o0_1_S128x4096 : S128x4116.Slices ![0, 1] S128x4096
  slices_S128x4116_o0_2_S128x4096 : S128x4116.Slices ![0, 2] S128x4096
  slices_S128x4116_o0_3_S128x4096 : S128x4116.Slices ![0, 3] S128x4096
  slices_S128x4116_o0_4_S128x4096 : S128x4116.Slices ![0, 4] S128x4096
  slices_S128x4116_o0_5_S128x4096 : S128x4116.Slices ![0, 5] S128x4096
  slices_S128x4116_o0_6_S128x4096 : S128x4116.Slices ![0, 6] S128x4096
  slices_S128x4116_o0_7_S128x4096 : S128x4116.Slices ![0, 7] S128x4096
  slices_S128x4116_o0_8_S128x4096 : S128x4116.Slices ![0, 8] S128x4096
  slices_S128x4116_o0_9_S128x4096 : S128x4116.Slices ![0, 9] S128x4096
  slices_S128x4116_o0_10_S128x4096 : S128x4116.Slices ![0, 10] S128x4096
  slices_S128x4116_o0_11_S128x4096 : S128x4116.Slices ![0, 11] S128x4096
  slices_S128x4116_o0_12_S128x4096 : S128x4116.Slices ![0, 12] S128x4096
  slices_S128x4116_o0_13_S128x4096 : S128x4116.Slices ![0, 13] S128x4096
  slices_S128x4116_o0_14_S128x4096 : S128x4116.Slices ![0, 14] S128x4096
  slices_S128x4116_o0_15_S128x4096 : S128x4116.Slices ![0, 15] S128x4096
  slices_S128x4116_o0_16_S128x4096 : S128x4116.Slices ![0, 16] S128x4096
  slices_S128x4116_o0_17_S128x4096 : S128x4116.Slices ![0, 17] S128x4096
  slices_S128x4116_o0_18_S128x4096 : S128x4116.Slices ![0, 18] S128x4096
  slices_S128x4116_o0_19_S128x4096 : S128x4116.Slices ![0, 19] S128x4096
  slices_S128x4116_o0_20_S128x4096 : S128x4116.Slices ![0, 20] S128x4096
  inb_S128x4096_S128x4096_0_0 : ∀ a, (![0, 0] : Fin 2 → Nat) a + S128x4096.size a ≤ S128x4096.size a
  h_S128x4096 : 0 < S128x4096.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  natLt_1_32 : 1 < 32
  reduces_S64x4096_S64 : S64x4096.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2068x256.size a ≤ S2068x4096.size a
  hwx0_0 : ∀ i : grid0.Coords, EltTy.bits .f32 = 32 ∨ (Rect.block (s := S2068x4096) S2068x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x4096.size a
  hwx0_1 : ∀ i : grid0.Coords, EltTy.bits .f32 = 32 ∨ (Rect.block (s := S2048x4096) S2048x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4116.size a ≤ S2048x4116.size a
  hwx1_0 : ∀ i : grid1.Coords, EltTy.bits .f32 = 32 ∨ (Rect.block (s := S2048x4116) S128x4116.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S2048x4096.size a
  hwx1_1 : ∀ i : grid1.Coords, EltTy.bits .f32 = 32 ∨ (Rect.block (s := S2048x4096) S128x4096.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2068x256.size a ≤ S2068x4096.size a
  hwx2_0 : ∀ i : grid2.Coords, EltTy.bits .f32 = 32 ∨ (Rect.block (s := S2068x4096) S2068x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x4096.size a
  hwx2_1 : ∀ i : grid2.Coords, EltTy.bits .f32 = 32 ∨ (Rect.block (s := S2048x4096) S2048x256.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x4116.size a ≤ S2048x4116.size a
  hwx3_0 : ∀ i : grid3.Coords, EltTy.bits .f32 = 32 ∨ (Rect.block (s := S2048x4116) S128x4116.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x4096.size a ≤ S2048x4096.size a
  hwx3_1 : ∀ i : grid3.Coords, EltTy.bits .f32 = 32 ∨ (Rect.block (s := S2048x4096) S128x4096.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x4096.size a ≤ S2048x4096.size a
  hwx4_0 : ∀ i : grid4.Coords, EltTy.bits .f32 = 32 ∨ (Rect.block (s := S2048x4096) S64x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x4096.size a ≤ S2048x4096.size a
  hwx4_1 : ∀ i : grid4.Coords, EltTy.bits .f32 = 32 ∨ (Rect.block (s := S2048x4096) S64x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S64x4096.size a ≤ S2048x4096.size a
  hwx4_2 : ∀ i : grid4.Coords, EltTy.bits .f32 = 32 ∨ (Rect.block (s := S2048x4096) S64x4096.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S64x4096.size a ≤ S2048x4096.size a
  hwx4_3 : ∀ i : grid4.Coords, EltTy.bits .f32 = 32 ∨ (Rect.block (s := S2048x4096) S64x4096.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)

variable [Facts₀]

abbrev win0_0 : Pipeline.Window sig grid0 :=
  Pipeline.Window.ofSpec (Memref.whole main_v2) S2068x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v4) S128x4116.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v6) S2068x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2048x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v8) S128x4116.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S128x4096.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v5) S64x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S64x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0) S64x4096.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v1) S64x4096.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v10_0) S1x1.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v10_1) S1x1.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v10_2) S1x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun i => !(k4_cond2 i == 1#1) | 5 => fun i => !(k4_cond2 i == 1#1) | 6 => fun i => !(k4_cond2 i == 1#1) | ⟨_ + 7, h⟩ => absurd h (Nat.not_lt.2 (Nat.le_add_left _ _))

class Facts : Prop extends Facts₀ where

variable [Facts]
-- ==== ReferenceIdeal.lean ====
abbrev S1x1x2048x4096 : Shape := ⟨4, ![1, 1, 2048, 4096]⟩
abbrev S_ : Shape := ⟨0, ![]⟩
abbrev S1x1x2068x4096 : Shape := ⟨4, ![1, 1, 2068, 4096]⟩
abbrev S1x1x2048x4116 : Shape := ⟨4, ![1, 1, 2048, 4116]⟩
abbrev S1 : Shape := ⟨1, ![1]⟩

abbrev nBuf : Space → Nat
  | .hbm => 479
  | .vmem => 0
  | .smem => 0
  | _ => 0

abbrev hbmTy0_0 (i : Nat) : BufTy := match i % 128 with
  | 0 => ⟨S1x1x2048x4096, .f32⟩
  | 1 => ⟨S1x1x2048x4096, .f32⟩
  | 2 => ⟨S_, .f32⟩
  | 3 => ⟨S_, .f32⟩
  | 4 => ⟨S1x1x2048x4096, .f32⟩
  | 5 => ⟨S1x1x2048x4096, .i1⟩
  | 6 => ⟨S_, .f32⟩
  | 7 => ⟨S1x1x2048x4096, .f32⟩
  | 8 => ⟨S1x1x2048x4096, .f32⟩
  | 9 => ⟨S1x1x2048x4096, .f32⟩
  | 10 => ⟨S1x1x2068x4096, .f32⟩
  | 11 => ⟨S1x1x2048x4096, .f32⟩
  | 12 => ⟨S_, .f32⟩
  | 13 => ⟨S1x1x2048x4096, .f32⟩
  | 14 => ⟨S1x1x2048x4096, .f32⟩
  | 15 => ⟨S1x1x2048x4096, .f32⟩
  | 16 => ⟨S_, .f32⟩
  | 17 => ⟨S1x1x2048x4096, .f32⟩
  | 18 => ⟨S1x1x2048x4096, .f32⟩
  | 19 => ⟨S1x1x2048x4096, .f32⟩
  | 20 => ⟨S1x1x2048x4096, .f32⟩
  | 21 => ⟨S_, .f32⟩
  | 22 => ⟨S1x1x2048x4096, .f32⟩
  | 23 => ⟨S1x1x2048x4096, .f32⟩
  | 24 => ⟨S1x1x2048x4096, .f32⟩
  | 25 => ⟨S1x1x2048x4096, .f32⟩
  | 26 => ⟨S_, .f32⟩
  | 27 => ⟨S1x1x2048x4096, .f32⟩
  | 28 => ⟨S1x1x2048x4096, .f32⟩
  | 29 => ⟨S1x1x2048x4096, .f32⟩
  | 30 => ⟨S1x1x2048x4096, .f32⟩
  | 31 => ⟨S_, .f32⟩
  | 32 => ⟨S1x1x2048x4096, .f32⟩
  | 33 => ⟨S1x1x2048x4096, .f32⟩
  | 34 => ⟨S1x1x2048x4096, .f32⟩
  | 35 => ⟨S1x1x2048x4096, .f32⟩
  | 36 => ⟨S_, .f32⟩
  | 37 => ⟨S1x1x2048x4096, .f32⟩
  | 38 => ⟨S1x1x2048x4096, .f32⟩
  | 39 => ⟨S1x1x2048x4096, .f32⟩
  | 40 => ⟨S1x1x2048x4096, .f32⟩
  | 41 => ⟨S_, .f32⟩
  | 42 => ⟨S1x1x2048x4096, .f32⟩
  | 43 => ⟨S1x1x2048x4096, .f32⟩
  | 44 => ⟨S1x1x2048x4096, .f32⟩
  | 45 => ⟨S1x1x2048x4096, .f32⟩
  | 46 => ⟨S_, .f32⟩
  | 47 => ⟨S1x1x2048x4096, .f32⟩
  | 48 => ⟨S1x1x2048x4096, .f32⟩
  | 49 => ⟨S1x1x2048x4096, .f32⟩
  | 50 => ⟨S1x1x2048x4096, .f32⟩
  | 51 => ⟨S_, .f32⟩
  | 52 => ⟨S1x1x2048x4096, .f32⟩
  | 53 => ⟨S1x1x2048x4096, .f32⟩
  | 54 => ⟨S1x1x2048x4096, .f32⟩
  | 55 => ⟨S1x1x2048x4096, .f32⟩
  | 56 => ⟨S_, .f32⟩
  | 57 => ⟨S1x1x2048x4096, .f32⟩
  | 58 => ⟨S1x1x2048x4096, .f32⟩
  | 59 => ⟨S1x1x2048x4096, .f32⟩
  | 60 => ⟨S1x1x2048x4096, .f32⟩
  | 61 => ⟨S_, .f32⟩
  | 62 => ⟨S1x1x2048x4096, .f32⟩
  | 63 => ⟨S1x1x2048x4096, .f32⟩
  | 64 => ⟨S1x1x2048x4096, .f32⟩
  | 65 => ⟨S1x1x2048x4096, .f32⟩
  | 66 => ⟨S_, .f32⟩
  | 67 => ⟨S1x1x2048x4096, .f32⟩
  | 68 => ⟨S1x1x2048x4096, .f32⟩
  | 69 => ⟨S1x1x2048x4096, .f32⟩
  | 70 => ⟨S1x1x2048x4096, .f32⟩
  | 71 => ⟨S_, .f32⟩
  | 72 => ⟨S1x1x2048x4096, .f32⟩
  | 73 => ⟨S1x1x2048x4096, .f32⟩
  | 74 => ⟨S1x1x2048x4096, .f32⟩
  | 75 => ⟨S1x1x2048x4096, .f32⟩
  | 76 => ⟨S_, .f32⟩
  | 77 => ⟨S1x1x2048x4096, .f32⟩
  | 78 => ⟨S1x1x2048x4096, .f32⟩
  | 79 => ⟨S1x1x2048x4096, .f32⟩
  | 80 => ⟨S1x1x2048x4096, .f32⟩
  | 81 => ⟨S_, .f32⟩
  | 82 => ⟨S1x1x2048x4096, .f32⟩
  | 83 => ⟨S1x1x2048x4096, .f32⟩
  | 84 => ⟨S1x1x2048x4096, .f32⟩
  | 85 => ⟨S1x1x2048x4096, .f32⟩
  | 86 => ⟨S_, .f32⟩
  | 87 => ⟨S1x1x2048x4096, .f32⟩
  | 88 => ⟨S1x1x2048x4096, .f32⟩
  | 89 => ⟨S1x1x2048x4096, .f32⟩
  | 90 => ⟨S1x1x2048x4096, .f32⟩
  | 91 => ⟨S_, .f32⟩
  | 92 => ⟨S1x1x2048x4096, .f32⟩
  | 93 => ⟨S1x1x2048x4096, .f32⟩
  | 94 => ⟨S1x1x2048x4096, .f32⟩
  | 95 => ⟨S1x1x2048x4096, .f32⟩
  | 96 => ⟨S_, .f32⟩
  | 97 => ⟨S1x1x2048x4096, .f32⟩
  | 98 => ⟨S1x1x2048x4096, .f32⟩
  | 99 => ⟨S1x1x2048x4096, .f32⟩
  | 100 => ⟨S1x1x2048x4096, .f32⟩
  | 101 => ⟨S_, .f32⟩
  | 102 => ⟨S1x1x2048x4096, .f32⟩
  | 103 => ⟨S1x1x2048x4096, .f32⟩
  | 104 => ⟨S1x1x2048x4096, .f32⟩
  | 105 => ⟨S1x1x2048x4096, .f32⟩
  | 106 => ⟨S_, .f32⟩
  | 107 => ⟨S1x1x2048x4096, .f32⟩
  | 108 => ⟨S1x1x2048x4096, .f32⟩
  | 109 => ⟨S1x1x2048x4096, .f32⟩
  | 110 => ⟨S1x1x2048x4096, .f32⟩
  | 111 => ⟨S_, .f32⟩
  | 112 => ⟨S1x1x2048x4096, .f32⟩
  | 113 => ⟨S1x1x2048x4096, .f32⟩
  | 114 => ⟨S1x1x2048x4096, .f32⟩
  | 115 => ⟨S1x1x2048x4116, .f32⟩
  | 116 => ⟨S1x1x2048x4096, .f32⟩
  | 117 => ⟨S_, .f32⟩
  | 118 => ⟨S1x1x2048x4096, .f32⟩
  | 119 => ⟨S1x1x2048x4096, .f32⟩
  | 120 => ⟨S1x1x2048x4096, .f32⟩
  | 121 => ⟨S_, .f32⟩
  | 122 => ⟨S1x1x2048x4096, .f32⟩
  | 123 => ⟨S1x1x2048x4096, .f32⟩
  | 124 => ⟨S1x1x2048x4096, .f32⟩
  | 125 => ⟨S1x1x2048x4096, .f32⟩
  | 126 => ⟨S_, .f32⟩
  | 127 => ⟨S1x1x2048x4096, .f32⟩
  | _ => ⟨S1x1x2048x4096, .f32⟩

abbrev hbmTy0_1 (i : Nat) : BufTy := match i % 128 with
  | 0 => ⟨S1x1x2048x4096, .f32⟩
  | 1 => ⟨S1x1x2048x4096, .f32⟩
  | 2 => ⟨S1x1x2048x4096, .f32⟩
  | 3 => ⟨S_, .f32⟩
  | 4 => ⟨S1x1x2048x4096, .f32⟩
  | 5 => ⟨S1x1x2048x4096, .f32⟩
  | 6 => ⟨S1x1x2048x4096, .f32⟩
  | 7 => ⟨S1x1x2048x4096, .f32⟩
  | 8 => ⟨S_, .f32⟩
  | 9 => ⟨S1x1x2048x4096, .f32⟩
  | 10 => ⟨S1x1x2048x4096, .f32⟩
  | 11 => ⟨S1x1x2048x4096, .f32⟩
  | 12 => ⟨S1x1x2048x4096, .f32⟩
  | 13 => ⟨S_, .f32⟩
  | 14 => ⟨S1x1x2048x4096, .f32⟩
  | 15 => ⟨S1x1x2048x4096, .f32⟩
  | 16 => ⟨S1x1x2048x4096, .f32⟩
  | 17 => ⟨S1x1x2048x4096, .f32⟩
  | 18 => ⟨S_, .f32⟩
  | 19 => ⟨S1x1x2048x4096, .f32⟩
  | 20 => ⟨S1x1x2048x4096, .f32⟩
  | 21 => ⟨S1x1x2048x4096, .f32⟩
  | 22 => ⟨S1x1x2048x4096, .f32⟩
  | 23 => ⟨S_, .f32⟩
  | 24 => ⟨S1x1x2048x4096, .f32⟩
  | 25 => ⟨S1x1x2048x4096, .f32⟩
  | 26 => ⟨S1x1x2048x4096, .f32⟩
  | 27 => ⟨S1x1x2048x4096, .f32⟩
  | 28 => ⟨S_, .f32⟩
  | 29 => ⟨S1x1x2048x4096, .f32⟩
  | 30 => ⟨S1x1x2048x4096, .f32⟩
  | 31 => ⟨S1x1x2048x4096, .f32⟩
  | 32 => ⟨S1x1x2048x4096, .f32⟩
  | 33 => ⟨S_, .f32⟩
  | 34 => ⟨S1x1x2048x4096, .f32⟩
  | 35 => ⟨S1x1x2048x4096, .f32⟩
  | 36 => ⟨S1x1x2048x4096, .f32⟩
  | 37 => ⟨S1x1x2048x4096, .f32⟩
  | 38 => ⟨S_, .f32⟩
  | 39 => ⟨S1x1x2048x4096, .f32⟩
  | 40 => ⟨S1x1x2048x4096, .f32⟩
  | 41 => ⟨S1x1x2048x4096, .f32⟩
  | 42 => ⟨S1x1x2048x4096, .f32⟩
  | 43 => ⟨S_, .f32⟩
  | 44 => ⟨S1x1x2048x4096, .f32⟩
  | 45 => ⟨S1x1x2048x4096, .f32⟩
  | 46 => ⟨S1x1x2048x4096, .f32⟩
  | 47 => ⟨S1x1x2048x4096, .f32⟩
  | 48 => ⟨S_, .f32⟩
  | 49 => ⟨S1x1x2048x4096, .f32⟩
  | 50 => ⟨S1x1x2048x4096, .f32⟩
  | 51 => ⟨S1x1x2048x4096, .f32⟩
  | 52 => ⟨S1x1x2048x4096, .f32⟩
  | 53 => ⟨S_, .f32⟩
  | 54 => ⟨S1x1x2048x4096, .f32⟩
  | 55 => ⟨S1x1x2048x4096, .f32⟩
  | 56 => ⟨S1x1x2048x4096, .f32⟩
  | 57 => ⟨S1x1x2048x4096, .f32⟩
  | 58 => ⟨S_, .f32⟩
  | 59 => ⟨S1x1x2048x4096, .f32⟩
  | 60 => ⟨S1x1x2048x4096, .f32⟩
  | 61 => ⟨S1x1x2048x4096, .f32⟩
  | 62 => ⟨S1x1x2048x4096, .f32⟩
  | 63 => ⟨S_, .f32⟩
  | 64 => ⟨S1x1x2048x4096, .f32⟩
  | 65 => ⟨S1x1x2048x4096, .f32⟩
  | 66 => ⟨S1x1x2048x4096, .f32⟩
  | 67 => ⟨S1x1x2048x4096, .f32⟩
  | 68 => ⟨S_, .f32⟩
  | 69 => ⟨S1x1x2048x4096, .f32⟩
  | 70 => ⟨S1x1x2048x4096, .f32⟩
  | 71 => ⟨S1x1x2048x4096, .f32⟩
  | 72 => ⟨S1x1x2048x4096, .f32⟩
  | 73 => ⟨S_, .f32⟩
  | 74 => ⟨S1x1x2048x4096, .f32⟩
  | 75 => ⟨S1x1x2048x4096, .f32⟩
  | 76 => ⟨S1x1x2048x4096, .f32⟩
  | 77 => ⟨S1x1x2048x4096, .f32⟩
  | 78 => ⟨S_, .f32⟩
  | 79 => ⟨S1x1x2048x4096, .f32⟩
  | 80 => ⟨S1x1x2048x4096, .f32⟩
  | 81 => ⟨S1x1x2048x4096, .f32⟩
  | 82 => ⟨S1x1x2048x4096, .f32⟩
  | 83 => ⟨S_, .f32⟩
  | 84 => ⟨S1x1x2048x4096, .f32⟩
  | 85 => ⟨S1x1x2048x4096, .f32⟩
  | 86 => ⟨S1x1x2048x4096, .f32⟩
  | 87 => ⟨S1x1x2048x4096, .f32⟩
  | 88 => ⟨S_, .f32⟩
  | 89 => ⟨S1x1x2048x4096, .f32⟩
  | 90 => ⟨S1x1x2048x4096, .f32⟩
  | 91 => ⟨S1x1x2048x4096, .f32⟩
  | 92 => ⟨S1x1x2048x4096, .f32⟩
  | 93 => ⟨S_, .f32⟩
  | 94 => ⟨S1x1x2048x4096, .f32⟩
  | 95 => ⟨S1x1x2048x4096, .f32⟩
  | 96 => ⟨S_, .f32⟩
  | 97 => ⟨S1x1x2048x4096, .f32⟩
  | 98 => ⟨S1x1x2048x4096, .i1⟩
  | 99 => ⟨S_, .f32⟩
  | 100 => ⟨S1x1x2048x4096, .f32⟩
  | 101 => ⟨S1x1x2048x4096, .f32⟩
  | 102 => ⟨S1x1x2048x4096, .f32⟩
  | 103 => ⟨S1x1x2068x4096, .f32⟩
  | 104 => ⟨S1x1x2048x4096, .f32⟩
  | 105 => ⟨S_, .f32⟩
  | 106 => ⟨S1x1x2048x4096, .f32⟩
  | 107 => ⟨S1x1x2048x4096, .f32⟩
  | 108 => ⟨S1x1x2048x4096, .f32⟩
  | 109 => ⟨S_, .f32⟩
  | 110 => ⟨S1x1x2048x4096, .f32⟩
  | 111 => ⟨S1x1x2048x4096, .f32⟩
  | 112 => ⟨S1x1x2048x4096, .f32⟩
  | 113 => ⟨S1x1x2048x4096, .f32⟩
  | 114 => ⟨S_, .f32⟩
  | 115 => ⟨S1x1x2048x4096, .f32⟩
  | 116 => ⟨S1x1x2048x4096, .f32⟩
  | 117 => ⟨S1x1x2048x4096, .f32⟩
  | 118 => ⟨S1x1x2048x4096, .f32⟩
  | 119 => ⟨S_, .f32⟩
  | 120 => ⟨S1x1x2048x4096, .f32⟩
  | 121 => ⟨S1x1x2048x4096, .f32⟩
  | 122 => ⟨S1x1x2048x4096, .f32⟩
  | 123 => ⟨S1x1x2048x4096, .f32⟩
  | 124 => ⟨S_, .f32⟩
  | 125 => ⟨S1x1x2048x4096, .f32⟩
  | 126 => ⟨S1x1x2048x4096, .f32⟩
  | 127 => ⟨S1x1x2048x4096, .f32⟩
  | _ => ⟨S1x1x2048x4096, .f32⟩

abbrev hbmTy0_2 (i : Nat) : BufTy := match i % 128 with
  | 0 => ⟨S1x1x2048x4096, .f32⟩
  | 1 => ⟨S_, .f32⟩
  | 2 => ⟨S1x1x2048x4096, .f32⟩
  | 3 => ⟨S1x1x2048x4096, .f32⟩
  | 4 => ⟨S1x1x2048x4096, .f32⟩
  | 5 => ⟨S1x1x2048x4096, .f32⟩
  | 6 => ⟨S_, .f32⟩
  | 7 => ⟨S1x1x2048x4096, .f32⟩
  | 8 => ⟨S1x1x2048x4096, .f32⟩
  | 9 => ⟨S1x1x2048x4096, .f32⟩
  | 10 => ⟨S1x1x2048x4096, .f32⟩
  | 11 => ⟨S_, .f32⟩
  | 12 => ⟨S1x1x2048x4096, .f32⟩
  | 13 => ⟨S1x1x2048x4096, .f32⟩
  | 14 => ⟨S1x1x2048x4096, .f32⟩
  | 15 => ⟨S1x1x2048x4096, .f32⟩
  | 16 => ⟨S_, .f32⟩
  | 17 => ⟨S1x1x2048x4096, .f32⟩
  | 18 => ⟨S1x1x2048x4096, .f32⟩
  | 19 => ⟨S1x1x2048x4096, .f32⟩
  | 20 => ⟨S1x1x2048x4096, .f32⟩
  | 21 => ⟨S_, .f32⟩
  | 22 => ⟨S1x1x2048x4096, .f32⟩
  | 23 => ⟨S1x1x2048x4096, .f32⟩
  | 24 => ⟨S1x1x2048x4096, .f32⟩
  | 25 => ⟨S1x1x2048x4096, .f32⟩
  | 26 => ⟨S_, .f32⟩
  | 27 => ⟨S1x1x2048x4096, .f32⟩
  | 28 => ⟨S1x1x2048x4096, .f32⟩
  | 29 => ⟨S1x1x2048x4096, .f32⟩
  | 30 => ⟨S1x1x2048x4096, .f32⟩
  | 31 => ⟨S_, .f32⟩
  | 32 => ⟨S1x1x2048x4096, .f32⟩
  | 33 => ⟨S1x1x2048x4096, .f32⟩
  | 34 => ⟨S1x1x2048x4096, .f32⟩
  | 35 => ⟨S1x1x2048x4096, .f32⟩
  | 36 => ⟨S_, .f32⟩
  | 37 => ⟨S1x1x2048x4096, .f32⟩
  | 38 => ⟨S1x1x2048x4096, .f32⟩
  | 39 => ⟨S1x1x2048x4096, .f32⟩
  | 40 => ⟨S1x1x2048x4096, .f32⟩
  | 41 => ⟨S_, .f32⟩
  | 42 => ⟨S1x1x2048x4096, .f32⟩
  | 43 => ⟨S1x1x2048x4096, .f32⟩
  | 44 => ⟨S1x1x2048x4096, .f32⟩
  | 45 => ⟨S1x1x2048x4096, .f32⟩
  | 46 => ⟨S_, .f32⟩
  | 47 => ⟨S1x1x2048x4096, .f32⟩
  | 48 => ⟨S1x1x2048x4096, .f32⟩
  | 49 => ⟨S1x1x2048x4096, .f32⟩
  | 50 => ⟨S1x1x2048x4096, .f32⟩
  | 51 => ⟨S_, .f32⟩
  | 52 => ⟨S1x1x2048x4096, .f32⟩
  | 53 => ⟨S1x1x2048x4096, .f32⟩
  | 54 => ⟨S1x1x2048x4096, .f32⟩
  | 55 => ⟨S1x1x2048x4096, .f32⟩
  | 56 => ⟨S_, .f32⟩
  | 57 => ⟨S1x1x2048x4096, .f32⟩
  | 58 => ⟨S1x1x2048x4096, .f32⟩
  | 59 => ⟨S1x1x2048x4096, .f32⟩
  | 60 => ⟨S1x1x2048x4096, .f32⟩
  | 61 => ⟨S_, .f32⟩
  | 62 => ⟨S1x1x2048x4096, .f32⟩
  | 63 => ⟨S1x1x2048x4096, .f32⟩
  | 64 => ⟨S1x1x2048x4096, .f32⟩
  | 65 => ⟨S1x1x2048x4096, .f32⟩
  | 66 => ⟨S_, .f32⟩
  | 67 => ⟨S1x1x2048x4096, .f32⟩
  | 68 => ⟨S1x1x2048x4096, .f32⟩
  | 69 => ⟨S1x1x2048x4096, .f32⟩
  | 70 => ⟨S1x1x2048x4096, .f32⟩
  | 71 => ⟨S_, .f32⟩
  | 72 => ⟨S1x1x2048x4096, .f32⟩
  | 73 => ⟨S1x1x2048x4096, .f32⟩
  | 74 => ⟨S1x1x2048x4096, .f32⟩
  | 75 => ⟨S1x1x2048x4096, .f32⟩
  | 76 => ⟨S_, .f32⟩
  | 77 => ⟨S1x1x2048x4096, .f32⟩
  | 78 => ⟨S1x1x2048x4096, .f32⟩
  | 79 => ⟨S1x1x2048x4096, .f32⟩
  | 80 => ⟨S1x1x2048x4116, .f32⟩
  | 81 => ⟨S1x1x2048x4096, .f32⟩
  | 82 => ⟨S_, .f32⟩
  | 83 => ⟨S1x1x2048x4096, .f32⟩
  | 84 => ⟨S1x1x2048x4096, .f32⟩
  | 85 => ⟨S1x1x2048x4096, .f32⟩
  | 86 => ⟨S_, .f32⟩
  | 87 => ⟨S1x1x2048x4096, .f32⟩
  | 88 => ⟨S1x1x2048x4096, .f32⟩
  | 89 => ⟨S1x1x2048x4096, .f32⟩
  | 90 => ⟨S1x1x2048x4096, .f32⟩
  | 91 => ⟨S_, .f32⟩
  | 92 => ⟨S1x1x2048x4096, .f32⟩
  | 93 => ⟨S1x1x2048x4096, .f32⟩
  | 94 => ⟨S1x1x2048x4096, .f32⟩
  | 95 => ⟨S1x1x2048x4096, .f32⟩
  | 96 => ⟨S_, .f32⟩
  | 97 => ⟨S1x1x2048x4096, .f32⟩
  | 98 => ⟨S1x1x2048x4096, .f32⟩
  | 99 => ⟨S1x1x2048x4096, .f32⟩
  | 100 => ⟨S1x1x2048x4096, .f32⟩
  | 101 => ⟨S_, .f32⟩
  | 102 => ⟨S1x1x2048x4096, .f32⟩
  | 103 => ⟨S1x1x2048x4096, .f32⟩
  | 104 => ⟨S1x1x2048x4096, .f32⟩
  | 105 => ⟨S1x1x2048x4096, .f32⟩
  | 106 => ⟨S_, .f32⟩
  | 107 => ⟨S1x1x2048x4096, .f32⟩
  | 108 => ⟨S1x1x2048x4096, .f32⟩
  | 109 => ⟨S1x1x2048x4096, .f32⟩
  | 110 => ⟨S1x1x2048x4096, .f32⟩
  | 111 => ⟨S_, .f32⟩
  | 112 => ⟨S1x1x2048x4096, .f32⟩
  | 113 => ⟨S1x1x2048x4096, .f32⟩
  | 114 => ⟨S1x1x2048x4096, .f32⟩
  | 115 => ⟨S1x1x2048x4096, .f32⟩
  | 116 => ⟨S_, .f32⟩
  | 117 => ⟨S1x1x2048x4096, .f32⟩
  | 118 => ⟨S1x1x2048x4096, .f32⟩
  | 119 => ⟨S1x1x2048x4096, .f32⟩
  | 120 => ⟨S1x1x2048x4096, .f32⟩
  | 121 => ⟨S_, .f32⟩
  | 122 => ⟨S1x1x2048x4096, .f32⟩
  | 123 => ⟨S1x1x2048x4096, .f32⟩
  | 124 => ⟨S1x1x2048x4096, .f32⟩
  | 125 => ⟨S1x1x2048x4096, .f32⟩
  | 126 => ⟨S_, .f32⟩
  | 127 => ⟨S1x1x2048x4096, .f32⟩
  | _ => ⟨S1x1x2048x4096, .f32⟩

abbrev hbmTy0_3 (i : Nat) : BufTy := match i % 128 with
  | 0 => ⟨S1x1x2048x4096, .f32⟩
  | 1 => ⟨S1x1x2048x4096, .f32⟩
  | 2 => ⟨S1x1x2048x4096, .f32⟩
  | 3 => ⟨S_, .f32⟩
  | 4 => ⟨S1x1x2048x4096, .f32⟩
  | 5 => ⟨S1x1x2048x4096, .f32⟩
  | 6 => ⟨S1x1x2048x4096, .f32⟩
  | 7 => ⟨S1x1x2048x4096, .f32⟩
  | 8 => ⟨S_, .f32⟩
  | 9 => ⟨S1x1x2048x4096, .f32⟩
  | 10 => ⟨S1x1x2048x4096, .f32⟩
  | 11 => ⟨S1x1x2048x4096, .f32⟩
  | 12 => ⟨S1x1x2048x4096, .f32⟩
  | 13 => ⟨S_, .f32⟩
  | 14 => ⟨S1x1x2048x4096, .f32⟩
  | 15 => ⟨S1x1x2048x4096, .f32⟩
  | 16 => ⟨S1x1x2048x4096, .f32⟩
  | 17 => ⟨S1x1x2048x4096, .f32⟩
  | 18 => ⟨S_, .f32⟩
  | 19 => ⟨S1x1x2048x4096, .f32⟩
  | 20 => ⟨S1x1x2048x4096, .f32⟩
  | 21 => ⟨S1x1x2048x4096, .f32⟩
  | 22 => ⟨S1x1x2048x4096, .f32⟩
  | 23 => ⟨S_, .f32⟩
  | 24 => ⟨S1x1x2048x4096, .f32⟩
  | 25 => ⟨S1x1x2048x4096, .f32⟩
  | 26 => ⟨S1x1x2048x4096, .f32⟩
  | 27 => ⟨S1x1x2048x4096, .f32⟩
  | 28 => ⟨S_, .f32⟩
  | 29 => ⟨S1x1x2048x4096, .f32⟩
  | 30 => ⟨S1x1x2048x4096, .f32⟩
  | 31 => ⟨S1x1x2048x4096, .f32⟩
  | 32 => ⟨S1x1x2048x4096, .f32⟩
  | 33 => ⟨S_, .f32⟩
  | 34 => ⟨S1x1x2048x4096, .f32⟩
  | 35 => ⟨S1x1x2048x4096, .f32⟩
  | 36 => ⟨S1x1x2048x4096, .f32⟩
  | 37 => ⟨S1x1x2048x4096, .f32⟩
  | 38 => ⟨S_, .f32⟩
  | 39 => ⟨S1x1x2048x4096, .f32⟩
  | 40 => ⟨S1x1x2048x4096, .f32⟩
  | 41 => ⟨S1x1x2048x4096, .f32⟩
  | 42 => ⟨S1x1x2048x4096, .f32⟩
  | 43 => ⟨S_, .f32⟩
  | 44 => ⟨S1x1x2048x4096, .f32⟩
  | 45 => ⟨S1x1x2048x4096, .f32⟩
  | 46 => ⟨S1x1x2048x4096, .f32⟩
  | 47 => ⟨S1x1x2048x4096, .f32⟩
  | 48 => ⟨S_, .f32⟩
  | 49 => ⟨S1x1x2048x4096, .f32⟩
  | 50 => ⟨S1x1x2048x4096, .f32⟩
  | 51 => ⟨S1x1x2048x4096, .f32⟩
  | 52 => ⟨S1x1x2048x4096, .f32⟩
  | 53 => ⟨S_, .f32⟩
  | 54 => ⟨S1x1x2048x4096, .f32⟩
  | 55 => ⟨S1x1x2048x4096, .f32⟩
  | 56 => ⟨S1x1x2048x4096, .f32⟩
  | 57 => ⟨S1x1x2048x4096, .f32⟩
  | 58 => ⟨S_, .f32⟩
  | 59 => ⟨S1x1x2048x4096, .f32⟩
  | 60 => ⟨S1x1x2048x4096, .f32⟩
  | 61 => ⟨S_, .f32⟩
  | 62 => ⟨S1x1x2048x4096, .f32⟩
  | 63 => ⟨S1x1x2048x4096, .i1⟩
  | 64 => ⟨S1x1x2048x4096, .f32⟩
  | 65 => ⟨S1x1x2048x4096, .f32⟩
  | 66 => ⟨S_, .f32⟩
  | 67 => ⟨S_, .f32⟩
  | 68 => ⟨S1x1x2048x4096, .f32⟩
  | 69 => ⟨S_, .f32⟩
  | 70 => ⟨S1x1x2048x4096, .f32⟩
  | 71 => ⟨S1x1x2048x4096, .f32⟩
  | 72 => ⟨S1x1x2048x4096, .f32⟩
  | 73 => ⟨S_, .f32⟩
  | 74 => ⟨S1x1x2048x4096, .f32⟩
  | 75 => ⟨S1x1x2048x4096, .f32⟩
  | 76 => ⟨S1x1x2048x4096, .f32⟩
  | 77 => ⟨S_, .f32⟩
  | 78 => ⟨S1, .f32⟩
  | 79 => ⟨S_, .f32⟩
  | 80 => ⟨S1, .f32⟩
  | 81 => ⟨S_, .f32⟩
  | 82 => ⟨S1, .f32⟩
  | 83 => ⟨S1, .f32⟩
  | 84 => ⟨S_, .f32⟩
  | 85 => ⟨S_, .f32⟩
  | 86 => ⟨S_, .f32⟩
  | 87 => ⟨S_, .f32⟩
  | 88 => ⟨S1, .f32⟩
  | 89 => ⟨S1, .f32⟩
  | 90 => ⟨S_, .f32⟩
  | 91 => ⟨S_, .i1⟩
  | 92 => ⟨S_, .f32⟩
  | 93 => ⟨S1, .f32⟩
  | 94 => ⟨S1, .f32⟩
  | _ => ⟨S1x1x2048x4096, .f32⟩

abbrev hbmTy (i : Nat) : BufTy := match i / 128 with
  | 0 => hbmTy0_0 i
  | 1 => hbmTy0_1 i
  | 2 => hbmTy0_2 i
  | 3 => hbmTy0_3 i
  | _ => ⟨S1x1x2048x4096, .f32⟩

abbrev bufTy : (tb : Table) → Fin (tcTables nBuf tb) → BufTy
  | .hbm, ⟨i, _⟩ => hbmTy i
  | _, _ => ⟨S1x1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_17 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_18 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_19 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_21 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_22 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_23 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_24 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_25 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_26 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_27 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_28 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_29 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_30 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_31 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_32 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_33 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_34 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_35 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_36 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_37 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_38 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_39 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_40 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_41 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_42 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_43 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_cst_44 : Ref sig .tc := ⟨.hbm, 221, rfl⟩
abbrev main_v172 : Ref sig .tc := ⟨.hbm, 222, rfl⟩
abbrev main_v173 : Ref sig .tc := ⟨.hbm, 223, rfl⟩
abbrev main_cst_45 : Ref sig .tc := ⟨.hbm, 224, rfl⟩
abbrev main_v174 : Ref sig .tc := ⟨.hbm, 225, rfl⟩
abbrev main_v175 : Ref sig .tc := ⟨.hbm, 226, rfl⟩
abbrev main_cst_46 : Ref sig .tc := ⟨.hbm, 227, rfl⟩
abbrev main_call3_v0 : Ref sig .tc := ⟨.hbm, 228, rfl⟩
abbrev main_call3_v1 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_cst_47 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_48 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_cst_49 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_50 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_cst_51 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_cst_52 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_cst_53 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_cst_54 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_cst_55 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_cst_56 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_cst_57 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_cst_58 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_cst_59 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_cst_60 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_cst_61 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_cst_62 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_cst_63 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_cst_64 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_cst_65 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_cst_66 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_cst_67 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_cst_68 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_cst_69 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_cst_70 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_cst_71 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_cst_72 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_cst_73 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_cst_74 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_cst_75 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_cst_76 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_cst_77 : Ref sig .tc := ⟨.hbm, 382, rfl⟩
abbrev main_v298 : Ref sig .tc := ⟨.hbm, 383, rfl⟩
abbrev main_v299 : Ref sig .tc := ⟨.hbm, 384, rfl⟩
abbrev main_v300 : Ref sig .tc := ⟨.hbm, 385, rfl⟩
abbrev main_v301 : Ref sig .tc := ⟨.hbm, 386, rfl⟩
abbrev main_cst_78 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_cst_79 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_cst_80 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_cst_81 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_cst_82 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_v321 : Ref sig .tc := ⟨.hbm, 411, rfl⟩
abbrev main_cst_83 : Ref sig .tc := ⟨.hbm, 412, rfl⟩
abbrev main_v322 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_cst_84 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_cst_85 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_cst_86 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_v337 : Ref sig .tc := ⟨.hbm, 431, rfl⟩
abbrev main_cst_87 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_v341 : Ref sig .tc := ⟨.hbm, 436, rfl⟩
abbrev main_cst_88 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_cst_89 : Ref sig .tc := ⟨.hbm, 442, rfl⟩
abbrev main_v346 : Ref sig .tc := ⟨.hbm, 443, rfl⟩
abbrev main_v347 : Ref sig .tc := ⟨.hbm, 444, rfl⟩
abbrev main_cst_90 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_cst_91 : Ref sig .tc := ⟨.hbm, 450, rfl⟩
abbrev main_v352 : Ref sig .tc := ⟨.hbm, 451, rfl⟩
abbrev main_v353 : Ref sig .tc := ⟨.hbm, 452, rfl⟩
abbrev main_cst_92 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_cst_93 : Ref sig .tc := ⟨.hbm, 457, rfl⟩
abbrev main_v357 : Ref sig .tc := ⟨.hbm, 458, rfl⟩
abbrev main_v358 : Ref sig .tc := ⟨.hbm, 459, rfl⟩
abbrev main_v359 : Ref sig .tc := ⟨.hbm, 460, rfl⟩
abbrev main_cst_94 : Ref sig .tc := ⟨.hbm, 461, rfl⟩
abbrev main_v360 : Ref sig .tc := ⟨.hbm, 462, rfl⟩
abbrev main_cst_95 : Ref sig .tc := ⟨.hbm, 463, rfl⟩
abbrev main_v361 : Ref sig .tc := ⟨.hbm, 464, rfl⟩
abbrev main_cst_96 : Ref sig .tc := ⟨.hbm, 465, rfl⟩
abbrev main_v362 : Ref sig .tc := ⟨.hbm, 466, rfl⟩
abbrev main_v363 : Ref sig .tc := ⟨.hbm, 467, rfl⟩
abbrev main_cst_97 : Ref sig .tc := ⟨.hbm, 468, rfl⟩
abbrev main_v364 : Ref sig .tc := ⟨.hbm, 469, rfl⟩
abbrev main_cst_98 : Ref sig .tc := ⟨.hbm, 470, rfl⟩
abbrev main_v365 : Ref sig .tc := ⟨.hbm, 471, rfl⟩
abbrev main_v366 : Ref sig .tc := ⟨.hbm, 472, rfl⟩
abbrev main_v367 : Ref sig .tc := ⟨.hbm, 473, rfl⟩
abbrev main_cst_99 : Ref sig .tc := ⟨.hbm, 474, rfl⟩
abbrev main_v368 : Ref sig .tc := ⟨.hbm, 475, rfl⟩
abbrev main_cst_100 : Ref sig .tc := ⟨.hbm, 476, rfl⟩
abbrev main_call6_v0 : Ref sig .tc := ⟨.hbm, 477, rfl⟩
abbrev main_v369 : Ref sig .tc := ⟨.hbm, 478, rfl⟩

abbrev nD : Nat := 1
abbrev τ : Topo := Topo.v7x

variable {F : FTy → Type} [FloatOps F]

class Facts₀ : Prop where
  bcast_S_S1x1x2048x4096 : S_.BroadcastsInDim S1x1x2048x4096 (![] : Fin 0 → Fin S1x1x2048x4096.rank)
  pads_S1x1x2048x4096_S1x1x2068x4096_000_000_10100_000 : S1x1x2048x4096.Pads (![0, 0, 10, 0] : Fin 4 → Nat) ![0, 0, 10, 0] ![0, 0, 0, 0] S1x1x2068x4096
  h_S_ : 0 < S_.numel
  slices_S1x1x2068x4096_S1x1x2048x4096_0_0_0_0 : S1x1x2068x4096.Slices ![0, 0, 0, 0] S1x1x2048x4096
  slices_S1x1x2068x4096_S1x1x2048x4096_0_0_1_0 : S1x1x2068x4096.Slices ![0, 0, 1, 0] S1x1x2048x4096
  slices_S1x1x2068x4096_S1x1x2048x4096_0_0_2_0 : S1x1x2068x4096.Slices ![0, 0, 2, 0] S1x1x2048x4096
  slices_S1x1x2068x4096_S1x1x2048x4096_0_0_3_0 : S1x1x2068x4096.Slices ![0, 0, 3, 0] S1x1x2048x4096
  slices_S1x1x2068x4096_S1x1x2048x4096_0_0_4_0 : S1x1x2068x4096.Slices ![0, 0, 4, 0] S1x1x2048x4096
  slices_S1x1x2068x4096_S1x1x2048x4096_0_0_5_0 : S1x1x2068x4096.Slices ![0, 0, 5, 0] S1x1x2048x4096
  slices_S1x1x2068x4096_S1x1x2048x4096_0_0_6_0 : S1x1x2068x4096.Slices ![0, 0, 6, 0] S1x1x2048x4096
  slices_S1x1x2068x4096_S1x1x2048x4096_0_0_7_0 : S1x1x2068x4096.Slices ![0, 0, 7, 0] S1x1x2048x4096
  slices_S1x1x2068x4096_S1x1x2048x4096_0_0_8_0 : S1x1x2068x4096.Slices ![0, 0, 8, 0] S1x1x2048x4096
  slices_S1x1x2068x4096_S1x1x2048x4096_0_0_9_0 : S1x1x2068x4096.Slices ![0, 0, 9, 0] S1x1x2048x4096
  slices_S1x1x2068x4096_S1x1x2048x4096_0_0_10_0 : S1x1x2068x4096.Slices ![0, 0, 10, 0] S1x1x2048x4096
  slices_S1x1x2068x4096_S1x1x2048x4096_0_0_11_0 : S1x1x2068x4096.Slices ![0, 0, 11, 0] S1x1x2048x4096
  slices_S1x1x2068x4096_S1x1x2048x4096_0_0_12_0 : S1x1x2068x4096.Slices ![0, 0, 12, 0] S1x1x2048x4096
  slices_S1x1x2068x4096_S1x1x2048x4096_0_0_13_0 : S1x1x2068x4096.Slices ![0, 0, 13, 0] S1x1x2048x4096
  slices_S1x1x2068x4096_S1x1x2048x4096_0_0_14_0 : S1x1x2068x4096.Slices ![0, 0, 14, 0] S1x1x2048x4096
  slices_S1x1x2068x4096_S1x1x2048x4096_0_0_15_0 : S1x1x2068x4096.Slices ![0, 0, 15, 0] S1x1x2048x4096
  slices_S1x1x2068x4096_S1x1x2048x4096_0_0_16_0 : S1x1x2068x4096.Slices ![0, 0, 16, 0] S1x1x2048x4096
  slices_S1x1x2068x4096_S1x1x2048x4096_0_0_17_0 : S1x1x2068x4096.Slices ![0, 0, 17, 0] S1x1x2048x4096
  slices_S1x1x2068x4096_S1x1x2048x4096_0_0_18_0 : S1x1x2068x4096.Slices ![0, 0, 18, 0] S1x1x2048x4096
  slices_S1x1x2068x4096_S1x1x2048x4096_0_0_19_0 : S1x1x2068x4096.Slices ![0, 0, 19, 0] S1x1x2048x4096
  slices_S1x1x2068x4096_S1x1x2048x4096_0_0_20_0 : S1x1x2068x4096.Slices ![0, 0, 20, 0] S1x1x2048x4096
  pads_S1x1x2048x4096_S1x1x2048x4116_000_000_000_10100 : S1x1x2048x4096.Pads (![0, 0, 0, 10] : Fin 4 → Nat) ![0, 0, 0, 10] ![0, 0, 0, 0] S1x1x2048x4116
  slices_S1x1x2048x4116_S1x1x2048x4096_0_0_0_0 : S1x1x2048x4116.Slices ![0, 0, 0, 0] S1x1x2048x4096
  slices_S1x1x2048x4116_S1x1x2048x4096_0_0_0_1 : S1x1x2048x4116.Slices ![0, 0, 0, 1] S1x1x2048x4096
  slices_S1x1x2048x4116_S1x1x2048x4096_0_0_0_2 : S1x1x2048x4116.Slices ![0, 0, 0, 2] S1x1x2048x4096
  slices_S1x1x2048x4116_S1x1x2048x4096_0_0_0_3 : S1x1x2048x4116.Slices ![0, 0, 0, 3] S1x1x2048x4096
  slices_S1x1x2048x4116_S1x1x2048x4096_0_0_0_4 : S1x1x2048x4116.Slices ![0, 0, 0, 4] S1x1x2048x4096
  slices_S1x1x2048x4116_S1x1x2048x4096_0_0_0_5 : S1x1x2048x4116.Slices ![0, 0, 0, 5] S1x1x2048x4096
  slices_S1x1x2048x4116_S1x1x2048x4096_0_0_0_6 : S1x1x2048x4116.Slices ![0, 0, 0, 6] S1x1x2048x4096
  slices_S1x1x2048x4116_S1x1x2048x4096_0_0_0_7 : S1x1x2048x4116.Slices ![0, 0, 0, 7] S1x1x2048x4096
  slices_S1x1x2048x4116_S1x1x2048x4096_0_0_0_8 : S1x1x2048x4116.Slices ![0, 0, 0, 8] S1x1x2048x4096
  slices_S1x1x2048x4116_S1x1x2048x4096_0_0_0_9 : S1x1x2048x4116.Slices ![0, 0, 0, 9] S1x1x2048x4096
  slices_S1x1x2048x4116_S1x1x2048x4096_0_0_0_10 : S1x1x2048x4116.Slices ![0, 0, 0, 10] S1x1x2048x4096
  slices_S1x1x2048x4116_S1x1x2048x4096_0_0_0_11 : S1x1x2048x4116.Slices ![0, 0, 0, 11] S1x1x2048x4096
  slices_S1x1x2048x4116_S1x1x2048x4096_0_0_0_12 : S1x1x2048x4116.Slices ![0, 0, 0, 12] S1x1x2048x4096
  slices_S1x1x2048x4116_S1x1x2048x4096_0_0_0_13 : S1x1x2048x4116.Slices ![0, 0, 0, 13] S1x1x2048x4096
  slices_S1x1x2048x4116_S1x1x2048x4096_0_0_0_14 : S1x1x2048x4116.Slices ![0, 0, 0, 14] S1x1x2048x4096
  slices_S1x1x2048x4116_S1x1x2048x4096_0_0_0_15 : S1x1x2048x4116.Slices ![0, 0, 0, 15] S1x1x2048x4096
  slices_S1x1x2048x4116_S1x1x2048x4096_0_0_0_16 : S1x1x2048x4116.Slices ![0, 0, 0, 16] S1x1x2048x4096
  slices_S1x1x2048x4116_S1x1x2048x4096_0_0_0_17 : S1x1x2048x4116.Slices ![0, 0, 0, 17] S1x1x2048x4096
  slices_S1x1x2048x4116_S1x1x2048x4096_0_0_0_18 : S1x1x2048x4116.Slices ![0, 0, 0, 18] S1x1x2048x4096
  slices_S1x1x2048x4116_S1x1x2048x4096_0_0_0_19 : S1x1x2048x4116.Slices ![0, 0, 0, 19] S1x1x2048x4096
  slices_S1x1x2048x4116_S1x1x2048x4096_0_0_0_20 : S1x1x2048x4116.Slices ![0, 0, 0, 20] S1x1x2048x4096
  reducesTo_S1x1x2048x4096_S_d0_1_2_3 : S1x1x2048x4096.ReducesTo [0, 1, 2, 3] S_
  reducesTo_S1x1x2048x4096_S1_d1_2_3 : S1x1x2048x4096.ReducesTo [1, 2, 3] S1
  reducesTo_S1_S_d0 : S1.ReducesTo [0] S_
  bcast_S_S1 : S_.BroadcastsInDim S1 (![] : Fin 0 → Fin S1.rank)

variable [Facts₀]

class Facts : Prop extends Facts₀ where

variable [Facts]
-- ==== Proof.Word.Col0.lean ====
import proofs.«168916_j50233937494401_1_alg».proof.Proof.Gen.Kernel.Launch
import proofs.«168916_j50233937494401_1_alg».proof.Proof.Gen.Kernel.Skeleton
import proofs.«168916_j50233937494401_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The vertical min-plus pass (region 0): what one grid point computes, and its body obligation

One grid point of the vertical pass reads a whole column strip of the zero-padded image (2068 rows by 256
columns), and writes a whole strip of 2048 rows by 256 columns: row `i` of the result is the minimum over the 21
taps `k` of `cost (row i + k of the strip) + (k - 10)²`, where `cost` sends a foreground pixel to 0 and a
background pixel to the large constant. Nothing else in memory is written, and the result is a function of the
loaded strip alone. This file states that function (`pass0`), proves the body computes it in the staging
buffers, and packages the proof data the pipeline rule asks for, at an arbitrary entry contents `V`. -/

-- membership in a rectangle of these extents is decided structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The blocks of the two windows -/

/-- The block of window `w` (0: the padded input strip, 1: the output strip) at grid point `t`, read off the
    window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input strip's staging buffer holds the strip's block at every point, whichever buffer it is on: the window
    is fetched at every point, never cut, never idle; this holds for any proof data whose input array is `V`'s and
    whose body leaves the input block in place. -/
theorem inputBlock0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two rectangles the body touches: the whole input strip and the whole output strip -/

abbrev r0_in : Rect S2068x256 := Rect.unit (s := S2068x256) ![0, 0] S2068x256.size inb_S2068x256_S2068x256_0_0
abbrev r0_0 : Rect S2048x256 := Rect.unit (s := S2048x256) ![0, 0] S2048x256.size inb_S2048x256_S2048x256_0_0

/-! ## The value one grid point stores -/

/-- The strip the body stores, as a function of the strip it loaded: the costs of the 2068 loaded rows
    (`k0_pay1`), the running minimum over taps 0–8 (`k0_pay2`), the slice at tap 9 (`k0_pay3`), the
    squared offset of tap 9 (`k0_pay4`), and the minimum over the remaining taps 9–20 (`k0_pay5`). -/
def pass0 (x0 : Vec F S2068x256 .f32) : Vec F S2048x256 .f32 :=
  k0_pay5 (k0_pay1 x0) (k0_pay2 x0) (k0_pay3 x0) (k0_pay4 (F := F))

/-- The output strip's staging buffer after the body: one store over the whole buffer, of `pass0` of the whole
    loaded input strip. -/
def out0_1 (x0 : Vec F S2068x256 .f32) : Vec F S2048x256 .f32 :=
  View.canon [⟨r0_0, pass0 (View.ld x0 r0_in)⟩]

/-- The one store covers the output buffer: its rectangle is the whole buffer. -/
theorem cover0_1 (p0 : Vec F S2048x256 .f32) (y : S2048x256.Idx) :
    ∃ pc ∈ ([⟨r0_0, p0⟩] : List (View.Piece (Elt F) S2048x256 .f32)), y ∈ pc.1.set :=
  View.cover_of_tiled [⟨r0_0, p0⟩] S2048x256.size (by rfl) y

/-! ## The body's triple -/

set_option maxHeartbeats 1000000 in
/-- The kernel body on whole staging memrefs — the input's holding `x0`, the output's holding anything — runs to a
    state where the input's still holds `x0` and the output's holds `out0_1 x0`. The body loads the input
    strip, computes, loads the output buffer once (the value is not used), and stores the result over it. -/
theorem sound_kernel0 (c : Dev nD) (E : Set ℕ) (i : grid0.Coords)
    (arg1 : Memref sig .tc .vmem S2068x256 .f32) (harg1 : arg1.IsWhole) (arg2 : Memref sig .tc .vmem S2048x256 .f32) (harg2 : arg2.IsWhole)
    (x0 : Vec F S2068x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__h_pass_kernel i arg1 harg1 arg2 harg2) K := by
  simp only [cc0__h_pass_kernel_eq_skeleton]; unfold cc0__h_pass_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of this region's pipeline on core `c`: the arrays as the region finds them; after the body at
    point `t` the input's buffer at its block and the output's at `out0_1` of the input block; the invariant is
    the class's (everything the region does not touch, unchanged); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  inputBlock0_of V (dat0 V c) (A_eq0 V c 0) (after0_0 V c) t d

/-! ## The body obligation, at a generic point -/

/-- What the body is called with at point `t`: the invariant, the owed counter, and the two staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    owed counter pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Word.Row1.lean ====
import proofs.«168916_j50233937494401_1_alg».proof.Proof.Gen.Kernel.Launch
import proofs.«168916_j50233937494401_1_alg».proof.Proof.Gen.Kernel.Skeleton
import proofs.«168916_j50233937494401_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The horizontal min-plus pass (region 1): what one grid point computes, and its body obligation

One grid point of the horizontal pass reads a whole band of rows of the padded vertical-pass result (128 rows by
4116 columns, the 10 columns on each side holding the large constant), and writes a whole band of 128 rows by 4096
columns: column `j` of the result is `min (sqrt (min over the 21 taps k of (column j + k of the band) + (k - 10)²)) 10`.
Nothing else in memory is written, and the result is a function of the loaded band alone. This file states that
function (`pass1`), proves the body computes it in the staging buffers, and packages the proof data the pipeline
rule asks for, at an arbitrary entry contents `V`. -/

-- membership in a rectangle of these extents is decided structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The blocks of the two windows -/

/-- The block of window `w` (0: the padded input band, 1: the output band) at grid point `t`, read off the
    window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input band's staging buffer holds the band's block at every point, whichever buffer it is on: the window
    is fetched at every point, never cut, never idle; this holds for any proof data whose input array is `V`'s and
    whose body leaves the input block in place. -/
theorem inputBlock1_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two rectangles the body touches: the whole input band and the whole output band -/

abbrev r1_in : Rect S128x4116 := Rect.unit (s := S128x4116) ![0, 0] S128x4116.size inb_S128x4116_S128x4116_0_0
abbrev r1_0 : Rect S128x4096 := Rect.unit (s := S128x4096) ![0, 0] S128x4096.size inb_S128x4096_S128x4096_0_0

/-! ## The value one grid point stores -/

/-- The band the body stores, as a function of the band it loaded: the loaded band itself (`k1_pay2`, a shape
    cast to the same shape), the running minimum over taps 0–10 (`k1_pay3`), the slice at tap 11
    (`k1_pay4`), and the minimum over the remaining taps 11–20 followed by the square root and the clamp at 10
    (`k1_pay1`). -/
def pass1 (x0 : Vec F S128x4116 .f32) : Vec F S128x4096 .f32 :=
  k1_pay1 (k1_pay2 x0) (k1_pay3 x0) (k1_pay4 x0)

/-- The output band's staging buffer after the body: one store over the whole buffer, of `pass1` of the whole
    loaded input band. -/
def out1_1 (x0 : Vec F S128x4116 .f32) : Vec F S128x4096 .f32 :=
  View.canon [⟨r1_0, pass1 (View.ld x0 r1_in)⟩]

/-- The one store covers the output buffer: its rectangle is the whole buffer. -/
theorem cover1_1 (p0 : Vec F S128x4096 .f32) (y : S128x4096.Idx) :
    ∃ pc ∈ ([⟨r1_0, p0⟩] : List (View.Piece (Elt F) S128x4096 .f32)), y ∈ pc.1.set :=
  View.cover_of_tiled [⟨r1_0, p0⟩] S128x4096.size (by rfl) y

/-! ## The body's triple -/

set_option maxHeartbeats 1000000 in
/-- The kernel body on whole staging memrefs — the input's holding `x0`, the output's holding anything — runs to a
    state where the input's still holds `x0` and the output's holds `out1_1 x0`. The body loads the input
    band, computes, loads the output buffer once (the value is not used), and stores the result over it. -/
theorem sound_kernel1 (c : Dev nD) (E : Set ℕ) (i : grid1.Coords)
    (arg1 : Memref sig .tc .vmem S128x4116 .f32) (harg1 : arg1.IsWhole) (arg2 : Memref sig .tc .vmem S128x4096 .f32) (harg2 : arg2.IsWhole)
    (x0 : Vec F S128x4116 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__w_pass_kernel i arg1 harg1 arg2 harg2) K := by
  simp only [cc1__w_pass_kernel_eq_skeleton]; unfold cc1__w_pass_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of this region's pipeline on core `c`: the arrays as the region finds them; after the body at
    point `t` the input's buffer at its block and the output's at `out1_1` of the input block; the invariant is
    the class's (everything the region does not touch, unchanged); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  inputBlock1_of V (dat1 V c) (A_eq1 V c 0) (after1_0 V c) t d

/-! ## The body obligation, at a generic point -/

/-- What the body is called with at point `t`: the invariant, the owed counter, and the two staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    owed counter pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Word.Col2.lean ====
import proofs.«168916_j50233937494401_1_alg».proof.Proof.Gen.Kernel.Launch
import proofs.«168916_j50233937494401_1_alg».proof.Proof.Gen.Kernel.Skeleton
import proofs.«168916_j50233937494401_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The vertical min-plus pass (region 2): what one grid point computes, and its body obligation

One grid point of the vertical pass reads a whole column strip of the zero-padded image (2068 rows by 256
columns), and writes a whole strip of 2048 rows by 256 columns: row `i` of the result is the minimum over the 21
taps `k` of `cost (row i + k of the strip) + (k - 10)²`, where `cost` sends a foreground pixel to 0 and a
background pixel to the large constant. Nothing else in memory is written, and the result is a function of the
loaded strip alone. This file states that function (`pass2`), proves the body computes it in the staging
buffers, and packages the proof data the pipeline rule asks for, at an arbitrary entry contents `V`. -/

-- membership in a rectangle of these extents is decided structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The blocks of the two windows -/

/-- The block of window `w` (0: the padded input strip, 1: the output strip) at grid point `t`, read off the
    window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input strip's staging buffer holds the strip's block at every point, whichever buffer it is on: the window
    is fetched at every point, never cut, never idle; this holds for any proof data whose input array is `V`'s and
    whose body leaves the input block in place. -/
theorem inputBlock2_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The two rectangles the body touches: the whole input strip and the whole output strip -/

abbrev r2_in : Rect S2068x256 := Rect.unit (s := S2068x256) ![0, 0] S2068x256.size inb_S2068x256_S2068x256_0_0
abbrev r2_0 : Rect S2048x256 := Rect.unit (s := S2048x256) ![0, 0] S2048x256.size inb_S2048x256_S2048x256_0_0

/-! ## The value one grid point stores -/

/-- The strip the body stores, as a function of the strip it loaded: the costs of the 2068 loaded rows
    (`k2_pay1`), the running minimum over taps 0–8 (`k2_pay2`), the slice at tap 9 (`k2_pay3`), the
    squared offset of tap 9 (`k2_pay4`), and the minimum over the remaining taps 9–20 (`k2_pay5`). -/
def pass2 (x0 : Vec F S2068x256 .f32) : Vec F S2048x256 .f32 :=
  k2_pay5 (k2_pay1 x0) (k2_pay2 x0) (k2_pay3 x0) (k2_pay4 (F := F))

/-- The output strip's staging buffer after the body: one store over the whole buffer, of `pass2` of the whole
    loaded input strip. -/
def out2_1 (x0 : Vec F S2068x256 .f32) : Vec F S2048x256 .f32 :=
  View.canon [⟨r2_0, pass2 (View.ld x0 r2_in)⟩]

/-- The one store covers the output buffer: its rectangle is the whole buffer. -/
theorem cover2_1 (p0 : Vec F S2048x256 .f32) (y : S2048x256.Idx) :
    ∃ pc ∈ ([⟨r2_0, p0⟩] : List (View.Piece (Elt F) S2048x256 .f32)), y ∈ pc.1.set :=
  View.cover_of_tiled [⟨r2_0, p0⟩] S2048x256.size (by rfl) y

/-! ## The body's triple -/

set_option maxHeartbeats 1000000 in
/-- The kernel body on whole staging memrefs — the input's holding `x0`, the output's holding anything — runs to a
    state where the input's still holds `x0` and the output's holds `out2_1 x0`. The body loads the input
    strip, computes, loads the output buffer once (the value is not used), and stores the result over it. -/
theorem sound_kernel2 (c : Dev nD) (E : Set ℕ) (i : grid2.Coords)
    (arg1 : Memref sig .tc .vmem S2068x256 .f32) (harg1 : arg1.IsWhole) (arg2 : Memref sig .tc .vmem S2048x256 .f32) (harg2 : arg2.IsWhole)
    (x0 : Vec F S2068x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__h_pass_kernel i arg1 harg1 arg2 harg2) K := by
  simp only [cc2__h_pass_kernel_eq_skeleton]; unfold cc2__h_pass_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of this region's pipeline on core `c`: the arrays as the region finds them; after the body at
    point `t` the input's buffer at its block and the output's at `out2_1` of the input block; the invariant is
    the class's (everything the region does not touch, unchanged); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- The input's current staging buffer holds its block at every point. -/
theorem before2_0 (c : Dev nD) (t : Fin cfg2.N) (d) : (dat2 V c).before 0 t d = iblk2 V c 0 t :=
  inputBlock2_of V (dat2 V c) (A_eq2 V c 0) (after2_0 V c) t d

/-! ## The body obligation, at a generic point -/

/-- What the body is called with at point `t`: the invariant, the owed counter, and the two staging buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so the body's triple applies; the invariant and the
    owed counter pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.Word.Row3.lean ====
import proofs.«168916_j50233937494401_1_alg».proof.Proof.Gen.Kernel.Launch
import proofs.«168916_j50233937494401_1_alg».proof.Proof.Gen.Kernel.Skeleton
import proofs.«168916_j50233937494401_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The horizontal min-plus pass (region 3): what one grid point computes, and its body obligation

One grid point of the horizontal pass reads a whole band of rows of the padded vertical-pass result (128 rows by
4116 columns, the 10 columns on each side holding the large constant), and writes a whole band of 128 rows by 4096
columns: column `j` of the result is `min (sqrt (min over the 21 taps k of (column j + k of the band) + (k - 10)²)) 10`.
Nothing else in memory is written, and the result is a function of the loaded band alone. This file states that
function (`pass3`), proves the body computes it in the staging buffers, and packages the proof data the pipeline
rule asks for, at an arbitrary entry contents `V`. -/

-- membership in a rectangle of these extents is decided structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The blocks of the two windows -/

/-- The block of window `w` (0: the padded input band, 1: the output band) at grid point `t`, read off the
    window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input band's staging buffer holds the band's block at every point, whichever buffer it is on: the window
    is fetched at every point, never cut, never idle; this holds for any proof data whose input array is `V`'s and
    whose body leaves the input block in place. -/
theorem inputBlock3_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The two rectangles the body touches: the whole input band and the whole output band -/

abbrev r3_in : Rect S128x4116 := Rect.unit (s := S128x4116) ![0, 0] S128x4116.size inb_S128x4116_S128x4116_0_0
abbrev r3_0 : Rect S128x4096 := Rect.unit (s := S128x4096) ![0, 0] S128x4096.size inb_S128x4096_S128x4096_0_0

/-! ## The value one grid point stores -/

/-- The band the body stores, as a function of the band it loaded: the loaded band itself (`k3_pay2`, a shape
    cast to the same shape), the running minimum over taps 0–10 (`k3_pay3`), the slice at tap 11
    (`k3_pay4`), and the minimum over the remaining taps 11–20 followed by the square root and the clamp at 10
    (`k3_pay1`). -/
def pass3 (x0 : Vec F S128x4116 .f32) : Vec F S128x4096 .f32 :=
  k3_pay1 (k3_pay2 x0) (k3_pay3 x0) (k3_pay4 x0)

/-- The output band's staging buffer after the body: one store over the whole buffer, of `pass3` of the whole
    loaded input band. -/
def out3_1 (x0 : Vec F S128x4116 .f32) : Vec F S128x4096 .f32 :=
  View.canon [⟨r3_0, pass3 (View.ld x0 r3_in)⟩]

/-- The one store covers the output buffer: its rectangle is the whole buffer. -/
theorem cover3_1 (p0 : Vec F S128x4096 .f32) (y : S128x4096.Idx) :
    ∃ pc ∈ ([⟨r3_0, p0⟩] : List (View.Piece (Elt F) S128x4096 .f32)), y ∈ pc.1.set :=
  View.cover_of_tiled [⟨r3_0, p0⟩] S128x4096.size (by rfl) y

/-! ## The body's triple -/

set_option maxHeartbeats 1000000 in
/-- The kernel body on whole staging memrefs — the input's holding `x0`, the output's holding anything — runs to a
    state where the input's still holds `x0` and the output's holds `out3_1 x0`. The body loads the input
    band, computes, loads the output buffer once (the value is not used), and stores the result over it. -/
theorem sound_kernel3 (c : Dev nD) (E : Set ℕ) (i : grid3.Coords)
    (arg1 : Memref sig .tc .vmem S128x4116 .f32) (harg1 : arg1.IsWhole) (arg2 : Memref sig .tc .vmem S128x4096 .f32) (harg2 : arg2.IsWhole)
    (x0 : Vec F S128x4116 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__w_pass_kernel i arg1 harg1 arg2 harg2) K := by
  simp only [cc3__w_pass_kernel_eq_skeleton]; unfold cc3__w_pass_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The proof data of this region's pipeline on core `c`: the arrays as the region finds them; after the body at
    point `t` the input's buffer at its block and the output's at `out3_1` of the input block; the invariant is
    the class's (everything the region does not touch, unchanged); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

/-- The input's current staging buffer holds its block at every point. -/
theorem before3_0 (c : Dev nD) (t : Fin cfg3.N) (d) : (dat3 V c).before 0 t d = iblk3 V c 0 t :=
  inputBlock3_of V (dat3 V c) (A_eq3 V c 0) (after3_0 V c) t d

/-! ## The body obligation, at a generic point -/

/-- What the body is called with at point `t`: the invariant, the owed counter, and the two staging buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the body's triple applies; the invariant and the
    owed counter pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.Word.Totals.lean ====
import proofs.«168916_j50233937494401_1_alg».proof.Proof.Gen.Kernel.Launch
import proofs.«168916_j50233937494401_1_alg».proof.Proof.Gen.Kernel.Skeleton
import proofs.«168916_j50233937494401_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The totals kernel: loads and stores through whole buffers -/

/-- The zero offsets of a rank-2 access, as a constant function. -/
theorem off00 : (![0, 0] : Fin 2 → ℕ) = fun _ => 0 := by funext a; fin_cases a <;> rfl

/-- A load through the whole-shape rectangle of a whole [64,4096] buffer whose contents read `X` reads `X`. -/
theorem load_whole_S64x4096 {m : Memref sig .tc .vmem S64x4096 .f32} (h : m.IsWhole) (X : Vec F S64x4096 .f32) :
    View.readAt (Elt F) m.view (Rect.unit (s := S64x4096) ![0, 0] S64x4096.size inb_S64x4096_S64x4096_0_0).toLoadRect (h.unread X) = X := by
  rw [View.readAt_eq_ld, h.read_unread]
  exact View.ld_unit_zero off00 _ X

/-- The same for a whole [1,1] buffer. -/
theorem load_whole_S1x1 {m : Memref sig .tc .vmem S1x1 .f32} (h : m.IsWhole) (X : Vec F S1x1 .f32) :
    View.readAt (Elt F) m.view (Rect.unit (s := S1x1) ![0, 0] S1x1.size inb_S1x1_S1x1_0_0).toLoadRect (h.unread X) = X := by
  rw [View.readAt_eq_ld, h.read_unread]
  exact View.ld_unit_zero off00 _ X

/-- A [1,1] buffer whose LAST store went through the whole-shape rectangle reads that store's value, whatever
    was stored before and whatever it held. -/
theorem read_last_S1x1 (v : View sig .tc .vmem S1x1 .f32) (f : v.ty.Contents (Elt F)) (w : Vec F S1x1 .f32)
    (L : List (View.Piece (Elt F) S1x1 .f32)) :
    v.read (Elt F) (v.writes (Elt F) f ((⟨Rect.unit (s := S1x1) ![0, 0] S1x1.size inb_S1x1_S1x1_0_0, w⟩ : View.Piece (Elt F) S1x1 .f32) :: L)) = w := by
  rw [View.read_writes_eq_canon _ _ _ (fun y => ⟨_, List.mem_cons_self, View.mem_set_unit_zero off00 inb_S1x1_S1x1_0_0 y⟩)]
  exact View.canon_cons_unit_zero off00 _ w L

/-- A load through the whole-shape rectangle of a [1,1] buffer whose last store went through it reads that store's value. -/
theorem readCov_last_S1x1 (v : View sig .tc .vmem S1x1 .f32) (w : Vec F S1x1 .f32) (L : List (View.Piece (Elt F) S1x1 .f32)) :
    v.readCov ((⟨Rect.unit (s := S1x1) ![0, 0] S1x1.size inb_S1x1_S1x1_0_0, w⟩ : View.Piece (Elt F) S1x1 .f32) :: L)
      (Rect.unit (s := S1x1) ![0, 0] S1x1.size inb_S1x1_S1x1_0_0).toLoadRect = w := by
  rw [View.readCov_eq_canon_ld _ _ _ (fun y => ⟨_, List.mem_cons_self, View.mem_set_unit_zero off00 inb_S1x1_S1x1_0_0 y⟩),
    View.canon_cons_unit_zero off00, View.ld_unit_zero off00]

/-- A function of four arguments at equal arguments. -/
theorem congrArg₄ {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

/-! ## The branch conditions -/

/-- The first branch condition of the totals kernel (the accumulators are zeroed): the grid coordinate is zero. -/
abbrev cond4_0 (i : grid4.Coords) : Prop := (Scalar.cmpi .ne (Scalar.extui (Scalar.cmpi .eq (BitVec.ofNat 32 (i 0).val) 0#32)) 0#32) = 1#1
/-- The second (the accumulators are copied out): the grid coordinate is the last. -/
abbrev cond4_2 (i : grid4.Coords) : Prop := k4_cond2 i = 1#1

/-- The accumulators are zeroed at point 0 only. -/
theorem hcond4_0 : ∀ t : Fin cfg4.N, cond4_0 (grid4.coords t) ↔ t.val = 0 :=
  (by decide +kernel : ∀ t : Fin grid4.N, cond4_0 (grid4.coords t) ↔ t.val = 0)
/-- They are copied out at point 31 only. -/
theorem hcond4_2 : ∀ t : Fin cfg4.N, cond4_2 (grid4.coords t) ↔ t.val = 31 :=
  (by decide +kernel : ∀ t : Fin grid4.N, cond4_2 (grid4.coords t) ↔ t.val = 31)

/-! ## The three tile totals -/

/-- Total 0 of a tile: the sum over the tile of pred·[D_gt < 10]. Depends on the D_gt and pred blocks. -/
def tile4_0 (x0 x1 x2 x3 : Vec F S64x4096 .f32) : Vec F S1x1 .f32 := k4_pay10 x0 x3
/-- Total 1 of a tile: the sum of min(D_gt·pred, 10) + min(D_est·gt, 10). Depends on all four blocks. -/
def tile4_1 (x0 x1 x2 x3 : Vec F S64x4096 .f32) : Vec F S1x1 .f32 := k4_pay11 x0 x1 x2 x3
/-- Total 2 of a tile: the sum of pred + gt. Depends on the gt and pred blocks. -/
def tile4_2 (x0 x1 x2 x3 : Vec F S64x4096 .f32) : Vec F S1x1 .f32 := k4_pay12 x2 x3

/-! ## The body, case by case -/

set_option maxHeartbeats 1600000 in
/-- Point 0: the three accumulators, whatever they held, are zeroed and then take the tile's totals; the inputs and
    the outputs are left as they were. -/
theorem run4_A (c : Dev nD) (i : grid4.Coords)
    (arg1 : Memref sig .tc .vmem S64x4096 .f32) (harg1 : arg1.IsWhole) (arg2 : Memref sig .tc .vmem S64x4096 .f32) (harg2 : arg2.IsWhole)
    (arg3 : Memref sig .tc .vmem S64x4096 .f32) (harg3 : arg3.IsWhole) (arg4 : Memref sig .tc .vmem S64x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole)
    (hc0 : cond4_0 i) (hc2 : ¬cond4_2 i)
    (x0 x1 x2 x3 : Vec F S64x4096 .f32) (y4 y5 y6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare y6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5 ∗ owns (c : Thread nD τ) arg7 fullShare y6
            ∗ owns (c : Thread nD τ) arg8 fullShare (k4_pay1 (tile4_0 x0 x1 x2 x3) (k4_pay4 (F := F))) ∗ owns (c : Thread nD τ) arg9 fullShare (k4_pay2 (tile4_1 x0 x1 x2 x3) (k4_pay5 (F := F)))
            ∗ owns (c : Thread nD τ) arg10 fullShare (k4_pay3 (tile4_2 x0 x1 x2 x3) (k4_pay6 (F := F)))) -∗ K ⟨⟩))
      ⊢ wp frame (wpE (defs₀ (F := F)) Variants.none c none) E (cc4__reduce_kernel i arg1 harg1 arg2 harg2 arg3 harg3 arg4 harg4 arg5 harg5 arg6 harg6 arg7 harg7 arg8 harg8 arg9 harg9 arg10 harg10) K := by
  simp only [cc4__reduce_kernel_eq_skeleton]; unfold cc4__reduce_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [HS0]
  · iexists _; isplitr
    swap; · iexact HS0
    ipureintro
    sl_unfold_run_names
    exact (read_last_S1x1 (F := F) _ _ _ _).trans (congrArg₂ (k4_pay1 (F := F)) (congrArg₂ (k4_pay10 (F := F)) (load_whole_S64x4096 harg1 x0) (load_whole_S64x4096 harg4 x3)) (readCov_last_S1x1 (F := F) _ _ _))
  isplitl [HS1]
  · iexists _; isplitr
    swap; · iexact HS1
    ipureintro
    sl_unfold_run_names
    exact (read_last_S1x1 (F := F) _ _ _ _).trans (congrArg₂ (k4_pay2 (F := F)) (congrArg₄ (k4_pay11 (F := F)) (load_whole_S64x4096 harg1 x0) (load_whole_S64x4096 harg2 x1) (load_whole_S64x4096 harg3 x2) (load_whole_S64x4096 harg4 x3)) (readCov_last_S1x1 (F := F) _ _ _))
  · iexists _; isplitr
    swap; · iexact HS2
    ipureintro
    sl_unfold_run_names
    exact (read_last_S1x1 (F := F) _ _ _ _).trans (congrArg₂ (k4_pay3 (F := F)) (congrArg₂ (k4_pay12 (F := F)) (load_whole_S64x4096 harg3 x2) (load_whole_S64x4096 harg4 x3)) (readCov_last_S1x1 (F := F) _ _ _))

set_option maxHeartbeats 1600000 in
/-- Points 1 to 30: each accumulator takes the tile's total on top of what it held; the inputs and the outputs are
    left as they were. -/
theorem run4_B (c : Dev nD) (i : grid4.Coords)
    (arg1 : Memref sig .tc .vmem S64x4096 .f32) (harg1 : arg1.IsWhole) (arg2 : Memref sig .tc .vmem S64x4096 .f32) (harg2 : arg2.IsWhole)
    (arg3 : Memref sig .tc .vmem S64x4096 .f32) (harg3 : arg3.IsWhole) (arg4 : Memref sig .tc .vmem S64x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole)
    (hc0 : ¬cond4_0 i) (hc2 : ¬cond4_2 i)
    (x0 x1 x2 x3 : Vec F S64x4096 .f32) (y4 y5 y6 s0 s1 s2 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare y6
        ∗ owns (c : Thread nD τ) arg8 fullShare s0 ∗ owns (c : Thread nD τ) arg9 fullShare s1 ∗ owns (c : Thread nD τ) arg10 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5 ∗ owns (c : Thread nD τ) arg7 fullShare y6
            ∗ owns (c : Thread nD τ) arg8 fullShare (k4_pay1 (tile4_0 x0 x1 x2 x3) s0) ∗ owns (c : Thread nD τ) arg9 fullShare (k4_pay2 (tile4_1 x0 x1 x2 x3) s1)
            ∗ owns (c : Thread nD τ) arg10 fullShare (k4_pay3 (tile4_2 x0 x1 x2 x3) s2)) -∗ K ⟨⟩))
      ⊢ wp frame (wpE (defs₀ (F := F)) Variants.none c none) E (cc4__reduce_kernel i arg1 harg1 arg2 harg2 arg3 harg3 arg4 harg4 arg5 harg5 arg6 harg6 arg7 harg7 arg8 harg8 arg9 harg9 arg10 harg10) K := by
  simp only [cc4__reduce_kernel_eq_skeleton]; unfold cc4__reduce_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1; obtain rfl := harg10.eq_unread hfs2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [HS0]
  · iexists _; isplitr
    swap; · iexact HS0
    ipureintro
    sl_unfold_run_names
    exact (read_last_S1x1 (F := F) _ _ _ _).trans (congrArg₂ (k4_pay1 (F := F)) (congrArg₂ (k4_pay10 (F := F)) (load_whole_S64x4096 harg1 x0) (load_whole_S64x4096 harg4 x3)) (load_whole_S1x1 harg8 s0))
  isplitl [HS1]
  · iexists _; isplitr
    swap; · iexact HS1
    ipureintro
    sl_unfold_run_names
    exact (read_last_S1x1 (F := F) _ _ _ _).trans (congrArg₂ (k4_pay2 (F := F)) (congrArg₄ (k4_pay11 (F := F)) (load_whole_S64x4096 harg1 x0) (load_whole_S64x4096 harg2 x1) (load_whole_S64x4096 harg3 x2) (load_whole_S64x4096 harg4 x3)) (load_whole_S1x1 harg9 s1))
  · iexists _; isplitr
    swap; · iexact HS2
    ipureintro
    sl_unfold_run_names
    exact (read_last_S1x1 (F := F) _ _ _ _).trans (congrArg₂ (k4_pay3 (F := F)) (congrArg₂ (k4_pay12 (F := F)) (load_whole_S64x4096 harg3 x2) (load_whole_S64x4096 harg4 x3)) (load_whole_S1x1 harg10 s2))

set_option maxHeartbeats 1600000 in
/-- Point 31: each accumulator takes the tile's total on top of what it held, and the three outputs, whatever
    they held, take the accumulators' new values; the inputs are left as they were. -/
theorem run4_C (c : Dev nD) (i : grid4.Coords)
    (arg1 : Memref sig .tc .vmem S64x4096 .f32) (harg1 : arg1.IsWhole) (arg2 : Memref sig .tc .vmem S64x4096 .f32) (harg2 : arg2.IsWhole)
    (arg3 : Memref sig .tc .vmem S64x4096 .f32) (harg3 : arg3.IsWhole) (arg4 : Memref sig .tc .vmem S64x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole)
    (hc0 : ¬cond4_0 i) (hc2 : cond4_2 i)
    (x0 x1 x2 x3 : Vec F S64x4096 .f32) (s0 s1 s2 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1 ∗ owns (c : Thread nD τ) arg10 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay1 (tile4_0 x0 x1 x2 x3) s0) ∗ owns (c : Thread nD τ) arg6 fullShare (k4_pay2 (tile4_1 x0 x1 x2 x3) s1) ∗ owns (c : Thread nD τ) arg7 fullShare (k4_pay3 (tile4_2 x0 x1 x2 x3) s2)
            ∗ owns (c : Thread nD τ) arg8 fullShare (k4_pay1 (tile4_0 x0 x1 x2 x3) s0) ∗ owns (c : Thread nD τ) arg9 fullShare (k4_pay2 (tile4_1 x0 x1 x2 x3) s1)
            ∗ owns (c : Thread nD τ) arg10 fullShare (k4_pay3 (tile4_2 x0 x1 x2 x3) s2)) -∗ K ⟨⟩))
      ⊢ wp frame (wpE (defs₀ (F := F)) Variants.none c none) E (cc4__reduce_kernel i arg1 harg1 arg2 harg2 arg3 harg3 arg4 harg4 arg5 harg5 arg6 harg6 arg7 harg7 arg8 harg8 arg9 harg9 arg10 harg10) K := by
  simp only [cc4__reduce_kernel_eq_skeleton]; unfold cc4__reduce_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1; obtain rfl := harg10.eq_unread hfs2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    exact (read_last_S1x1 (F := F) _ _ _ _).trans ((readCov_last_S1x1 (F := F) _ _ _).trans (congrArg₂ (k4_pay1 (F := F)) (congrArg₂ (k4_pay10 (F := F)) (load_whole_S64x4096 harg1 x0) (load_whole_S64x4096 harg4 x3)) (load_whole_S1x1 harg8 s0)))
  isplitl [H5]
  · iexists _; isplitr
    swap; · iexact H5
    ipureintro
    sl_unfold_run_names
    exact (read_last_S1x1 (F := F) _ _ _ _).trans ((readCov_last_S1x1 (F := F) _ _ _).trans (congrArg₂ (k4_pay2 (F := F)) (congrArg₄ (k4_pay11 (F := F)) (load_whole_S64x4096 harg1 x0) (load_whole_S64x4096 harg2 x1) (load_whole_S64x4096 harg3 x2) (load_whole_S64x4096 harg4 x3)) (load_whole_S1x1 harg9 s1)))
  isplitl [H6]
  · iexists _; isplitr
    swap; · iexact H6
    ipureintro
    sl_unfold_run_names
    exact (read_last_S1x1 (F := F) _ _ _ _).trans ((readCov_last_S1x1 (F := F) _ _ _).trans (congrArg₂ (k4_pay3 (F := F)) (congrArg₂ (k4_pay12 (F := F)) (load_whole_S64x4096 harg3 x2) (load_whole_S64x4096 harg4 x3)) (load_whole_S1x1 harg10 s2)))
  isplitl [HS0]
  · iexists _; isplitr
    swap; · iexact HS0
    ipureintro
    sl_unfold_run_names
    exact (read_last_S1x1 (F := F) _ _ _ _).trans (congrArg₂ (k4_pay1 (F := F)) (congrArg₂ (k4_pay10 (F := F)) (load_whole_S64x4096 harg1 x0) (load_whole_S64x4096 harg4 x3)) (load_whole_S1x1 harg8 s0))
  isplitl [HS1]
  · iexists _; isplitr
    swap; · iexact HS1
    ipureintro
    sl_unfold_run_names
    exact (read_last_S1x1 (F := F) _ _ _ _).trans (congrArg₂ (k4_pay2 (F := F)) (congrArg₄ (k4_pay11 (F := F)) (load_whole_S64x4096 harg1 x0) (load_whole_S64x4096 harg2 x1) (load_whole_S64x4096 harg3 x2) (load_whole_S64x4096 harg4 x3)) (load_whole_S1x1 harg9 s1))
  · iexists _; isplitr
    swap; · iexact HS2
    ipureintro
    sl_unfold_run_names
    exact (read_last_S1x1 (F := F) _ _ _ _).trans (congrArg₂ (k4_pay3 (F := F)) (congrArg₂ (k4_pay12 (F := F)) (load_whole_S64x4096 harg3 x2) (load_whole_S64x4096 harg4 x3)) (load_whole_S1x1 harg10 s2))

/-! ## The proof data of the totals region -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Accumulator 0 after point `n`: at point 0 the zeroed cell plus the tile's total 0, afterwards the value after
    the point before plus this point's. -/
def acc4_0 (c : Dev nD) : (n : ℕ) → n < cfg4.N → Vec F S1x1 .f32
  | 0, h => k4_pay1 (tile4_0 (iblk4 V c 0 ⟨0, h⟩) (iblk4 V c 1 ⟨0, h⟩) (iblk4 V c 2 ⟨0, h⟩) (iblk4 V c 3 ⟨0, h⟩)) (k4_pay4 (F := F))
  | n + 1, h => k4_pay1 (tile4_0 (iblk4 V c 0 ⟨n + 1, h⟩) (iblk4 V c 1 ⟨n + 1, h⟩) (iblk4 V c 2 ⟨n + 1, h⟩) (iblk4 V c 3 ⟨n + 1, h⟩)) (acc4_0 c n (Nat.lt_of_succ_lt h))

theorem acc4_0_zero (c : Dev nD) (t : Fin cfg4.N) (h : t.val = 0) :
    acc4_0 V c t.val t.isLt = k4_pay1 (tile4_0 (iblk4 V c 0 t) (iblk4 V c 1 t) (iblk4 V c 2 t) (iblk4 V c 3 t)) (k4_pay4 (F := F)) := by
  obtain ⟨n, hn⟩ := t
  cases n with
  | zero => rfl
  | succ n => exact absurd h (Nat.succ_ne_zero n)

theorem acc4_0_pos (c : Dev nD) (t : Fin cfg4.N) (h : t.val ≠ 0) :
    acc4_0 V c t.val t.isLt = k4_pay1 (tile4_0 (iblk4 V c 0 t) (iblk4 V c 1 t) (iblk4 V c 2 t) (iblk4 V c 3 t)) (acc4_0 V c (t.val - 1) (Nat.lt_of_le_of_lt (Nat.sub_le _ _) t.isLt)) := by
  obtain ⟨n, hn⟩ := t
  cases n with
  | zero => exact absurd rfl h
  | succ n => rfl

theorem acc4_0_congr (c : Dev nD) (n n' : ℕ) (e : n = n') (h : n < cfg4.N) (h' : n' < cfg4.N) : acc4_0 V c n h = acc4_0 V c n' h' := by
  subst e; rfl

/-- Accumulator 1 after point `n`: at point 0 the zeroed cell plus the tile's total 1, afterwards the value after
    the point before plus this point's. -/
def acc4_1 (c : Dev nD) : (n : ℕ) → n < cfg4.N → Vec F S1x1 .f32
  | 0, h => k4_pay2 (tile4_1 (iblk4 V c 0 ⟨0, h⟩) (iblk4 V c 1 ⟨0, h⟩) (iblk4 V c 2 ⟨0, h⟩) (iblk4 V c 3 ⟨0, h⟩)) (k4_pay5 (F := F))
  | n + 1, h => k4_pay2 (tile4_1 (iblk4 V c 0 ⟨n + 1, h⟩) (iblk4 V c 1 ⟨n + 1, h⟩) (iblk4 V c 2 ⟨n + 1, h⟩) (iblk4 V c 3 ⟨n + 1, h⟩)) (acc4_1 c n (Nat.lt_of_succ_lt h))

theorem acc4_1_zero (c : Dev nD) (t : Fin cfg4.N) (h : t.val = 0) :
    acc4_1 V c t.val t.isLt = k4_pay2 (tile4_1 (iblk4 V c 0 t) (iblk4 V c 1 t) (iblk4 V c 2 t) (iblk4 V c 3 t)) (k4_pay5 (F := F)) := by
  obtain ⟨n, hn⟩ := t
  cases n with
  | zero => rfl
  | succ n => exact absurd h (Nat.succ_ne_zero n)

theorem acc4_1_pos (c : Dev nD) (t : Fin cfg4.N) (h : t.val ≠ 0) :
    acc4_1 V c t.val t.isLt = k4_pay2 (tile4_1 (iblk4 V c 0 t) (iblk4 V c 1 t) (iblk4 V c 2 t) (iblk4 V c 3 t)) (acc4_1 V c (t.val - 1) (Nat.lt_of_le_of_lt (Nat.sub_le _ _) t.isLt)) := by
  obtain ⟨n, hn⟩ := t
  cases n with
  | zero => exact absurd rfl h
  | succ n => rfl

theorem acc4_1_congr (c : Dev nD) (n n' : ℕ) (e : n = n') (h : n < cfg4.N) (h' : n' < cfg4.N) : acc4_1 V c n h = acc4_1 V c n' h' := by
  subst e; rfl

/-- Accumulator 2 after point `n`: at point 0 the zeroed cell plus the tile's total 2, afterwards the value after
    the point before plus this point's. -/
def acc4_2 (c : Dev nD) : (n : ℕ) → n < cfg4.N → Vec F S1x1 .f32
  | 0, h => k4_pay3 (tile4_2 (iblk4 V c 0 ⟨0, h⟩) (iblk4 V c 1 ⟨0, h⟩) (iblk4 V c 2 ⟨0, h⟩) (iblk4 V c 3 ⟨0, h⟩)) (k4_pay6 (F := F))
  | n + 1, h => k4_pay3 (tile4_2 (iblk4 V c 0 ⟨n + 1, h⟩) (iblk4 V c 1 ⟨n + 1, h⟩) (iblk4 V c 2 ⟨n + 1, h⟩) (iblk4 V c 3 ⟨n + 1, h⟩)) (acc4_2 c n (Nat.lt_of_succ_lt h))

theorem acc4_2_zero (c : Dev nD) (t : Fin cfg4.N) (h : t.val = 0) :
    acc4_2 V c t.val t.isLt = k4_pay3 (tile4_2 (iblk4 V c 0 t) (iblk4 V c 1 t) (iblk4 V c 2 t) (iblk4 V c 3 t)) (k4_pay6 (F := F)) := by
  obtain ⟨n, hn⟩ := t
  cases n with
  | zero => rfl
  | succ n => exact absurd h (Nat.succ_ne_zero n)

theorem acc4_2_pos (c : Dev nD) (t : Fin cfg4.N) (h : t.val ≠ 0) :
    acc4_2 V c t.val t.isLt = k4_pay3 (tile4_2 (iblk4 V c 0 t) (iblk4 V c 1 t) (iblk4 V c 2 t) (iblk4 V c 3 t)) (acc4_2 V c (t.val - 1) (Nat.lt_of_le_of_lt (Nat.sub_le _ _) t.isLt)) := by
  obtain ⟨n, hn⟩ := t
  cases n with
  | zero => exact absurd rfl h
  | succ n => rfl

theorem acc4_2_congr (c : Dev nD) (n n' : ℕ) (e : n = n') (h : n < cfg4.N) (h' : n' < cfg4.N) : acc4_2 V c n h = acc4_2 V c n' h' := by
  subst e; rfl

/-- The grid has 32 points; the last is 31. -/
theorem last4_lt : 31 < cfg4.N := by decide

/-- The three accumulator cells, whole scoped buffers of the kernel's own. -/
abbrev scM4_0 : Memref sig .tc .vmem S1x1 .f32 := Memref.whole cc4_scratch0
abbrev scM4_1 : Memref sig .tc .vmem S1x1 .f32 := Memref.whole cc4_scratch1
abbrev scM4_2 : Memref sig .tc .vmem S1x1 .f32 := Memref.whole cc4_scratch2

/-- The core's other scoped buffers that are no staging buffer of this region (the earlier regions' staging
    buffers), each at some contents. -/
def others4 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc3_stg0_0), ((c : Thread nD τ).loc cc3_stg0_0) ↦{fullShare} f)
      ∗ (∃ f : Buf (Elt F) ((c : Thread nD τ).loc cc3_stg0_1), ((c : Thread nD τ).loc cc3_stg0_1) ↦{fullShare} f)
      ∗ (∃ f : Buf (Elt F) ((c : Thread nD τ).loc cc3_stg1_0), ((c : Thread nD τ).loc cc3_stg1_0) ↦{fullShare} f)
      ∗ (∃ f : Buf (Elt F) ((c : Thread nD τ).loc cc3_stg1_1), ((c : Thread nD τ).loc cc3_stg1_1) ↦{fullShare} f))

/-- The class invariant with the accumulator cells as memrefs owned at some contents. -/
theorem PhiA4_eq (c : Dev nD) :
    (Pipeline.ΦA spec4 c : sProp 𝕄)
      = iprop(others4 (F := F) c ∗ (∃ d, owns (c : Thread nD τ) scM4_0 fullShare d) ∗ (∃ d, owns (c : Thread nD τ) scM4_1 fullShare d)
          ∗ (∃ d, owns (c : Thread nD τ) scM4_2 fullShare d) ∗ (∃ r, prngReg c r)) := by
  unfold Pipeline.ΦA; rw [scopedRest4_eq]; simp only [scM4_0, scM4_1, scM4_2, owns_whole]; unfold others4
  refine BI.equiv_iff.mp ⟨?_, ?_⟩
  · change (_ : sProp 𝕄) ⊢ _
    iintro ⟨⟨A0, A1, A2, A3, A4, A5, A6, A7, A8, A9, A10, A11, A12, A13, A14, A15, S0, S1, S2⟩, Hg⟩
    iframe
  · change (_ : sProp 𝕄) ⊢ _
    iintro ⟨⟨A0, A1, A2, A3, A4, A5, A6, A7, A8, A9, A10, A11, A12, A13, A14, A15⟩, S0, S1, S2, Hg⟩
    iframe

/-- THE TRACKING INVARIANT before position `n`: before the first point the class invariant (every scoped buffer at
    anything); afterwards the same with the three accumulator cells at their values after point `n - 1`. -/
def Phi4 (c : Dev nD) : (n : ℕ) → n ≤ cfg4.N → sProp 𝕄
  | 0, _ => Pipeline.ΦA spec4 c
  | n + 1, hn => iprop(others4 (F := F) c ∗ owns (c : Thread nD τ) scM4_0 fullShare (acc4_0 V c n hn) ∗ owns (c : Thread nD τ) scM4_1 fullShare (acc4_1 V c n hn)
      ∗ owns (c : Thread nD τ) scM4_2 fullShare (acc4_2 V c n hn) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(others4 (F := F) c ∗ owns (c : Thread nD τ) scM4_0 fullShare (acc4_0 V c n hn) ∗ owns (c : Thread nD τ) scM4_1 fullShare (acc4_1 V c n hn)
      ∗ owns (c : Thread nD τ) scM4_2 fullShare (acc4_2 V c n hn) ∗ (∃ r, prngReg c r)) := rfl

theorem Phi4_pos (c : Dev nD) (n : ℕ) (h : n ≤ cfg4.N) (hz : n ≠ 0) :
    Phi4 V c n h = iprop(others4 (F := F) c ∗ owns (c : Thread nD τ) scM4_0 fullShare (acc4_0 V c (n - 1) (by omega)) ∗ owns (c : Thread nD τ) scM4_1 fullShare (acc4_1 V c (n - 1) (by omega))
      ∗ owns (c : Thread nD τ) scM4_2 fullShare (acc4_2 V c (n - 1) (by omega)) ∗ (∃ r, prngReg c r)) := by
  cases n with
  | zero => exact absurd rfl hz
  | succ n => rfl

/-- The proof data of the totals region on core `c`: the arrays as the region finds them; after the body each
    input's buffer at its block, each output's at its accumulator's final value (an output is stored, and written
    back, at the last point only); the tracking invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => acc4_0 V c 31 last4_lt
    | ⟨5, _⟩ => acc4_1 V c 31 last4_lt
    | ⟨6, _⟩ => acc4_2 V c 31 last4_lt
  Φ t := Phi4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = acc4_0 V c 31 last4_lt := by dsimp only [dat4]
theorem after4_5 (c : Dev nD) (t : Fin cfg4.N) : (dat4 V c).after 5 t = acc4_1 V c 31 last4_lt := by dsimp only [dat4]
theorem after4_6 (c : Dev nD) (t : Fin cfg4.N) : (dat4 V c).after 6 t = acc4_2 V c 31 last4_lt := by dsimp only [dat4]

/-- Input 0's current buffer holds its block at every point. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

/-- Input 1's current buffer holds its block at every point. -/
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-- Input 2's current buffer holds its block at every point. -/
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

/-- Input 3's current buffer holds its block at every point. -/
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

/-! ## The body obligation -/

/-- Each window's current staging memref at point `t`, as the pipeline passes it to the body. -/
abbrev ms4_0 (t : Fin cfg4.N) : Memref sig .tc .vmem S64x4096 .f32 := win4_0.stage (cfg4.slots t 0)
abbrev ms4_1 (t : Fin cfg4.N) : Memref sig .tc .vmem S64x4096 .f32 := win4_1.stage (cfg4.slots t 1)
abbrev ms4_2 (t : Fin cfg4.N) : Memref sig .tc .vmem S64x4096 .f32 := win4_2.stage (cfg4.slots t 2)
abbrev ms4_3 (t : Fin cfg4.N) : Memref sig .tc .vmem S64x4096 .f32 := win4_3.stage (cfg4.slots t 3)
abbrev ms4_4 (t : Fin cfg4.N) : Memref sig .tc .vmem S1x1 .f32 := win4_4.stage (cfg4.slots t 4)
abbrev ms4_5 (t : Fin cfg4.N) : Memref sig .tc .vmem S1x1 .f32 := win4_5.stage (cfg4.slots t 5)
abbrev ms4_6 (t : Fin cfg4.N) : Memref sig .tc .vmem S1x1 .f32 := win4_6.stage (cfg4.slots t 6)

/-- Where the output windows are idle: everywhere but at the last point, where alone they are stored and written back. -/
theorem idle4_4 : ∀ t : Fin cfg4.N, ¬cond4_2 (grid4.coords t) → cfg4.idle 4 (grid4.coords t) = true := by decide +kernel
theorem live4_4 : ∀ t : Fin cfg4.N, cond4_2 (grid4.coords t) → cfg4.idle 4 (grid4.coords t) = false := by decide +kernel
theorem noFlush4_4 : ∀ t : Fin cfg4.N, ¬cond4_2 (grid4.coords t) → (cfg4.win 4).flush t = false := by decide +kernel
theorem idle4_5 : ∀ t : Fin cfg4.N, ¬cond4_2 (grid4.coords t) → cfg4.idle 5 (grid4.coords t) = true := by decide +kernel
theorem live4_5 : ∀ t : Fin cfg4.N, cond4_2 (grid4.coords t) → cfg4.idle 5 (grid4.coords t) = false := by decide +kernel
theorem noFlush4_5 : ∀ t : Fin cfg4.N, ¬cond4_2 (grid4.coords t) → (cfg4.win 5).flush t = false := by decide +kernel
theorem idle4_6 : ∀ t : Fin cfg4.N, ¬cond4_2 (grid4.coords t) → cfg4.idle 6 (grid4.coords t) = true := by decide +kernel
theorem live4_6 : ∀ t : Fin cfg4.N, cond4_2 (grid4.coords t) → cfg4.idle 6 (grid4.coords t) = false := by decide +kernel
theorem noFlush4_6 : ∀ t : Fin cfg4.N, ¬cond4_2 (grid4.coords t) → (cfg4.win 6).flush t = false := by decide +kernel

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t ∗ (dat4 V c).leavesExact 4 t ∗ (dat4 V c).leavesExact 5 t ∗ (dat4 V c).leavesExact 6 t)

set_option maxHeartbeats 4800000 in
/-- The body at any point. The inputs' memrefs hold their blocks. At point 0 the invariant hands the body the three
    accumulator cells at anything and takes them back at the zeroed cell plus the tile's totals; at a later point it hands
    them at their values after the point before and takes them back with this tile's totals added; the outputs, idle
    before the last point, are handed back as found, and at the last point hold the accumulators' final values. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [show cfg4.idle 0 (grid4.coords t) = false from rfl], after4_0]
  rw [show (dat4 V c).leavesExact 1 t = owns (c : Thread nD τ) (ms4_1 t) fullShare ((dat4 V c).after 1 t) from by
    unfold Dat.leavesExact; rw [show cfg4.idle 1 (grid4.coords t) = false from rfl], after4_1]
  rw [show (dat4 V c).leavesExact 2 t = owns (c : Thread nD τ) (ms4_2 t) fullShare ((dat4 V c).after 2 t) from by
    unfold Dat.leavesExact; rw [show cfg4.idle 2 (grid4.coords t) = false from rfl], after4_2]
  rw [show (dat4 V c).leavesExact 3 t = owns (c : Thread nD τ) (ms4_3 t) fullShare ((dat4 V c).after 3 t) from by
    unfold Dat.leavesExact; rw [show cfg4.idle 3 (grid4.coords t) = false from rfl], after4_3]
  by_cases h0 : t.val = 0
  · have hc0 : cond4_0 (grid4.coords t) := (hcond4_0 t).mpr h0
    have hc2 : ¬cond4_2 (grid4.coords t) := fun h => by have := (hcond4_2 t).mp h; omega
    rw [Dat.leavesExact_idle (dat4 V c) 4 t (idle4_4 t hc2) (noFlush4_4 t hc2), Dat.leavesExact_idle (dat4 V c) 5 t (idle4_5 t hc2) (noFlush4_5 t hc2),
      Dat.leavesExact_idle (dat4 V c) 6 t (idle4_6 t hc2) (noFlush4_6 t hc2)]
    rw [Phi4_castSucc V c t, Phi4_zero V c _ _ h0, PhiA4_eq, acc4_0_zero V c t h0, acc4_1_zero V c t h0, acc4_2_zero V c t h0]
    iintro ⟨⟨Hoth, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
    iapply (run4_A c (grid4.coords t) _ _ _ _ _ _ _ _ _ _ _ _ _ _ _ _ _ _ _ _ hc0 hc2 (iblk4 V c 0 t) (iblk4 V c 1 t) (iblk4 V c 2 t) (iblk4 V c 3 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [Hoth HS0 HS1 HS2 Hg]
    · isplitl [Hoth]; · iexact Hoth
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    iexists d6; iexact H6
  by_cases h1 : t.val = 31
  · have hc0 : ¬cond4_0 (grid4.coords t) := fun h => h0 ((hcond4_0 t).mp h)
    have hc2 : cond4_2 (grid4.coords t) := (hcond4_2 t).mpr h1
    rw [show (dat4 V c).leavesExact 4 t = owns (c : Thread nD τ) (ms4_4 t) fullShare ((dat4 V c).after 4 t) from by
      unfold Dat.leavesExact; rw [live4_4 t hc2], after4_4]
    rw [show (dat4 V c).leavesExact 5 t = owns (c : Thread nD τ) (ms4_5 t) fullShare ((dat4 V c).after 5 t) from by
      unfold Dat.leavesExact; rw [live4_5 t hc2], after4_5]
    rw [show (dat4 V c).leavesExact 6 t = owns (c : Thread nD τ) (ms4_6 t) fullShare ((dat4 V c).after 6 t) from by
      unfold Dat.leavesExact; rw [live4_6 t hc2], after4_6]
    rw [acc4_0_congr V c 31 t.val h1.symm last4_lt t.isLt, acc4_1_congr V c 31 t.val h1.symm last4_lt t.isLt, acc4_2_congr V c 31 t.val h1.symm last4_lt t.isLt]
    rw [Phi4_castSucc V c t, Phi4_pos V c _ _ h0, acc4_0_pos V c t h0, acc4_1_pos V c t h0, acc4_2_pos V c t h0]
    iintro ⟨⟨Hoth, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
    iapply (run4_C c (grid4.coords t) _ _ _ _ _ _ _ _ _ _ _ _ _ _ _ _ _ _ _ _ hc0 hc2 (iblk4 V c 0 t) (iblk4 V c 1 t) (iblk4 V c 2 t) (iblk4 V c 3 t) _ _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [Hoth HS0 HS1 HS2 Hg]
    · isplitl [Hoth]; · iexact Hoth
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬cond4_0 (grid4.coords t) := fun h => h0 ((hcond4_0 t).mp h)
    have hc2 : ¬cond4_2 (grid4.coords t) := fun h => h1 ((hcond4_2 t).mp h)
    rw [Dat.leavesExact_idle (dat4 V c) 4 t (idle4_4 t hc2) (noFlush4_4 t hc2), Dat.leavesExact_idle (dat4 V c) 5 t (idle4_5 t hc2) (noFlush4_5 t hc2),
      Dat.leavesExact_idle (dat4 V c) 6 t (idle4_6 t hc2) (noFlush4_6 t hc2)]
    rw [Phi4_castSucc V c t, Phi4_pos V c _ _ h0, acc4_0_pos V c t h0, acc4_1_pos V c t h0, acc4_2_pos V c t h0]
    iintro ⟨⟨Hoth, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
    iapply (run4_B c (grid4.coords t) _ _ _ _ _ _ _ _ _ _ _ _ _ _ _ _ _ _ _ _ hc0 hc2 (iblk4 V c 0 t) (iblk4 V c 1 t) (iblk4 V c 2 t) (iblk4 V c 3 t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [Hoth HS0 HS1 HS2 Hg]
    · isplitl [Hoth]; · iexact Hoth
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    iexists d6; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point but the first the invariant gives the class invariant back: the accumulators' values are forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

/-- The same after the last point. -/
theorem hout4 (c : Dev nD) : (dat4 V c).Φ (Fin.last cfg4.N) ⊢ Pipeline.ΦA spec4 c :=
  Phi4_out V c _ (by rw [Fin.val_last]; have : cfg4.N = 32 := N_4; omega)

end Cert.Kernel.Hand

end
-- ==== Proof.Word.Run.lean ====
import proofs.«168916_j50233937494401_1_alg».proof.Proof.Gen.Kernel.Launch
import proofs.«168916_j50233937494401_1_alg».proof.Proof.Gen.Kernel.Skeleton
import proofs.«168916_j50233937494401_1_alg».proof.Proof.Gen.Kernel.Points
import proofs.«168916_j50233937494401_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168916_j50233937494401_1_alg».proof.Proof.Word.Col0
import proofs.«168916_j50233937494401_1_alg».proof.Proof.Word.Row1
import proofs.«168916_j50233937494401_1_alg».proof.Proof.Word.Col2
import proofs.«168916_j50233937494401_1_alg».proof.Proof.Word.Row3
import proofs.«168916_j50233937494401_1_alg».proof.Proof.Word.Totals

/-! # The run of the entry function over its five kernel regions

The entry function is sixteen items in a row: stretches of host operations (reshapes, the paddings, the final
scalar arithmetic) and five kernel regions (two min-plus passes for each image, then the totals). Between two
items every unscoped buffer of a core holds definite contents: a stretch applies its operations, a region leaves each
array it writes at what its grid points' write-backs leave and touches nothing else. This file names those
contents (`W0` … `W16`), gives each region its record over them, and runs the whole function: every execution ends,
nothing faults, and at the end every unscoped buffer holds the last contents `W16`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at every boundary between two items of the entry function

A fold from the launch memory: a stretch of host operations applies them; a kernel region leaves each of its
windowed arrays at what the write-backs of its grid points leave, and every other buffer as it was. -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
def W3 (c : Dev nD) : Valuation τ sig (Elt F) :=
  Pipeline.withArrays spec0 c (W2 m ρ c) fun w => (dat0 (V2 m ρ) c).arrAt w cfg0.N
abbrev V3 : (c : Dev nD) → (b : Ref sig .tc) → Buf (Elt F) ((c : Thread nD τ).loc b) := fun c b => W3 m ρ c b
abbrev W4 : Dev nD → Valuation τ sig (Elt F) := fun c => StableHlo.after hostOps1 (W3 m ρ c)
abbrev W5 : Dev nD → Valuation τ sig (Elt F) := fun c => StableHlo.after hostOps1_1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
abbrev V6 : (c : Dev nD) → (b : Ref sig .tc) → Buf (Elt F) ((c : Thread nD τ).loc b) := fun c b => W6 m ρ c b
abbrev W7 : Dev nD → Valuation τ sig (Elt F) := fun c => StableHlo.after hostOps2 (W6 m ρ c)
abbrev W8 : Dev nD → Valuation τ sig (Elt F) := fun c => StableHlo.after hostOps2_1 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec2 c (W8 m ρ c) fun w => (dat2 (V8 m ρ) c).arrAt w cfg2.N
abbrev V9 : (c : Dev nD) → (b : Ref sig .tc) → Buf (Elt F) ((c : Thread nD τ).loc b) := fun c b => W9 m ρ c b
abbrev W10 : Dev nD → Valuation τ sig (Elt F) := fun c => StableHlo.after hostOps3 (W9 m ρ c)
abbrev W11 : Dev nD → Valuation τ sig (Elt F) := fun c => StableHlo.after hostOps3_1 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec3 c (W11 m ρ c) fun w => (dat3 (V11 m ρ) c).arrAt w cfg3.N
abbrev V12 : (c : Dev nD) → (b : Ref sig .tc) → Buf (Elt F) ((c : Thread nD τ).loc b) := fun c b => W12 m ρ c b
def W13 (c : Dev nD) : Valuation τ sig (Elt F) :=
  Pipeline.withArrays spec4 c (W12 m ρ c) fun w => (dat4 (V12 m ρ) c).arrAt w cfg4.N
abbrev V13 : (c : Dev nD) → (b : Ref sig .tc) → Buf (Elt F) ((c : Thread nD τ).loc b) := fun c b => W13 m ρ c b
abbrev W14 : Dev nD → Valuation τ sig (Elt F) := fun c => StableHlo.after hostOps5 (W13 m ρ c)
abbrev W15 : Dev nD → Valuation τ sig (Elt F) := fun c => StableHlo.after hostOps5_1 (W14 m ρ c)
abbrev W16 : Dev nD → Valuation τ sig (Elt F) := fun c => StableHlo.after hostOps5_2 (W15 m ρ c)

/-- After region 0 each of its windowed arrays holds what the grid points' write-backs leave, -/
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
/-- and every other buffer what it held when the region was entered. -/
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After region 1 each of its windowed arrays holds what the grid points' write-backs leave, -/
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
/-- and every other buffer what it held when the region was entered. -/
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After region 2 each of its windowed arrays holds what the grid points' write-backs leave, -/
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
/-- and every other buffer what it held when the region was entered. -/
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After region 3 each of its windowed arrays holds what the grid points' write-backs leave, -/
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
/-- and every other buffer what it held when the region was entered. -/
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-- After region 4 each of its windowed arrays holds what the grid points' write-backs leave, -/
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
/-- and every other buffer what it held when the region was entered. -/
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

/-! # The proof data of the five pipelines and the state carried between items -/

abbrev adm : (p : Fin 5) → (pcfgs (F := F) p).Adm := fun p => (cfgs p).toPCfg_adm
/-- Each pipeline's proof data at the contents its region is entered with (a literal match on the pipeline). -/
def pdats : (p : Fin 5) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V5 m ρ) c
  | ⟨2, _⟩ => fun c => dat2 (V8 m ρ) c
  | ⟨3, _⟩ => fun c => dat3 (V11 m ρ) c
  | ⟨4, _⟩ => fun c => dat4 (V12 m ρ) c
abbrev 𝒱₀ : Variants := Variants.none
abbrev L : GSem nD τ sig → Finset Unit := fun _ => ∅
abbrev lv : GSem nD τ sig → Unit → ℕ := fun _ _ => 0
/-- Beside the buffers every item carries the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The regions as items -/

set_option backward.isDefEq.respectTransparency.types false in
/-- Region 0: entered with every unscoped buffer at the contents before it, left with its windowed arrays at what
    the write-backs leave and every other buffer unchanged; the generator register goes into the region's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at the contents before it, left with its windowed arrays at what
    the write-backs leave and every other buffer unchanged; the generator register goes into the region's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at the contents before it, left with its windowed arrays at what
    the write-backs leave and every other buffer unchanged; the generator register goes into the region's invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at the contents before it, left with its windowed arrays at what
    the write-backs leave and every other buffer unchanged; the generator register goes into the region's invariant
    and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at the contents before it, left with its windowed arrays at what
    the write-backs leave and every other buffer unchanged; the generator register goes into the region's invariant
    and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (V12 m ρ) c)
    unfold Pipeline.ΦA
    iintro ⟨Hp, -, Hr⟩
    isplitl [Hr]; · iexact Hr
    iexact Hp
  hout c := by
    refine (hout4 (V12 m ρ) c).trans (show (Pipeline.ΦA spec4 c : sProp 𝕄) ⊢ _ from ?_)
    rw [Pipeline.ownSems0_none]
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The entry function as a list of items, and its run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .host (hseg hostOps1_1 hostOps1_1_sub hostOps1_1_fresh (W4 m ρ)),
    .region (reg1 m ρ),
    .host (hseg hostOps2 hostOps2_sub hostOps2_fresh (W6 m ρ)),
    .host (hseg hostOps2_1 hostOps2_1_sub hostOps2_1_fresh (W7 m ρ)),
    .region (reg2 m ρ),
    .host (hseg hostOps3 hostOps3_sub hostOps3_fresh (W9 m ρ)),
    .host (hseg hostOps3_1 hostOps3_1_sub hostOps3_1_fresh (W10 m ρ)),
    .region (reg3 m ρ),
    .region (reg4 m ρ),
    .host (hseg hostOps5 hostOps5_sub hostOps5_fresh (W13 m ρ)),
    .host (hseg hostOps5_1 hostOps5_1_sub hostOps5_1_fresh (W14 m ρ)),
    .host (hseg hostOps5_2 hostOps5_2_sub hostOps5_2_fresh (W15 m ρ)) ]

theorem main_run (c : Dev nD) : main (F := F) c = Pipeline.Seg.run (segs m ρ) := (main_chain c).trans (by chain_rfl)

abbrev Tₙ (c : Dev nD) : sProp 𝕄 := iprop(StableHlo.held (c : Thread nD τ) (Pipeline.ucRefs τ sig) (W16 m ρ c) ∗ ∃ r, prngReg c r)

set_option backward.isDefEq.respectTransparency.types false in
/-- THE RUN. From any memory with zero counters every weakly fair execution of the entry function terminates without
    a fault, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W16 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-! # Buffers no item in between writes -/

/-- No item writes the first argument. -/
theorem W16_main_arg0' (c : Dev nD) : W16 m ρ c (Proc.devRef .tc main_arg0) = W0 m ρ c (Proc.devRef .tc main_arg0) :=
  (StableHlo.after_of_writes_sub hostOps5_2 _ hostOps5_2_writes (r := main_arg0) (by decide)).trans <|
  (StableHlo.after_of_writes_sub hostOps5_1 _ hostOps5_1_writes (r := main_arg0) (by decide)).trans <|
  (StableHlo.after_of_writes_sub hostOps5 _ hostOps5_writes (r := main_arg0) (by decide)).trans <|
  (W13_of_ne m ρ c main_arg0 (by decide)).trans <|
  (W12_of_ne m ρ c main_arg0 (by decide)).trans <|
  (StableHlo.after_of_writes_sub hostOps3_1 _ hostOps3_1_writes (r := main_arg0) (by decide)).trans <|
  (StableHlo.after_of_writes_sub hostOps3 _ hostOps3_writes (r := main_arg0) (by decide)).trans <|
  (W9_of_ne m ρ c main_arg0 (by decide)).trans <|
  (StableHlo.after_of_writes_sub hostOps2_1 _ hostOps2_1_writes (r := main_arg0) (by decide)).trans <|
  (StableHlo.after_of_writes_sub hostOps2 _ hostOps2_writes (r := main_arg0) (by decide)).trans <|
  (W6_of_ne m ρ c main_arg0 (by decide)).trans <|
  (StableHlo.after_of_writes_sub hostOps1_1 _ hostOps1_1_writes (r := main_arg0) (by decide)).trans <|
  (StableHlo.after_of_writes_sub hostOps1 _ hostOps1_writes (r := main_arg0) (by decide)).trans <|
  (W3_of_ne m ρ c main_arg0 (by decide)).trans <|
  (StableHlo.after_of_writes_sub hostOps0_1 _ hostOps0_1_writes (r := main_arg0) (by decide)).trans <|
  (StableHlo.after_of_writes_sub hostOps0 _ hostOps0_writes (r := main_arg0) (by decide)).trans <| rfl

/-- No item writes the second argument. -/
theorem W16_main_arg1' (c : Dev nD) : W16 m ρ c (Proc.devRef .tc main_arg1) = W0 m ρ c (Proc.devRef .tc main_arg1) :=
  (StableHlo.after_of_writes_sub hostOps5_2 _ hostOps5_2_writes (r := main_arg1) (by decide)).trans <|
  (StableHlo.after_of_writes_sub hostOps5_1 _ hostOps5_1_writes (r := main_arg1) (by decide)).trans <|
  (StableHlo.after_of_writes_sub hostOps5 _ hostOps5_writes (r := main_arg1) (by decide)).trans <|
  (W13_of_ne m ρ c main_arg1 (by decide)).trans <|
  (W12_of_ne m ρ c main_arg1 (by decide)).trans <|
  (StableHlo.after_of_writes_sub hostOps3_1 _ hostOps3_1_writes (r := main_arg1) (by decide)).trans <|
  (StableHlo.after_of_writes_sub hostOps3 _ hostOps3_writes (r := main_arg1) (by decide)).trans <|
  (W9_of_ne m ρ c main_arg1 (by decide)).trans <|
  (StableHlo.after_of_writes_sub hostOps2_1 _ hostOps2_1_writes (r := main_arg1) (by decide)).trans <|
  (StableHlo.after_of_writes_sub hostOps2 _ hostOps2_writes (r := main_arg1) (by decide)).trans <|
  (W6_of_ne m ρ c main_arg1 (by decide)).trans <|
  (StableHlo.after_of_writes_sub hostOps1_1 _ hostOps1_1_writes (r := main_arg1) (by decide)).trans <|
  (StableHlo.after_of_writes_sub hostOps1 _ hostOps1_writes (r := main_arg1) (by decide)).trans <|
  (W3_of_ne m ρ c main_arg1 (by decide)).trans <|
  (StableHlo.after_of_writes_sub hostOps0_1 _ hostOps0_1_writes (r := main_arg1) (by decide)).trans <|
  (StableHlo.after_of_writes_sub hostOps0 _ hostOps0_writes (r := main_arg1) (by decide)).trans <| rfl

theorem W16_main_arg0 (c : Dev nD) : W16 m ρ c (Proc.devRef .tc main_arg0) = m ((c : Thread nD τ).loc main_arg0) :=
  (W16_main_arg0' m ρ c).trans rfl
theorem W16_main_arg1 (c : Dev nD) : W16 m ρ c (Proc.devRef .tc main_arg1) = m ((c : Thread nD τ).loc main_arg1) :=
  (W16_main_arg1' m ρ c).trans rfl
/-- The flattened second image is untouched until the first image's passes are over. -/
theorem W6_main_v1 (c : Dev nD) : W6 m ρ c (Proc.devRef .tc main_v1) = W2 m ρ c (Proc.devRef .tc main_v1) :=
  (W6_of_ne m ρ c main_v1 (by decide)).trans <|
  (StableHlo.after_of_writes_sub hostOps1_1 _ hostOps1_1_writes (r := main_v1) (by decide)).trans <|
  (StableHlo.after_of_writes_sub hostOps1 _ hostOps1_writes (r := main_v1) (by decide)).trans <|
  (W3_of_ne m ρ c main_v1 (by decide)).trans <| rfl

/-- The flattened first image reaches the totals region as it was made. -/
theorem W12_main_v0 (c : Dev nD) : W12 m ρ c (Proc.devRef .tc main_v0) = W2 m ρ c (Proc.devRef .tc main_v0) :=
  (W12_of_ne m ρ c main_v0 (by decide)).trans <|
  (StableHlo.after_of_writes_sub hostOps3_1 _ hostOps3_1_writes (r := main_v0) (by decide)).trans <|
  (StableHlo.after_of_writes_sub hostOps3 _ hostOps3_writes (r := main_v0) (by decide)).trans <|
  (W9_of_ne m ρ c main_v0 (by decide)).trans <|
  (StableHlo.after_of_writes_sub hostOps2_1 _ hostOps2_1_writes (r := main_v0) (by decide)).trans <|
  (StableHlo.after_of_writes_sub hostOps2 _ hostOps2_writes (r := main_v0) (by decide)).trans <|
  (W6_of_ne m ρ c main_v0 (by decide)).trans <|
  (StableHlo.after_of_writes_sub hostOps1_1 _ hostOps1_1_writes (r := main_v0) (by decide)).trans <|
  (StableHlo.after_of_writes_sub hostOps1 _ hostOps1_writes (r := main_v0) (by decide)).trans <|
  (W3_of_ne m ρ c main_v0 (by decide)).trans <| rfl

/-- The flattened second image reaches the totals region as it was made. -/
theorem W12_main_v1 (c : Dev nD) : W12 m ρ c (Proc.devRef .tc main_v1) = W2 m ρ c (Proc.devRef .tc main_v1) :=
  (W12_of_ne m ρ c main_v1 (by decide)).trans <|
  (StableHlo.after_of_writes_sub hostOps3_1 _ hostOps3_1_writes (r := main_v1) (by decide)).trans <|
  (StableHlo.after_of_writes_sub hostOps3 _ hostOps3_writes (r := main_v1) (by decide)).trans <|
  (W9_of_ne m ρ c main_v1 (by decide)).trans <|
  (StableHlo.after_of_writes_sub hostOps2_1 _ hostOps2_1_writes (r := main_v1) (by decide)).trans <|
  (StableHlo.after_of_writes_sub hostOps2 _ hostOps2_writes (r := main_v1) (by decide)).trans <|
  (W6_of_ne m ρ c main_v1 (by decide)).trans <|
  (StableHlo.after_of_writes_sub hostOps1_1 _ hostOps1_1_writes (r := main_v1) (by decide)).trans <|
  (StableHlo.after_of_writes_sub hostOps1 _ hostOps1_writes (r := main_v1) (by decide)).trans <|
  (W3_of_ne m ρ c main_v1 (by decide)).trans <| rfl

/-- The first image's distances reach the totals region as the row pass left them. -/
theorem W12_main_v5 (c : Dev nD) : W12 m ρ c (Proc.devRef .tc main_v5) = W6 m ρ c (Proc.devRef .tc main_v5) :=
  (W12_of_ne m ρ c main_v5 (by decide)).trans <|
  (StableHlo.after_of_writes_sub hostOps3_1 _ hostOps3_1_writes (r := main_v5) (by decide)).trans <|
  (StableHlo.after_of_writes_sub hostOps3 _ hostOps3_writes (r := main_v5) (by decide)).trans <|
  (W9_of_ne m ρ c main_v5 (by decide)).trans <|
  (StableHlo.after_of_writes_sub hostOps2_1 _ hostOps2_1_writes (r := main_v5) (by decide)).trans <|
  (StableHlo.after_of_writes_sub hostOps2 _ hostOps2_writes (r := main_v5) (by decide)).trans <| rfl

/-- THE FRAME: every execution of the entry function ends without a fault with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W16_main_arg0 m ρ c),
     (h c _ (mem_uc main_arg1 (by decide))).trans (W16_main_arg1 m ρ c)⟩) (run_all m ρ)

end Cert.Kernel.Hand

end
-- ==== Proof.Ideal.Col0.lean ====
import proofs.«168916_j50233937494401_1_alg».proof.Proof.Gen.KernelIdeal.Launch
import proofs.«168916_j50233937494401_1_alg».proof.Proof.Gen.KernelIdeal.Skeleton
import proofs.«168916_j50233937494401_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The vertical min-plus pass (region 0): what one grid point computes, and its body obligation

One grid point of the vertical pass reads a whole column strip of the zero-padded image (2068 rows by 256
columns), and writes a whole strip of 2048 rows by 256 columns: row `i` of the result is the minimum over the 21
taps `k` of `cost (row i + k of the strip) + (k - 10)²`, where `cost` sends a foreground pixel to 0 and a
background pixel to the large constant. Nothing else in memory is written, and the result is a function of the
loaded strip alone. This file states that function (`pass0`), proves the body computes it in the staging
buffers, and packages the proof data the pipeline rule asks for, at an arbitrary entry contents `V`. -/

-- membership in a rectangle of these extents is decided structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The blocks of the two windows -/

/-- The block of window `w` (0: the padded input strip, 1: the output strip) at grid point `t`, read off the
    window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input strip's staging buffer holds the strip's block at every point, whichever buffer it is on: the window
    is fetched at every point, never cut, never idle; this holds for any proof data whose input array is `V`'s and
    whose body leaves the input block in place. -/
theorem inputBlock0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two rectangles the body touches: the whole input strip and the whole output strip -/

abbrev r0_in : Rect S2068x256 := Rect.unit (s := S2068x256) ![0, 0] S2068x256.size inb_S2068x256_S2068x256_0_0
abbrev r0_0 : Rect S2048x256 := Rect.unit (s := S2048x256) ![0, 0] S2048x256.size inb_S2048x256_S2048x256_0_0

/-! ## The value one grid point stores -/

/-- The strip the body stores, as a function of the strip it loaded: the costs of the 2068 loaded rows
    (`k0_pay1`), the running minimum over taps 0–8 (`k0_pay2`), the slice at tap 9 (`k0_pay3`), the
    squared offset of tap 9 (`k0_pay4`), and the minimum over the remaining taps 9–20 (`k0_pay5`). -/
def pass0 (x0 : Vec F S2068x256 .f32) : Vec F S2048x256 .f32 :=
  k0_pay5 (k0_pay1 x0) (k0_pay2 x0) (k0_pay3 x0) (k0_pay4 (F := F))

/-- The output strip's staging buffer after the body: one store over the whole buffer, of `pass0` of the whole
    loaded input strip. -/
def out0_1 (x0 : Vec F S2068x256 .f32) : Vec F S2048x256 .f32 :=
  View.canon [⟨r0_0, pass0 (View.ld x0 r0_in)⟩]

/-- The one store covers the output buffer: its rectangle is the whole buffer. -/
theorem cover0_1 (p0 : Vec F S2048x256 .f32) (y : S2048x256.Idx) :
    ∃ pc ∈ ([⟨r0_0, p0⟩] : List (View.Piece (Elt F) S2048x256 .f32)), y ∈ pc.1.set :=
  View.cover_of_tiled [⟨r0_0, p0⟩] S2048x256.size (by rfl) y

/-! ## The body's triple -/

set_option maxHeartbeats 1000000 in
/-- The kernel body on whole staging memrefs — the input's holding `x0`, the output's holding anything — runs to a
    state where the input's still holds `x0` and the output's holds `out0_1 x0`. The body loads the input
    strip, computes, loads the output buffer once (the value is not used), and stores the result over it. -/
theorem sound_kernel0 (c : Dev nD) (E : Set ℕ) (i : grid0.Coords)
    (arg1 : Memref sig .tc .vmem S2068x256 .f32) (harg1 : arg1.IsWhole) (arg2 : Memref sig .tc .vmem S2048x256 .f32) (harg2 : arg2.IsWhole)
    (x0 : Vec F S2068x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__h_pass_kernel i arg1 harg1 arg2 harg2) K := by
  simp only [cc0__h_pass_kernel_eq_skeleton]; unfold cc0__h_pass_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of this region's pipeline on core `c`: the arrays as the region finds them; after the body at
    point `t` the input's buffer at its block and the output's at `out0_1` of the input block; the invariant is
    the class's (everything the region does not touch, unchanged); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  inputBlock0_of V (dat0 V c) (A_eq0 V c 0) (after0_0 V c) t d

/-! ## The body obligation, at a generic point -/

/-- What the body is called with at point `t`: the invariant, the owed counter, and the two staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    owed counter pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Ideal.Row1.lean ====
import proofs.«168916_j50233937494401_1_alg».proof.Proof.Gen.KernelIdeal.Launch
import proofs.«168916_j50233937494401_1_alg».proof.Proof.Gen.KernelIdeal.Skeleton
import proofs.«168916_j50233937494401_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The horizontal min-plus pass (region 1): what one grid point computes, and its body obligation

One grid point of the horizontal pass reads a whole band of rows of the padded vertical-pass result (128 rows by
4116 columns, the 10 columns on each side holding the large constant), and writes a whole band of 128 rows by 4096
columns: column `j` of the result is `min (sqrt (min over the 21 taps k of (column j + k of the band) + (k - 10)²)) 10`.
Nothing else in memory is written, and the result is a function of the loaded band alone. This file states that
function (`pass1`), proves the body computes it in the staging buffers, and packages the proof data the pipeline
rule asks for, at an arbitrary entry contents `V`. -/

-- membership in a rectangle of these extents is decided structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The blocks of the two windows -/

/-- The block of window `w` (0: the padded input band, 1: the output band) at grid point `t`, read off the
    window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input band's staging buffer holds the band's block at every point, whichever buffer it is on: the window
    is fetched at every point, never cut, never idle; this holds for any proof data whose input array is `V`'s and
    whose body leaves the input block in place. -/
theorem inputBlock1_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two rectangles the body touches: the whole input band and the whole output band -/

abbrev r1_in : Rect S128x4116 := Rect.unit (s := S128x4116) ![0, 0] S128x4116.size inb_S128x4116_S128x4116_0_0
abbrev r1_0 : Rect S128x4096 := Rect.unit (s := S128x4096) ![0, 0] S128x4096.size inb_S128x4096_S128x4096_0_0

/-! ## The value one grid point stores -/

/-- The band the body stores, as a function of the band it loaded: the loaded band itself (`k1_pay2`, a shape
    cast to the same shape), the running minimum over taps 0–10 (`k1_pay3`), the slice at tap 11
    (`k1_pay4`), and the minimum over the remaining taps 11–20 followed by the square root and the clamp at 10
    (`k1_pay1`). -/
def pass1 (x0 : Vec F S128x4116 .f32) : Vec F S128x4096 .f32 :=
  k1_pay1 (k1_pay2 x0) (k1_pay3 x0) (k1_pay4 x0)

/-- The output band's staging buffer after the body: one store over the whole buffer, of `pass1` of the whole
    loaded input band. -/
def out1_1 (x0 : Vec F S128x4116 .f32) : Vec F S128x4096 .f32 :=
  View.canon [⟨r1_0, pass1 (View.ld x0 r1_in)⟩]

/-- The one store covers the output buffer: its rectangle is the whole buffer. -/
theorem cover1_1 (p0 : Vec F S128x4096 .f32) (y : S128x4096.Idx) :
    ∃ pc ∈ ([⟨r1_0, p0⟩] : List (View.Piece (Elt F) S128x4096 .f32)), y ∈ pc.1.set :=
  View.cover_of_tiled [⟨r1_0, p0⟩] S128x4096.size (by rfl) y

/-! ## The body's triple -/

set_option maxHeartbeats 1000000 in
/-- The kernel body on whole staging memrefs — the input's holding `x0`, the output's holding anything — runs to a
    state where the input's still holds `x0` and the output's holds `out1_1 x0`. The body loads the input
    band, computes, loads the output buffer once (the value is not used), and stores the result over it. -/
theorem sound_kernel1 (c : Dev nD) (E : Set ℕ) (i : grid1.Coords)
    (arg1 : Memref sig .tc .vmem S128x4116 .f32) (harg1 : arg1.IsWhole) (arg2 : Memref sig .tc .vmem S128x4096 .f32) (harg2 : arg2.IsWhole)
    (x0 : Vec F S128x4116 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__w_pass_kernel i arg1 harg1 arg2 harg2) K := by
  simp only [cc1__w_pass_kernel_eq_skeleton]; unfold cc1__w_pass_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of this region's pipeline on core `c`: the arrays as the region finds them; after the body at
    point `t` the input's buffer at its block and the output's at `out1_1` of the input block; the invariant is
    the class's (everything the region does not touch, unchanged); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  inputBlock1_of V (dat1 V c) (A_eq1 V c 0) (after1_0 V c) t d

/-! ## The body obligation, at a generic point -/

/-- What the body is called with at point `t`: the invariant, the owed counter, and the two staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    owed counter pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Ideal.Col2.lean ====
import proofs.«168916_j50233937494401_1_alg».proof.Proof.Gen.KernelIdeal.Launch
import proofs.«168916_j50233937494401_1_alg».proof.Proof.Gen.KernelIdeal.Skeleton
import proofs.«168916_j50233937494401_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The vertical min-plus pass (region 2): what one grid point computes, and its body obligation

One grid point of the vertical pass reads a whole column strip of the zero-padded image (2068 rows by 256
columns), and writes a whole strip of 2048 rows by 256 columns: row `i` of the result is the minimum over the 21
taps `k` of `cost (row i + k of the strip) + (k - 10)²`, where `cost` sends a foreground pixel to 0 and a
background pixel to the large constant. Nothing else in memory is written, and the result is a function of the
loaded strip alone. This file states that function (`pass2`), proves the body computes it in the staging
buffers, and packages the proof data the pipeline rule asks for, at an arbitrary entry contents `V`. -/

-- membership in a rectangle of these extents is decided structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The blocks of the two windows -/

/-- The block of window `w` (0: the padded input strip, 1: the output strip) at grid point `t`, read off the
    window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input strip's staging buffer holds the strip's block at every point, whichever buffer it is on: the window
    is fetched at every point, never cut, never idle; this holds for any proof data whose input array is `V`'s and
    whose body leaves the input block in place. -/
theorem inputBlock2_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The two rectangles the body touches: the whole input strip and the whole output strip -/

abbrev r2_in : Rect S2068x256 := Rect.unit (s := S2068x256) ![0, 0] S2068x256.size inb_S2068x256_S2068x256_0_0
abbrev r2_0 : Rect S2048x256 := Rect.unit (s := S2048x256) ![0, 0] S2048x256.size inb_S2048x256_S2048x256_0_0

/-! ## The value one grid point stores -/

/-- The strip the body stores, as a function of the strip it loaded: the costs of the 2068 loaded rows
    (`k2_pay1`), the running minimum over taps 0–8 (`k2_pay2`), the slice at tap 9 (`k2_pay3`), the
    squared offset of tap 9 (`k2_pay4`), and the minimum over the remaining taps 9–20 (`k2_pay5`). -/
def pass2 (x0 : Vec F S2068x256 .f32) : Vec F S2048x256 .f32 :=
  k2_pay5 (k2_pay1 x0) (k2_pay2 x0) (k2_pay3 x0) (k2_pay4 (F := F))

/-- The output strip's staging buffer after the body: one store over the whole buffer, of `pass2` of the whole
    loaded input strip. -/
def out2_1 (x0 : Vec F S2068x256 .f32) : Vec F S2048x256 .f32 :=
  View.canon [⟨r2_0, pass2 (View.ld x0 r2_in)⟩]

/-- The one store covers the output buffer: its rectangle is the whole buffer. -/
theorem cover2_1 (p0 : Vec F S2048x256 .f32) (y : S2048x256.Idx) :
    ∃ pc ∈ ([⟨r2_0, p0⟩] : List (View.Piece (Elt F) S2048x256 .f32)), y ∈ pc.1.set :=
  View.cover_of_tiled [⟨r2_0, p0⟩] S2048x256.size (by rfl) y

/-! ## The body's triple -/

set_option maxHeartbeats 1000000 in
/-- The kernel body on whole staging memrefs — the input's holding `x0`, the output's holding anything — runs to a
    state where the input's still holds `x0` and the output's holds `out2_1 x0`. The body loads the input
    strip, computes, loads the output buffer once (the value is not used), and stores the result over it. -/
theorem sound_kernel2 (c : Dev nD) (E : Set ℕ) (i : grid2.Coords)
    (arg1 : Memref sig .tc .vmem S2068x256 .f32) (harg1 : arg1.IsWhole) (arg2 : Memref sig .tc .vmem S2048x256 .f32) (harg2 : arg2.IsWhole)
    (x0 : Vec F S2068x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__h_pass_kernel i arg1 harg1 arg2 harg2) K := by
  simp only [cc2__h_pass_kernel_eq_skeleton]; unfold cc2__h_pass_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of this region's pipeline on core `c`: the arrays as the region finds them; after the body at
    point `t` the input's buffer at its block and the output's at `out2_1` of the input block; the invariant is
    the class's (everything the region does not touch, unchanged); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- The input's current staging buffer holds its block at every point. -/
theorem before2_0 (c : Dev nD) (t : Fin cfg2.N) (d) : (dat2 V c).before 0 t d = iblk2 V c 0 t :=
  inputBlock2_of V (dat2 V c) (A_eq2 V c 0) (after2_0 V c) t d

/-! ## The body obligation, at a generic point -/

/-- What the body is called with at point `t`: the invariant, the owed counter, and the two staging buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so the body's triple applies; the invariant and the
    owed counter pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Ideal.Row3.lean ====
import proofs.«168916_j50233937494401_1_alg».proof.Proof.Gen.KernelIdeal.Launch
import proofs.«168916_j50233937494401_1_alg».proof.Proof.Gen.KernelIdeal.Skeleton
import proofs.«168916_j50233937494401_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The horizontal min-plus pass (region 3): what one grid point computes, and its body obligation

One grid point of the horizontal pass reads a whole band of rows of the padded vertical-pass result (128 rows by
4116 columns, the 10 columns on each side holding the large constant), and writes a whole band of 128 rows by 4096
columns: column `j` of the result is `min (sqrt (min over the 21 taps k of (column j + k of the band) + (k - 10)²)) 10`.
Nothing else in memory is written, and the result is a function of the loaded band alone. This file states that
function (`pass3`), proves the body computes it in the staging buffers, and packages the proof data the pipeline
rule asks for, at an arbitrary entry contents `V`. -/

-- membership in a rectangle of these extents is decided structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The blocks of the two windows -/

/-- The block of window `w` (0: the padded input band, 1: the output band) at grid point `t`, read off the
    window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input band's staging buffer holds the band's block at every point, whichever buffer it is on: the window
    is fetched at every point, never cut, never idle; this holds for any proof data whose input array is `V`'s and
    whose body leaves the input block in place. -/
theorem inputBlock3_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The two rectangles the body touches: the whole input band and the whole output band -/

abbrev r3_in : Rect S128x4116 := Rect.unit (s := S128x4116) ![0, 0] S128x4116.size inb_S128x4116_S128x4116_0_0
abbrev r3_0 : Rect S128x4096 := Rect.unit (s := S128x4096) ![0, 0] S128x4096.size inb_S128x4096_S128x4096_0_0

/-! ## The value one grid point stores -/

/-- The band the body stores, as a function of the band it loaded: the loaded band itself (`k3_pay2`, a shape
    cast to the same shape), the running minimum over taps 0–10 (`k3_pay3`), the slice at tap 11
    (`k3_pay4`), and the minimum over the remaining taps 11–20 followed by the square root and the clamp at 10
    (`k3_pay1`). -/
def pass3 (x0 : Vec F S128x4116 .f32) : Vec F S128x4096 .f32 :=
  k3_pay1 (k3_pay2 x0) (k3_pay3 x0) (k3_pay4 x0)

/-- The output band's staging buffer after the body: one store over the whole buffer, of `pass3` of the whole
    loaded input band. -/
def out3_1 (x0 : Vec F S128x4116 .f32) : Vec F S128x4096 .f32 :=
  View.canon [⟨r3_0, pass3 (View.ld x0 r3_in)⟩]

/-- The one store covers the output buffer: its rectangle is the whole buffer. -/
theorem cover3_1 (p0 : Vec F S128x4096 .f32) (y : S128x4096.Idx) :
    ∃ pc ∈ ([⟨r3_0, p0⟩] : List (View.Piece (Elt F) S128x4096 .f32)), y ∈ pc.1.set :=
  View.cover_of_tiled [⟨r3_0, p0⟩] S128x4096.size (by rfl) y

/-! ## The body's triple -/

set_option maxHeartbeats 1000000 in
/-- The kernel body on whole staging memrefs — the input's holding `x0`, the output's holding anything — runs to a
    state where the input's still holds `x0` and the output's holds `out3_1 x0`. The body loads the input
    band, computes, loads the output buffer once (the value is not used), and stores the result over it. -/
theorem sound_kernel3 (c : Dev nD) (E : Set ℕ) (i : grid3.Coords)
    (arg1 : Memref sig .tc .vmem S128x4116 .f32) (harg1 : arg1.IsWhole) (arg2 : Memref sig .tc .vmem S128x4096 .f32) (harg2 : arg2.IsWhole)
    (x0 : Vec F S128x4116 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__w_pass_kernel i arg1 harg1 arg2 harg2) K := by
  simp only [cc3__w_pass_kernel_eq_skeleton]; unfold cc3__w_pass_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The proof data of this region's pipeline on core `c`: the arrays as the region finds them; after the body at
    point `t` the input's buffer at its block and the output's at `out3_1` of the input block; the invariant is
    the class's (everything the region does not touch, unchanged); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

/-- The input's current staging buffer holds its block at every point. -/
theorem before3_0 (c : Dev nD) (t : Fin cfg3.N) (d) : (dat3 V c).before 0 t d = iblk3 V c 0 t :=
  inputBlock3_of V (dat3 V c) (A_eq3 V c 0) (after3_0 V c) t d

/-! ## The body obligation, at a generic point -/

/-- What the body is called with at point `t`: the invariant, the owed counter, and the two staging buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the body's triple applies; the invariant and the
    owed counter pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline rule's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.Ideal.Totals.lean ====
import proofs.«168916_j50233937494401_1_alg».proof.Proof.Gen.KernelIdeal.Launch
import proofs.«168916_j50233937494401_1_alg».proof.Proof.Gen.KernelIdeal.Skeleton
import proofs.«168916_j50233937494401_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The totals kernel: loads and stores through whole buffers -/

/-- The zero offsets of a rank-2 access, as a constant function. -/
theorem off00 : (![0, 0] : Fin 2 → ℕ) = fun _ => 0 := by funext a; fin_cases a <;> rfl

/-- A load through the whole-shape rectangle of a whole [64,4096] buffer whose contents read `X` reads `X`. -/
theorem load_whole_S64x4096 {m : Memref sig .tc .vmem S64x4096 .f32} (h : m.IsWhole) (X : Vec F S64x4096 .f32) :
    View.readAt (Elt F) m.view (Rect.unit (s := S64x4096) ![0, 0] S64x4096.size inb_S64x4096_S64x4096_0_0).toLoadRect (h.unread X) = X := by
  rw [View.readAt_eq_ld, h.read_unread]
  exact View.ld_unit_zero off00 _ X

/-- The same for a whole [1,1] buffer. -/
theorem load_whole_S1x1 {m : Memref sig .tc .vmem S1x1 .f32} (h : m.IsWhole) (X : Vec F S1x1 .f32) :
    View.readAt (Elt F) m.view (Rect.unit (s := S1x1) ![0, 0] S1x1.size inb_S1x1_S1x1_0_0).toLoadRect (h.unread X) = X := by
  rw [View.readAt_eq_ld, h.read_unread]
  exact View.ld_unit_zero off00 _ X

/-- A [1,1] buffer whose LAST store went through the whole-shape rectangle reads that store's value, whatever
    was stored before and whatever it held. -/
theorem read_last_S1x1 (v : View sig .tc .vmem S1x1 .f32) (f : v.ty.Contents (Elt F)) (w : Vec F S1x1 .f32)
    (L : List (View.Piece (Elt F) S1x1 .f32)) :
    v.read (Elt F) (v.writes (Elt F) f ((⟨Rect.unit (s := S1x1) ![0, 0] S1x1.size inb_S1x1_S1x1_0_0, w⟩ : View.Piece (Elt F) S1x1 .f32) :: L)) = w := by
  rw [View.read_writes_eq_canon _ _ _ (fun y => ⟨_, List.mem_cons_self, View.mem_set_unit_zero off00 inb_S1x1_S1x1_0_0 y⟩)]
  exact View.canon_cons_unit_zero off00 _ w L

/-- A load through the whole-shape rectangle of a [1,1] buffer whose last store went through it reads that store's value. -/
theorem readCov_last_S1x1 (v : View sig .tc .vmem S1x1 .f32) (w : Vec F S1x1 .f32) (L : List (View.Piece (Elt F) S1x1 .f32)) :
    v.readCov ((⟨Rect.unit (s := S1x1) ![0, 0] S1x1.size inb_S1x1_S1x1_0_0, w⟩ : View.Piece (Elt F) S1x1 .f32) :: L)
      (Rect.unit (s := S1x1) ![0, 0] S1x1.size inb_S1x1_S1x1_0_0).toLoadRect = w := by
  rw [View.readCov_eq_canon_ld _ _ _ (fun y => ⟨_, List.mem_cons_self, View.mem_set_unit_zero off00 inb_S1x1_S1x1_0_0 y⟩),
    View.canon_cons_unit_zero off00, View.ld_unit_zero off00]

/-- A function of four arguments at equal arguments. -/
theorem congrArg₄ {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

/-! ## The branch conditions -/

/-- The first branch condition of the totals kernel (the accumulators are zeroed): the grid coordinate is zero. -/
abbrev cond4_0 (i : grid4.Coords) : Prop := (Scalar.cmpi .ne (Scalar.extui (Scalar.cmpi .eq (BitVec.ofNat 32 (i 0).val) 0#32)) 0#32) = 1#1
/-- The second (the accumulators are copied out): the grid coordinate is the last. -/
abbrev cond4_2 (i : grid4.Coords) : Prop := k4_cond2 i = 1#1

/-- The accumulators are zeroed at point 0 only. -/
theorem hcond4_0 : ∀ t : Fin cfg4.N, cond4_0 (grid4.coords t) ↔ t.val = 0 :=
  (by decide +kernel : ∀ t : Fin grid4.N, cond4_0 (grid4.coords t) ↔ t.val = 0)
/-- They are copied out at point 31 only. -/
theorem hcond4_2 : ∀ t : Fin cfg4.N, cond4_2 (grid4.coords t) ↔ t.val = 31 :=
  (by decide +kernel : ∀ t : Fin grid4.N, cond4_2 (grid4.coords t) ↔ t.val = 31)

/-! ## The three tile totals -/

/-- Total 0 of a tile: the sum over the tile of pred·[D_gt < 10]. Depends on the D_gt and pred blocks. -/
def tile4_0 (x0 x1 x2 x3 : Vec F S64x4096 .f32) : Vec F S1x1 .f32 := k4_pay10 x0 x3
/-- Total 1 of a tile: the sum of min(D_gt·pred, 10) + min(D_est·gt, 10). Depends on all four blocks. -/
def tile4_1 (x0 x1 x2 x3 : Vec F S64x4096 .f32) : Vec F S1x1 .f32 := k4_pay11 x0 x1 x2 x3
/-- Total 2 of a tile: the sum of pred + gt. Depends on the gt and pred blocks. -/
def tile4_2 (x0 x1 x2 x3 : Vec F S64x4096 .f32) : Vec F S1x1 .f32 := k4_pay12 x2 x3

/-! ## The body, case by case -/

set_option maxHeartbeats 1600000 in
/-- Point 0: the three accumulators, whatever they held, are zeroed and then take the tile's totals; the inputs and
    the outputs are left as they were. -/
theorem run4_A (c : Dev nD) (i : grid4.Coords)
    (arg1 : Memref sig .tc .vmem S64x4096 .f32) (harg1 : arg1.IsWhole) (arg2 : Memref sig .tc .vmem S64x4096 .f32) (harg2 : arg2.IsWhole)
    (arg3 : Memref sig .tc .vmem S64x4096 .f32) (harg3 : arg3.IsWhole) (arg4 : Memref sig .tc .vmem S64x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole)
    (hc0 : cond4_0 i) (hc2 : ¬cond4_2 i)
    (x0 x1 x2 x3 : Vec F S64x4096 .f32) (y4 y5 y6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare y6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5 ∗ owns (c : Thread nD τ) arg7 fullShare y6
            ∗ owns (c : Thread nD τ) arg8 fullShare (k4_pay1 (tile4_0 x0 x1 x2 x3) (k4_pay4 (F := F))) ∗ owns (c : Thread nD τ) arg9 fullShare (k4_pay2 (tile4_1 x0 x1 x2 x3) (k4_pay5 (F := F)))
            ∗ owns (c : Thread nD τ) arg10 fullShare (k4_pay3 (tile4_2 x0 x1 x2 x3) (k4_pay6 (F := F)))) -∗ K ⟨⟩))
      ⊢ wp frame (wpE (defs₀ (F := F)) Variants.none c none) E (cc4__reduce_kernel i arg1 harg1 arg2 harg2 arg3 harg3 arg4 harg4 arg5 harg5 arg6 harg6 arg7 harg7 arg8 harg8 arg9 harg9 arg10 harg10) K := by
  simp only [cc4__reduce_kernel_eq_skeleton]; unfold cc4__reduce_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [HS0]
  · iexists _; isplitr
    swap; · iexact HS0
    ipureintro
    sl_unfold_run_names
    exact (read_last_S1x1 (F := F) _ _ _ _).trans (congrArg₂ (k4_pay1 (F := F)) (congrArg₂ (k4_pay10 (F := F)) (load_whole_S64x4096 harg1 x0) (load_whole_S64x4096 harg4 x3)) (readCov_last_S1x1 (F := F) _ _ _))
  isplitl [HS1]
  · iexists _; isplitr
    swap; · iexact HS1
    ipureintro
    sl_unfold_run_names
    exact (read_last_S1x1 (F := F) _ _ _ _).trans (congrArg₂ (k4_pay2 (F := F)) (congrArg₄ (k4_pay11 (F := F)) (load_whole_S64x4096 harg1 x0) (load_whole_S64x4096 harg2 x1) (load_whole_S64x4096 harg3 x2) (load_whole_S64x4096 harg4 x3)) (readCov_last_S1x1 (F := F) _ _ _))
  · iexists _; isplitr
    swap; · iexact HS2
    ipureintro
    sl_unfold_run_names
    exact (read_last_S1x1 (F := F) _ _ _ _).trans (congrArg₂ (k4_pay3 (F := F)) (congrArg₂ (k4_pay12 (F := F)) (load_whole_S64x4096 harg3 x2) (load_whole_S64x4096 harg4 x3)) (readCov_last_S1x1 (F := F) _ _ _))

set_option maxHeartbeats 1600000 in
/-- Points 1 to 30: each accumulator takes the tile's total on top of what it held; the inputs and the outputs are
    left as they were. -/
theorem run4_B (c : Dev nD) (i : grid4.Coords)
    (arg1 : Memref sig .tc .vmem S64x4096 .f32) (harg1 : arg1.IsWhole) (arg2 : Memref sig .tc .vmem S64x4096 .f32) (harg2 : arg2.IsWhole)
    (arg3 : Memref sig .tc .vmem S64x4096 .f32) (harg3 : arg3.IsWhole) (arg4 : Memref sig .tc .vmem S64x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole)
    (hc0 : ¬cond4_0 i) (hc2 : ¬cond4_2 i)
    (x0 x1 x2 x3 : Vec F S64x4096 .f32) (y4 y5 y6 s0 s1 s2 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare y6
        ∗ owns (c : Thread nD τ) arg8 fullShare s0 ∗ owns (c : Thread nD τ) arg9 fullShare s1 ∗ owns (c : Thread nD τ) arg10 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5 ∗ owns (c : Thread nD τ) arg7 fullShare y6
            ∗ owns (c : Thread nD τ) arg8 fullShare (k4_pay1 (tile4_0 x0 x1 x2 x3) s0) ∗ owns (c : Thread nD τ) arg9 fullShare (k4_pay2 (tile4_1 x0 x1 x2 x3) s1)
            ∗ owns (c : Thread nD τ) arg10 fullShare (k4_pay3 (tile4_2 x0 x1 x2 x3) s2)) -∗ K ⟨⟩))
      ⊢ wp frame (wpE (defs₀ (F := F)) Variants.none c none) E (cc4__reduce_kernel i arg1 harg1 arg2 harg2 arg3 harg3 arg4 harg4 arg5 harg5 arg6 harg6 arg7 harg7 arg8 harg8 arg9 harg9 arg10 harg10) K := by
  simp only [cc4__reduce_kernel_eq_skeleton]; unfold cc4__reduce_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1; obtain rfl := harg10.eq_unread hfs2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [HS0]
  · iexists _; isplitr
    swap; · iexact HS0
    ipureintro
    sl_unfold_run_names
    exact (read_last_S1x1 (F := F) _ _ _ _).trans (congrArg₂ (k4_pay1 (F := F)) (congrArg₂ (k4_pay10 (F := F)) (load_whole_S64x4096 harg1 x0) (load_whole_S64x4096 harg4 x3)) (load_whole_S1x1 harg8 s0))
  isplitl [HS1]
  · iexists _; isplitr
    swap; · iexact HS1
    ipureintro
    sl_unfold_run_names
    exact (read_last_S1x1 (F := F) _ _ _ _).trans (congrArg₂ (k4_pay2 (F := F)) (congrArg₄ (k4_pay11 (F := F)) (load_whole_S64x4096 harg1 x0) (load_whole_S64x4096 harg2 x1) (load_whole_S64x4096 harg3 x2) (load_whole_S64x4096 harg4 x3)) (load_whole_S1x1 harg9 s1))
  · iexists _; isplitr
    swap; · iexact HS2
    ipureintro
    sl_unfold_run_names
    exact (read_last_S1x1 (F := F) _ _ _ _).trans (congrArg₂ (k4_pay3 (F := F)) (congrArg₂ (k4_pay12 (F := F)) (load_whole_S64x4096 harg3 x2) (load_whole_S64x4096 harg4 x3)) (load_whole_S1x1 harg10 s2))

set_option maxHeartbeats 1600000 in
/-- Point 31: each accumulator takes the tile's total on top of what it held, and the three outputs, whatever
    they held, take the accumulators' new values; the inputs are left as they were. -/
theorem run4_C (c : Dev nD) (i : grid4.Coords)
    (arg1 : Memref sig .tc .vmem S64x4096 .f32) (harg1 : arg1.IsWhole) (arg2 : Memref sig .tc .vmem S64x4096 .f32) (harg2 : arg2.IsWhole)
    (arg3 : Memref sig .tc .vmem S64x4096 .f32) (harg3 : arg3.IsWhole) (arg4 : Memref sig .tc .vmem S64x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole)
    (hc0 : ¬cond4_0 i) (hc2 : cond4_2 i)
    (x0 x1 x2 x3 : Vec F S64x4096 .f32) (s0 s1 s2 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1 ∗ owns (c : Thread nD τ) arg10 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay1 (tile4_0 x0 x1 x2 x3) s0) ∗ owns (c : Thread nD τ) arg6 fullShare (k4_pay2 (tile4_1 x0 x1 x2 x3) s1) ∗ owns (c : Thread nD τ) arg7 fullShare (k4_pay3 (tile4_2 x0 x1 x2 x3) s2)
            ∗ owns (c : Thread nD τ) arg8 fullShare (k4_pay1 (tile4_0 x0 x1 x2 x3) s0) ∗ owns (c : Thread nD τ) arg9 fullShare (k4_pay2 (tile4_1 x0 x1 x2 x3) s1)
            ∗ owns (c : Thread nD τ) arg10 fullShare (k4_pay3 (tile4_2 x0 x1 x2 x3) s2)) -∗ K ⟨⟩))
      ⊢ wp frame (wpE (defs₀ (F := F)) Variants.none c none) E (cc4__reduce_kernel i arg1 harg1 arg2 harg2 arg3 harg3 arg4 harg4 arg5 harg5 arg6 harg6 arg7 harg7 arg8 harg8 arg9 harg9 arg10 harg10) K := by
  simp only [cc4__reduce_kernel_eq_skeleton]; unfold cc4__reduce_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1; obtain rfl := harg10.eq_unread hfs2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    exact (read_last_S1x1 (F := F) _ _ _ _).trans ((readCov_last_S1x1 (F := F) _ _ _).trans (congrArg₂ (k4_pay1 (F := F)) (congrArg₂ (k4_pay10 (F := F)) (load_whole_S64x4096 harg1 x0) (load_whole_S64x4096 harg4 x3)) (load_whole_S1x1 harg8 s0)))
  isplitl [H5]
  · iexists _; isplitr
    swap; · iexact H5
    ipureintro
    sl_unfold_run_names
    exact (read_last_S1x1 (F := F) _ _ _ _).trans ((readCov_last_S1x1 (F := F) _ _ _).trans (congrArg₂ (k4_pay2 (F := F)) (congrArg₄ (k4_pay11 (F := F)) (load_whole_S64x4096 harg1 x0) (load_whole_S64x4096 harg2 x1) (load_whole_S64x4096 harg3 x2) (load_whole_S64x4096 harg4 x3)) (load_whole_S1x1 harg9 s1)))
  isplitl [H6]
  · iexists _; isplitr
    swap; · iexact H6
    ipureintro
    sl_unfold_run_names
    exact (read_last_S1x1 (F := F) _ _ _ _).trans ((readCov_last_S1x1 (F := F) _ _ _).trans (congrArg₂ (k4_pay3 (F := F)) (congrArg₂ (k4_pay12 (F := F)) (load_whole_S64x4096 harg3 x2) (load_whole_S64x4096 harg4 x3)) (load_whole_S1x1 harg10 s2)))
  isplitl [HS0]
  · iexists _; isplitr
    swap; · iexact HS0
    ipureintro
    sl_unfold_run_names
    exact (read_last_S1x1 (F := F) _ _ _ _).trans (congrArg₂ (k4_pay1 (F := F)) (congrArg₂ (k4_pay10 (F := F)) (load_whole_S64x4096 harg1 x0) (load_whole_S64x4096 harg4 x3)) (load_whole_S1x1 harg8 s0))
  isplitl [HS1]
  · iexists _; isplitr
    swap; · iexact HS1
    ipureintro
    sl_unfold_run_names
    exact (read_last_S1x1 (F := F) _ _ _ _).trans (congrArg₂ (k4_pay2 (F := F)) (congrArg₄ (k4_pay11 (F := F)) (load_whole_S64x4096 harg1 x0) (load_whole_S64x4096 harg2 x1) (load_whole_S64x4096 harg3 x2) (load_whole_S64x4096 harg4 x3)) (load_whole_S1x1 harg9 s1))
  · iexists _; isplitr
    swap; · iexact HS2
    ipureintro
    sl_unfold_run_names
    exact (read_last_S1x1 (F := F) _ _ _ _).trans (congrArg₂ (k4_pay3 (F := F)) (congrArg₂ (k4_pay12 (F := F)) (load_whole_S64x4096 harg3 x2) (load_whole_S64x4096 harg4 x3)) (load_whole_S1x1 harg10 s2))

/-! ## The proof data of the totals region -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Accumulator 0 after point `n`: at point 0 the zeroed cell plus the tile's total 0, afterwards the value after
    the point before plus this point's. -/
def acc4_0 (c : Dev nD) : (n : ℕ) → n < cfg4.N → Vec F S1x1 .f32
  | 0, h => k4_pay1 (tile4_0 (iblk4 V c 0 ⟨0, h⟩) (iblk4 V c 1 ⟨0, h⟩) (iblk4 V c 2 ⟨0, h⟩) (iblk4 V c 3 ⟨0, h⟩)) (k4_pay4 (F := F))
  | n + 1, h => k4_pay1 (tile4_0 (iblk4 V c 0 ⟨n + 1, h⟩) (iblk4 V c 1 ⟨n + 1, h⟩) (iblk4 V c 2 ⟨n + 1, h⟩) (iblk4 V c 3 ⟨n + 1, h⟩)) (acc4_0 c n (Nat.lt_of_succ_lt h))

theorem acc4_0_zero (c : Dev nD) (t : Fin cfg4.N) (h : t.val = 0) :
    acc4_0 V c t.val t.isLt = k4_pay1 (tile4_0 (iblk4 V c 0 t) (iblk4 V c 1 t) (iblk4 V c 2 t) (iblk4 V c 3 t)) (k4_pay4 (F := F)) := by
  obtain ⟨n, hn⟩ := t
  cases n with
  | zero => rfl
  | succ n => exact absurd h (Nat.succ_ne_zero n)

theorem acc4_0_pos (c : Dev nD) (t : Fin cfg4.N) (h : t.val ≠ 0) :
    acc4_0 V c t.val t.isLt = k4_pay1 (tile4_0 (iblk4 V c 0 t) (iblk4 V c 1 t) (iblk4 V c 2 t) (iblk4 V c 3 t)) (acc4_0 V c (t.val - 1) (Nat.lt_of_le_of_lt (Nat.sub_le _ _) t.isLt)) := by
  obtain ⟨n, hn⟩ := t
  cases n with
  | zero => exact absurd rfl h
  | succ n => rfl

theorem acc4_0_congr (c : Dev nD) (n n' : ℕ) (e : n = n') (h : n < cfg4.N) (h' : n' < cfg4.N) : acc4_0 V c n h = acc4_0 V c n' h' := by
  subst e; rfl

/-- Accumulator 1 after point `n`: at point 0 the zeroed cell plus the tile's total 1, afterwards the value after
    the point before plus this point's. -/
def acc4_1 (c : Dev nD) : (n : ℕ) → n < cfg4.N → Vec F S1x1 .f32
  | 0, h => k4_pay2 (tile4_1 (iblk4 V c 0 ⟨0, h⟩) (iblk4 V c 1 ⟨0, h⟩) (iblk4 V c 2 ⟨0, h⟩) (iblk4 V c 3 ⟨0, h⟩)) (k4_pay5 (F := F))
  | n + 1, h => k4_pay2 (tile4_1 (iblk4 V c 0 ⟨n + 1, h⟩) (iblk4 V c 1 ⟨n + 1, h⟩) (iblk4 V c 2 ⟨n + 1, h⟩) (iblk4 V c 3 ⟨n + 1, h⟩)) (acc4_1 c n (Nat.lt_of_succ_lt h))

theorem acc4_1_zero (c : Dev nD) (t : Fin cfg4.N) (h : t.val = 0) :
    acc4_1 V c t.val t.isLt = k4_pay2 (tile4_1 (iblk4 V c 0 t) (iblk4 V c 1 t) (iblk4 V c 2 t) (iblk4 V c 3 t)) (k4_pay5 (F := F)) := by
  obtain ⟨n, hn⟩ := t
  cases n with
  | zero => rfl
  | succ n => exact absurd h (Nat.succ_ne_zero n)

theorem acc4_1_pos (c : Dev nD) (t : Fin cfg4.N) (h : t.val ≠ 0) :
    acc4_1 V c t.val t.isLt = k4_pay2 (tile4_1 (iblk4 V c 0 t) (iblk4 V c 1 t) (iblk4 V c 2 t) (iblk4 V c 3 t)) (acc4_1 V c (t.val - 1) (Nat.lt_of_le_of_lt (Nat.sub_le _ _) t.isLt)) := by
  obtain ⟨n, hn⟩ := t
  cases n with
  | zero => exact absurd rfl h
  | succ n => rfl

theorem acc4_1_congr (c : Dev nD) (n n' : ℕ) (e : n = n') (h : n < cfg4.N) (h' : n' < cfg4.N) : acc4_1 V c n h = acc4_1 V c n' h' := by
  subst e; rfl

/-- Accumulator 2 after point `n`: at point 0 the zeroed cell plus the tile's total 2, afterwards the value after
    the point before plus this point's. -/
def acc4_2 (c : Dev nD) : (n : ℕ) → n < cfg4.N → Vec F S1x1 .f32
  | 0, h => k4_pay3 (tile4_2 (iblk4 V c 0 ⟨0, h⟩) (iblk4 V c 1 ⟨0, h⟩) (iblk4 V c 2 ⟨0, h⟩) (iblk4 V c 3 ⟨0, h⟩)) (k4_pay6 (F := F))
  | n + 1, h => k4_pay3 (tile4_2 (iblk4 V c 0 ⟨n + 1, h⟩) (iblk4 V c 1 ⟨n + 1, h⟩) (iblk4 V c 2 ⟨n + 1, h⟩) (iblk4 V c 3 ⟨n + 1, h⟩)) (acc4_2 c n (Nat.lt_of_succ_lt h))

theorem acc4_2_zero (c : Dev nD) (t : Fin cfg4.N) (h : t.val = 0) :
    acc4_2 V c t.val t.isLt = k4_pay3 (tile4_2 (iblk4 V c 0 t) (iblk4 V c 1 t) (iblk4 V c 2 t) (iblk4 V c 3 t)) (k4_pay6 (F := F)) := by
  obtain ⟨n, hn⟩ := t
  cases n with
  | zero => rfl
  | succ n => exact absurd h (Nat.succ_ne_zero n)

theorem acc4_2_pos (c : Dev nD) (t : Fin cfg4.N) (h : t.val ≠ 0) :
    acc4_2 V c t.val t.isLt = k4_pay3 (tile4_2 (iblk4 V c 0 t) (iblk4 V c 1 t) (iblk4 V c 2 t) (iblk4 V c 3 t)) (acc4_2 V c (t.val - 1) (Nat.lt_of_le_of_lt (Nat.sub_le _ _) t.isLt)) := by
  obtain ⟨n, hn⟩ := t
  cases n with
  | zero => exact absurd rfl h
  | succ n => rfl

theorem acc4_2_congr (c : Dev nD) (n n' : ℕ) (e : n = n') (h : n < cfg4.N) (h' : n' < cfg4.N) : acc4_2 V c n h = acc4_2 V c n' h' := by
  subst e; rfl

/-- The grid has 32 points; the last is 31. -/
theorem last4_lt : 31 < cfg4.N := by decide

/-- The three accumulator cells, whole scoped buffers of the kernel's own. -/
abbrev scM4_0 : Memref sig .tc .vmem S1x1 .f32 := Memref.whole cc4_scratch0
abbrev scM4_1 : Memref sig .tc .vmem S1x1 .f32 := Memref.whole cc4_scratch1
abbrev scM4_2 : Memref sig .tc .vmem S1x1 .f32 := Memref.whole cc4_scratch2

/-- The core's other scoped buffers that are no staging buffer of this region (the earlier regions' staging
    buffers), each at some contents. -/
def others4 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc3_stg0_0), ((c : Thread nD τ).loc cc3_stg0_0) ↦{fullShare} f)
      ∗ (∃ f : Buf (Elt F) ((c : Thread nD τ).loc cc3_stg0_1), ((c : Thread nD τ).loc cc3_stg0_1) ↦{fullShare} f)
      ∗ (∃ f : Buf (Elt F) ((c : Thread nD τ).loc cc3_stg1_0), ((c : Thread nD τ).loc cc3_stg1_0) ↦{fullShare} f)
      ∗ (∃ f : Buf (Elt F) ((c : Thread nD τ).loc cc3_stg1_1), ((c : Thread nD τ).loc cc3_stg1_1) ↦{fullShare} f))

/-- The class invariant with the accumulator cells as memrefs owned at some contents. -/
theorem PhiA4_eq (c : Dev nD) :
    (Pipeline.ΦA spec4 c : sProp 𝕄)
      = iprop(others4 (F := F) c ∗ (∃ d, owns (c : Thread nD τ) scM4_0 fullShare d) ∗ (∃ d, owns (c : Thread nD τ) scM4_1 fullShare d)
          ∗ (∃ d, owns (c : Thread nD τ) scM4_2 fullShare d) ∗ (∃ r, prngReg c r)) := by
  unfold Pipeline.ΦA; rw [scopedRest4_eq]; simp only [scM4_0, scM4_1, scM4_2, owns_whole]; unfold others4
  refine BI.equiv_iff.mp ⟨?_, ?_⟩
  · change (_ : sProp 𝕄) ⊢ _
    iintro ⟨⟨A0, A1, A2, A3, A4, A5, A6, A7, A8, A9, A10, A11, A12, A13, A14, A15, S0, S1, S2⟩, Hg⟩
    iframe
  · change (_ : sProp 𝕄) ⊢ _
    iintro ⟨⟨A0, A1, A2, A3, A4, A5, A6, A7, A8, A9, A10, A11, A12, A13, A14, A15⟩, S0, S1, S2, Hg⟩
    iframe

/-- THE TRACKING INVARIANT before position `n`: before the first point the class invariant (every scoped buffer at
    anything); afterwards the same with the three accumulator cells at their values after point `n - 1`. -/
def Phi4 (c : Dev nD) : (n : ℕ) → n ≤ cfg4.N → sProp 𝕄
  | 0, _ => Pipeline.ΦA spec4 c
  | n + 1, hn => iprop(others4 (F := F) c ∗ owns (c : Thread nD τ) scM4_0 fullShare (acc4_0 V c n hn) ∗ owns (c : Thread nD τ) scM4_1 fullShare (acc4_1 V c n hn)
      ∗ owns (c : Thread nD τ) scM4_2 fullShare (acc4_2 V c n hn) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(others4 (F := F) c ∗ owns (c : Thread nD τ) scM4_0 fullShare (acc4_0 V c n hn) ∗ owns (c : Thread nD τ) scM4_1 fullShare (acc4_1 V c n hn)
      ∗ owns (c : Thread nD τ) scM4_2 fullShare (acc4_2 V c n hn) ∗ (∃ r, prngReg c r)) := rfl

theorem Phi4_pos (c : Dev nD) (n : ℕ) (h : n ≤ cfg4.N) (hz : n ≠ 0) :
    Phi4 V c n h = iprop(others4 (F := F) c ∗ owns (c : Thread nD τ) scM4_0 fullShare (acc4_0 V c (n - 1) (by omega)) ∗ owns (c : Thread nD τ) scM4_1 fullShare (acc4_1 V c (n - 1) (by omega))
      ∗ owns (c : Thread nD τ) scM4_2 fullShare (acc4_2 V c (n - 1) (by omega)) ∗ (∃ r, prngReg c r)) := by
  cases n with
  | zero => exact absurd rfl hz
  | succ n => rfl

/-- The proof data of the totals region on core `c`: the arrays as the region finds them; after the body each
    input's buffer at its block, each output's at its accumulator's final value (an output is stored, and written
    back, at the last point only); the tracking invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => acc4_0 V c 31 last4_lt
    | ⟨5, _⟩ => acc4_1 V c 31 last4_lt
    | ⟨6, _⟩ => acc4_2 V c 31 last4_lt
  Φ t := Phi4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = acc4_0 V c 31 last4_lt := by dsimp only [dat4]
theorem after4_5 (c : Dev nD) (t : Fin cfg4.N) : (dat4 V c).after 5 t = acc4_1 V c 31 last4_lt := by dsimp only [dat4]
theorem after4_6 (c : Dev nD) (t : Fin cfg4.N) : (dat4 V c).after 6 t = acc4_2 V c 31 last4_lt := by dsimp only [dat4]

/-- Input 0's current buffer holds its block at every point. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

/-- Input 1's current buffer holds its block at every point. -/
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-- Input 2's current buffer holds its block at every point. -/
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

/-- Input 3's current buffer holds its block at every point. -/
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

/-! ## The body obligation -/

/-- Each window's current staging memref at point `t`, as the pipeline passes it to the body. -/
abbrev ms4_0 (t : Fin cfg4.N) : Memref sig .tc .vmem S64x4096 .f32 := win4_0.stage (cfg4.slots t 0)
abbrev ms4_1 (t : Fin cfg4.N) : Memref sig .tc .vmem S64x4096 .f32 := win4_1.stage (cfg4.slots t 1)
abbrev ms4_2 (t : Fin cfg4.N) : Memref sig .tc .vmem S64x4096 .f32 := win4_2.stage (cfg4.slots t 2)
abbrev ms4_3 (t : Fin cfg4.N) : Memref sig .tc .vmem S64x4096 .f32 := win4_3.stage (cfg4.slots t 3)
abbrev ms4_4 (t : Fin cfg4.N) : Memref sig .tc .vmem S1x1 .f32 := win4_4.stage (cfg4.slots t 4)
abbrev ms4_5 (t : Fin cfg4.N) : Memref sig .tc .vmem S1x1 .f32 := win4_5.stage (cfg4.slots t 5)
abbrev ms4_6 (t : Fin cfg4.N) : Memref sig .tc .vmem S1x1 .f32 := win4_6.stage (cfg4.slots t 6)

/-- Where the output windows are idle: everywhere but at the last point, where alone they are stored and written back. -/
theorem idle4_4 : ∀ t : Fin cfg4.N, ¬cond4_2 (grid4.coords t) → cfg4.idle 4 (grid4.coords t) = true := by decide +kernel
theorem live4_4 : ∀ t : Fin cfg4.N, cond4_2 (grid4.coords t) → cfg4.idle 4 (grid4.coords t) = false := by decide +kernel
theorem noFlush4_4 : ∀ t : Fin cfg4.N, ¬cond4_2 (grid4.coords t) → (cfg4.win 4).flush t = false := by decide +kernel
theorem idle4_5 : ∀ t : Fin cfg4.N, ¬cond4_2 (grid4.coords t) → cfg4.idle 5 (grid4.coords t) = true := by decide +kernel
theorem live4_5 : ∀ t : Fin cfg4.N, cond4_2 (grid4.coords t) → cfg4.idle 5 (grid4.coords t) = false := by decide +kernel
theorem noFlush4_5 : ∀ t : Fin cfg4.N, ¬cond4_2 (grid4.coords t) → (cfg4.win 5).flush t = false := by decide +kernel
theorem idle4_6 : ∀ t : Fin cfg4.N, ¬cond4_2 (grid4.coords t) → cfg4.idle 6 (grid4.coords t) = true := by decide +kernel
theorem live4_6 : ∀ t : Fin cfg4.N, cond4_2 (grid4.coords t) → cfg4.idle 6 (grid4.coords t) = false := by decide +kernel
theorem noFlush4_6 : ∀ t : Fin cfg4.N, ¬cond4_2 (grid4.coords t) → (cfg4.win 6).flush t = false := by decide +kernel

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t ∗ (dat4 V c).leavesExact 4 t ∗ (dat4 V c).leavesExact 5 t ∗ (dat4 V c).leavesExact 6 t)

set_option maxHeartbeats 4800000 in
/-- The body at any point. The inputs' memrefs hold their blocks. At point 0 the invariant hands the body the three
    accumulator cells at anything and takes them back at the zeroed cell plus the tile's totals; at a later point it hands
    them at their values after the point before and takes them back with this tile's totals added; the outputs, idle
    before the last point, are handed back as found, and at the last point hold the accumulators' final values. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [show cfg4.idle 0 (grid4.coords t) = false from rfl], after4_0]
  rw [show (dat4 V c).leavesExact 1 t = owns (c : Thread nD τ) (ms4_1 t) fullShare ((dat4 V c).after 1 t) from by
    unfold Dat.leavesExact; rw [show cfg4.idle 1 (grid4.coords t) = false from rfl], after4_1]
  rw [show (dat4 V c).leavesExact 2 t = owns (c : Thread nD τ) (ms4_2 t) fullShare ((dat4 V c).after 2 t) from by
    unfold Dat.leavesExact; rw [show cfg4.idle 2 (grid4.coords t) = false from rfl], after4_2]
  rw [show (dat4 V c).leavesExact 3 t = owns (c : Thread nD τ) (ms4_3 t) fullShare ((dat4 V c).after 3 t) from by
    unfold Dat.leavesExact; rw [show cfg4.idle 3 (grid4.coords t) = false from rfl], after4_3]
  by_cases h0 : t.val = 0
  · have hc0 : cond4_0 (grid4.coords t) := (hcond4_0 t).mpr h0
    have hc2 : ¬cond4_2 (grid4.coords t) := fun h => by have := (hcond4_2 t).mp h; omega
    rw [Dat.leavesExact_idle (dat4 V c) 4 t (idle4_4 t hc2) (noFlush4_4 t hc2), Dat.leavesExact_idle (dat4 V c) 5 t (idle4_5 t hc2) (noFlush4_5 t hc2),
      Dat.leavesExact_idle (dat4 V c) 6 t (idle4_6 t hc2) (noFlush4_6 t hc2)]
    rw [Phi4_castSucc V c t, Phi4_zero V c _ _ h0, PhiA4_eq, acc4_0_zero V c t h0, acc4_1_zero V c t h0, acc4_2_zero V c t h0]
    iintro ⟨⟨Hoth, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
    iapply (run4_A c (grid4.coords t) _ _ _ _ _ _ _ _ _ _ _ _ _ _ _ _ _ _ _ _ hc0 hc2 (iblk4 V c 0 t) (iblk4 V c 1 t) (iblk4 V c 2 t) (iblk4 V c 3 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [Hoth HS0 HS1 HS2 Hg]
    · isplitl [Hoth]; · iexact Hoth
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    iexists d6; iexact H6
  by_cases h1 : t.val = 31
  · have hc0 : ¬cond4_0 (grid4.coords t) := fun h => h0 ((hcond4_0 t).mp h)
    have hc2 : cond4_2 (grid4.coords t) := (hcond4_2 t).mpr h1
    rw [show (dat4 V c).leavesExact 4 t = owns (c : Thread nD τ) (ms4_4 t) fullShare ((dat4 V c).after 4 t) from by
      unfold Dat.leavesExact; rw [live4_4 t hc2], after4_4]
    rw [show (dat4 V c).leavesExact 5 t = owns (c : Thread nD τ) (ms4_5 t) fullShare ((dat4 V c).after 5 t) from by
      unfold Dat.leavesExact; rw [live4_5 t hc2], after4_5]
    rw [show (dat4 V c).leavesExact 6 t = owns (c : Thread nD τ) (ms4_6 t) fullShare ((dat4 V c).after 6 t) from by
      unfold Dat.leavesExact; rw [live4_6 t hc2], after4_6]
    rw [acc4_0_congr V c 31 t.val h1.symm last4_lt t.isLt, acc4_1_congr V c 31 t.val h1.symm last4_lt t.isLt, acc4_2_congr V c 31 t.val h1.symm last4_lt t.isLt]
    rw [Phi4_castSucc V c t, Phi4_pos V c _ _ h0, acc4_0_pos V c t h0, acc4_1_pos V c t h0, acc4_2_pos V c t h0]
    iintro ⟨⟨Hoth, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
    iapply (run4_C c (grid4.coords t) _ _ _ _ _ _ _ _ _ _ _ _ _ _ _ _ _ _ _ _ hc0 hc2 (iblk4 V c 0 t) (iblk4 V c 1 t) (iblk4 V c 2 t) (iblk4 V c 3 t) _ _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [Hoth HS0 HS1 HS2 Hg]
    · isplitl [Hoth]; · iexact Hoth
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬cond4_0 (grid4.coords t) := fun h => h0 ((hcond4_0 t).mp h)
    have hc2 : ¬cond4_2 (grid4.coords t) := fun h => h1 ((hcond4_2 t).mp h)
    rw [Dat.leavesExact_idle (dat4 V c) 4 t (idle4_4 t hc2) (noFlush4_4 t hc2), Dat.leavesExact_idle (dat4 V c) 5 t (idle4_5 t hc2) (noFlush4_5 t hc2),
      Dat.leavesExact_idle (dat4 V c) 6 t (idle4_6 t hc2) (noFlush4_6 t hc2)]
    rw [Phi4_castSucc V c t, Phi4_pos V c _ _ h0, acc4_0_pos V c t h0, acc4_1_pos V c t h0, acc4_2_pos V c t h0]
    iintro ⟨⟨Hoth, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
    iapply (run4_B c (grid4.coords t) _ _ _ _ _ _ _ _ _ _ _ _ _ _ _ _ _ _ _ _ hc0 hc2 (iblk4 V c 0 t) (iblk4 V c 1 t) (iblk4 V c 2 t) (iblk4 V c 3 t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [Hoth HS0 HS1 HS2 Hg]
    · isplitl [Hoth]; · iexact Hoth
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    iexists d6; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point but the first the invariant gives the class invariant back: the accumulators' values are forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

/-- The same after the last point. -/
theorem hout4 (c : Dev nD) : (dat4 V c).Φ (Fin.last cfg4.N) ⊢ Pipeline.ΦA spec4 c :=
  Phi4_out V c _ (by rw [Fin.val_last]; have : cfg4.N = 32 := N_4; omega)

end Cert.KernelIdeal.Hand

end
-- ==== Proof.Ideal.Run.lean ====
import proofs.«168916_j50233937494401_1_alg».proof.Proof.Gen.KernelIdeal.Launch
import proofs.«168916_j50233937494401_1_alg».proof.Proof.Gen.KernelIdeal.Skeleton
import proofs.«168916_j50233937494401_1_alg».proof.Proof.Gen.KernelIdeal.Points
import proofs.«168916_j50233937494401_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168916_j50233937494401_1_alg».proof.Proof.Ideal.Col0
import proofs.«168916_j50233937494401_1_alg».proof.Proof.Ideal.Row1
import proofs.«168916_j50233937494401_1_alg».proof.Proof.Ideal.Col2
import proofs.«168916_j50233937494401_1_alg».proof.Proof.Ideal.Row3
import proofs.«168916_j50233937494401_1_alg».proof.Proof.Ideal.Totals

/-! # The run of the entry function over its five kernel regions

The entry function is sixteen items in a row: stretches of host operations (reshapes, the paddings, the final
scalar arithmetic) and five kernel regions (two min-plus passes for each image, then the totals). Between two
items every unscoped buffer of a core holds definite contents: a stretch applies its operations, a region leaves each
array it writes at what its grid points' write-backs leave and touches nothing else. This file names those
contents (`W0` … `W16`), gives each region its record over them, and runs the whole function: every execution ends,
nothing faults, and at the end every unscoped buffer holds the last contents `W16`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at every boundary between two items of the entry function

A fold from the launch memory: a stretch of host operations applies them; a kernel region leaves each of its
windowed arrays at what the write-backs of its grid points leave, and every other buffer as it was. -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
def W3 (c : Dev nD) : Valuation τ sig (Elt F) :=
  Pipeline.withArrays spec0 c (W2 m ρ c) fun w => (dat0 (V2 m ρ) c).arrAt w cfg0.N
abbrev V3 : (c : Dev nD) → (b : Ref sig .tc) → Buf (Elt F) ((c : Thread nD τ).loc b) := fun c b => W3 m ρ c b
abbrev W4 : Dev nD → Valuation τ sig (Elt F) := fun c => StableHlo.after hostOps1 (W3 m ρ c)
abbrev W5 : Dev nD → Valuation τ sig (Elt F) := fun c => StableHlo.after hostOps1_1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
abbrev V6 : (c : Dev nD) → (b : Ref sig .tc) → Buf (Elt F) ((c : Thread nD τ).loc b) := fun c b => W6 m ρ c b
abbrev W7 : Dev nD → Valuation τ sig (Elt F) := fun c => StableHlo.after hostOps2 (W6 m ρ c)
abbrev W8 : Dev nD → Valuation τ sig (Elt F) := fun c => StableHlo.after hostOps2_1 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec2 c (W8 m ρ c) fun w => (dat2 (V8 m ρ) c).arrAt w cfg2.N
abbrev V9 : (c : Dev nD) → (b : Ref sig .tc) → Buf (Elt F) ((c : Thread nD τ).loc b) := fun c b => W9 m ρ c b
abbrev W10 : Dev nD → Valuation τ sig (Elt F) := fun c => StableHlo.after hostOps3 (W9 m ρ c)
abbrev W11 : Dev nD → Valuation τ sig (Elt F) := fun c => StableHlo.after hostOps3_1 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec3 c (W11 m ρ c) fun w => (dat3 (V11 m ρ) c).arrAt w cfg3.N
abbrev V12 : (c : Dev nD) → (b : Ref sig .tc) → Buf (Elt F) ((c : Thread nD τ).loc b) := fun c b => W12 m ρ c b
def W13 (c : Dev nD) : Valuation τ sig (Elt F) :=
  Pipeline.withArrays spec4 c (W12 m ρ c) fun w => (dat4 (V12 m ρ) c).arrAt w cfg4.N
abbrev V13 : (c : Dev nD) → (b : Ref sig .tc) → Buf (Elt F) ((c : Thread nD τ).loc b) := fun c b => W13 m ρ c b
abbrev W14 : Dev nD → Valuation τ sig (Elt F) := fun c => StableHlo.after hostOps5 (W13 m ρ c)
abbrev W15 : Dev nD → Valuation τ sig (Elt F) := fun c => StableHlo.after hostOps5_1 (W14 m ρ c)
abbrev W16 : Dev nD → Valuation τ sig (Elt F) := fun c => StableHlo.after hostOps5_2 (W15 m ρ c)

/-- After region 0 each of its windowed arrays holds what the grid points' write-backs leave, -/
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
/-- and every other buffer what it held when the region was entered. -/
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After region 1 each of its windowed arrays holds what the grid points' write-backs leave, -/
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
/-- and every other buffer what it held when the region was entered. -/
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After region 2 each of its windowed arrays holds what the grid points' write-backs leave, -/
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
/-- and every other buffer what it held when the region was entered. -/
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After region 3 each of its windowed arrays holds what the grid points' write-backs leave, -/
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
/-- and every other buffer what it held when the region was entered. -/
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-- After region 4 each of its windowed arrays holds what the grid points' write-backs leave, -/
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
/-- and every other buffer what it held when the region was entered. -/
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

/-! # The proof data of the five pipelines and the state carried between items -/

abbrev adm : (p : Fin 5) → (pcfgs (F := F) p).Adm := fun p => (cfgs p).toPCfg_adm
/-- Each pipeline's proof data at the contents its region is entered with (a literal match on the pipeline). -/
def pdats : (p : Fin 5) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V5 m ρ) c
  | ⟨2, _⟩ => fun c => dat2 (V8 m ρ) c
  | ⟨3, _⟩ => fun c => dat3 (V11 m ρ) c
  | ⟨4, _⟩ => fun c => dat4 (V12 m ρ) c
abbrev 𝒱₀ : Variants := Variants.none
abbrev L : GSem nD τ sig → Finset Unit := fun _ => ∅
abbrev lv : GSem nD τ sig → Unit → ℕ := fun _ _ => 0
/-- Beside the buffers every item carries the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The regions as items -/

set_option backward.isDefEq.respectTransparency.types false in
/-- Region 0: entered with every unscoped buffer at the contents before it, left with its windowed arrays at what
    the write-backs leave and every other buffer unchanged; the generator register goes into the region's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at the contents before it, left with its windowed arrays at what
    the write-backs leave and every other buffer unchanged; the generator register goes into the region's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at the contents before it, left with its windowed arrays at what
    the write-backs leave and every other buffer unchanged; the generator register goes into the region's invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at the contents before it, left with its windowed arrays at what
    the write-backs leave and every other buffer unchanged; the generator register goes into the region's invariant
    and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at the contents before it, left with its windowed arrays at what
    the write-backs leave and every other buffer unchanged; the generator register goes into the region's invariant
    and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (V12 m ρ) c)
    unfold Pipeline.ΦA
    iintro ⟨Hp, -, Hr⟩
    isplitl [Hr]; · iexact Hr
    iexact Hp
  hout c := by
    refine (hout4 (V12 m ρ) c).trans (show (Pipeline.ΦA spec4 c : sProp 𝕄) ⊢ _ from ?_)
    rw [Pipeline.ownSems0_none]
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The entry function as a list of items, and its run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .host (hseg hostOps1_1 hostOps1_1_sub hostOps1_1_fresh (W4 m ρ)),
    .region (reg1 m ρ),
    .host (hseg hostOps2 hostOps2_sub hostOps2_fresh (W6 m ρ)),
    .host (hseg hostOps2_1 hostOps2_1_sub hostOps2_1_fresh (W7 m ρ)),
    .region (reg2 m ρ),
    .host (hseg hostOps3 hostOps3_sub hostOps3_fresh (W9 m ρ)),
    .host (hseg hostOps3_1 hostOps3_1_sub hostOps3_1_fresh (W10 m ρ)),
    .region (reg3 m ρ),
    .region (reg4 m ρ),
    .host (hseg hostOps5 hostOps5_sub hostOps5_fresh (W13 m ρ)),
    .host (hseg hostOps5_1 hostOps5_1_sub hostOps5_1_fresh (W14 m ρ)),
    .host (hseg hostOps5_2 hostOps5_2_sub hostOps5_2_fresh (W15 m ρ)) ]

theorem main_run (c : Dev nD) : main (F := F) c = Pipeline.Seg.run (segs m ρ) := (main_chain c).trans (by chain_rfl)

abbrev Tₙ (c : Dev nD) : sProp 𝕄 := iprop(StableHlo.held (c : Thread nD τ) (Pipeline.ucRefs τ sig) (W16 m ρ c) ∗ ∃ r, prngReg c r)

set_option backward.isDefEq.respectTransparency.types false in
/-- THE RUN. From any memory with zero counters every weakly fair execution of the entry function terminates without
    a fault, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W16 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-! # Buffers no item in between writes -/

/-- No item writes the first argument. -/
theorem W16_main_arg0' (c : Dev nD) : W16 m ρ c (Proc.devRef .tc main_arg0) = W0 m ρ c (Proc.devRef .tc main_arg0) :=
  (StableHlo.after_of_writes_sub hostOps5_2 _ hostOps5_2_writes (r := main_arg0) (by decide)).trans <|
  (StableHlo.after_of_writes_sub hostOps5_1 _ hostOps5_1_writes (r := main_arg0) (by decide)).trans <|
  (StableHlo.after_of_writes_sub hostOps5 _ hostOps5_writes (r := main_arg0) (by decide)).trans <|
  (W13_of_ne m ρ c main_arg0 (by decide)).trans <|
  (W12_of_ne m ρ c main_arg0 (by decide)).trans <|
  (StableHlo.after_of_writes_sub hostOps3_1 _ hostOps3_1_writes (r := main_arg0) (by decide)).trans <|
  (StableHlo.after_of_writes_sub hostOps3 _ hostOps3_writes (r := main_arg0) (by decide)).trans <|
  (W9_of_ne m ρ c main_arg0 (by decide)).trans <|
  (StableHlo.after_of_writes_sub hostOps2_1 _ hostOps2_1_writes (r := main_arg0) (by decide)).trans <|
  (StableHlo.after_of_writes_sub hostOps2 _ hostOps2_writes (r := main_arg0) (by decide)).trans <|
  (W6_of_ne m ρ c main_arg0 (by decide)).trans <|
  (StableHlo.after_of_writes_sub hostOps1_1 _ hostOps1_1_writes (r := main_arg0) (by decide)).trans <|
  (StableHlo.after_of_writes_sub hostOps1 _ hostOps1_writes (r := main_arg0) (by decide)).trans <|
  (W3_of_ne m ρ c main_arg0 (by decide)).trans <|
  (StableHlo.after_of_writes_sub hostOps0_1 _ hostOps0_1_writes (r := main_arg0) (by decide)).trans <|
  (StableHlo.after_of_writes_sub hostOps0 _ hostOps0_writes (r := main_arg0) (by decide)).trans <| rfl

/-- No item writes the second argument. -/
theorem W16_main_arg1' (c : Dev nD) : W16 m ρ c (Proc.devRef .tc main_arg1) = W0 m ρ c (Proc.devRef .tc main_arg1) :=
  (StableHlo.after_of_writes_sub hostOps5_2 _ hostOps5_2_writes (r := main_arg1) (by decide)).trans <|
  (StableHlo.after_of_writes_sub hostOps5_1 _ hostOps5_1_writes (r := main_arg1) (by decide)).trans <|
  (StableHlo.after_of_writes_sub hostOps5 _ hostOps5_writes (r := main_arg1) (by decide)).trans <|
  (W13_of_ne m ρ c main_arg1 (by decide)).trans <|
  (W12_of_ne m ρ c main_arg1 (by decide)).trans <|
  (StableHlo.after_of_writes_sub hostOps3_1 _ hostOps3_1_writes (r := main_arg1) (by decide)).trans <|
  (StableHlo.after_of_writes_sub hostOps3 _ hostOps3_writes (r := main_arg1) (by decide)).trans <|
  (W9_of_ne m ρ c main_arg1 (by decide)).trans <|
  (StableHlo.after_of_writes_sub hostOps2_1 _ hostOps2_1_writes (r := main_arg1) (by decide)).trans <|
  (StableHlo.after_of_writes_sub hostOps2 _ hostOps2_writes (r := main_arg1) (by decide)).trans <|
  (W6_of_ne m ρ c main_arg1 (by decide)).trans <|
  (StableHlo.after_of_writes_sub hostOps1_1 _ hostOps1_1_writes (r := main_arg1) (by decide)).trans <|
  (StableHlo.after_of_writes_sub hostOps1 _ hostOps1_writes (r := main_arg1) (by decide)).trans <|
  (W3_of_ne m ρ c main_arg1 (by decide)).trans <|
  (StableHlo.after_of_writes_sub hostOps0_1 _ hostOps0_1_writes (r := main_arg1) (by decide)).trans <|
  (StableHlo.after_of_writes_sub hostOps0 _ hostOps0_writes (r := main_arg1) (by decide)).trans <| rfl

theorem W16_main_arg0 (c : Dev nD) : W16 m ρ c (Proc.devRef .tc main_arg0) = m ((c : Thread nD τ).loc main_arg0) :=
  (W16_main_arg0' m ρ c).trans rfl
theorem W16_main_arg1 (c : Dev nD) : W16 m ρ c (Proc.devRef .tc main_arg1) = m ((c : Thread nD τ).loc main_arg1) :=
  (W16_main_arg1' m ρ c).trans rfl
/-- The flattened second image is untouched until the first image's passes are over. -/
theorem W6_main_v1 (c : Dev nD) : W6 m ρ c (Proc.devRef .tc main_v1) = W2 m ρ c (Proc.devRef .tc main_v1) :=
  (W6_of_ne m ρ c main_v1 (by decide)).trans <|
  (StableHlo.after_of_writes_sub hostOps1_1 _ hostOps1_1_writes (r := main_v1) (by decide)).trans <|
  (StableHlo.after_of_writes_sub hostOps1 _ hostOps1_writes (r := main_v1) (by decide)).trans <|
  (W3_of_ne m ρ c main_v1 (by decide)).trans <| rfl

/-- The flattened first image reaches the totals region as it was made. -/
theorem W12_main_v0 (c : Dev nD) : W12 m ρ c (Proc.devRef .tc main_v0) = W2 m ρ c (Proc.devRef .tc main_v0) :=
  (W12_of_ne m ρ c main_v0 (by decide)).trans <|
  (StableHlo.after_of_writes_sub hostOps3_1 _ hostOps3_1_writes (r := main_v0) (by decide)).trans <|
  (StableHlo.after_of_writes_sub hostOps3 _ hostOps3_writes (r := main_v0) (by decide)).trans <|
  (W9_of_ne m ρ c main_v0 (by decide)).trans <|
  (StableHlo.after_of_writes_sub hostOps2_1 _ hostOps2_1_writes (r := main_v0) (by decide)).trans <|
  (StableHlo.after_of_writes_sub hostOps2 _ hostOps2_writes (r := main_v0) (by decide)).trans <|
  (W6_of_ne m ρ c main_v0 (by decide)).trans <|
  (StableHlo.after_of_writes_sub hostOps1_1 _ hostOps1_1_writes (r := main_v0) (by decide)).trans <|
  (StableHlo.after_of_writes_sub hostOps1 _ hostOps1_writes (r := main_v0) (by decide)).trans <|
  (W3_of_ne m ρ c main_v0 (by decide)).trans <| rfl

/-- The flattened second image reaches the totals region as it was made. -/
theorem W12_main_v1 (c : Dev nD) : W12 m ρ c (Proc.devRef .tc main_v1) = W2 m ρ c (Proc.devRef .tc main_v1) :=
  (W12_of_ne m ρ c main_v1 (by decide)).trans <|
  (StableHlo.after_of_writes_sub hostOps3_1 _ hostOps3_1_writes (r := main_v1) (by decide)).trans <|
  (StableHlo.after_of_writes_sub hostOps3 _ hostOps3_writes (r := main_v1) (by decide)).trans <|
  (W9_of_ne m ρ c main_v1 (by decide)).trans <|
  (StableHlo.after_of_writes_sub hostOps2_1 _ hostOps2_1_writes (r := main_v1) (by decide)).trans <|
  (StableHlo.after_of_writes_sub hostOps2 _ hostOps2_writes (r := main_v1) (by decide)).trans <|
  (W6_of_ne m ρ c main_v1 (by decide)).trans <|
  (StableHlo.after_of_writes_sub hostOps1_1 _ hostOps1_1_writes (r := main_v1) (by decide)).trans <|
  (StableHlo.after_of_writes_sub hostOps1 _ hostOps1_writes (r := main_v1) (by decide)).trans <|
  (W3_of_ne m ρ c main_v1 (by decide)).trans <| rfl

/-- The first image's distances reach the totals region as the row pass left them. -/
theorem W12_main_v5 (c : Dev nD) : W12 m ρ c (Proc.devRef .tc main_v5) = W6 m ρ c (Proc.devRef .tc main_v5) :=
  (W12_of_ne m ρ c main_v5 (by decide)).trans <|
  (StableHlo.after_of_writes_sub hostOps3_1 _ hostOps3_1_writes (r := main_v5) (by decide)).trans <|
  (StableHlo.after_of_writes_sub hostOps3 _ hostOps3_writes (r := main_v5) (by decide)).trans <|
  (W9_of_ne m ρ c main_v5 (by decide)).trans <|
  (StableHlo.after_of_writes_sub hostOps2_1 _ hostOps2_1_writes (r := main_v5) (by decide)).trans <|
  (StableHlo.after_of_writes_sub hostOps2 _ hostOps2_writes (r := main_v5) (by decide)).trans <| rfl

/-- THE FRAME: every execution of the entry function ends without a fault with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W16_main_arg0 m ρ c),
     (h c _ (mem_uc main_arg1 (by decide))).trans (W16_main_arg1 m ρ c)⟩) (run_all m ρ)

end Cert.KernelIdeal.Hand

end
-- ==== Proof.Ideal.HostReads.lean ====
import proofs.«168916_j50233937494401_1_alg».proof.Proof.Gen.KernelIdeal.Launch
import proofs.«168916_j50233937494401_1_alg».proof.Proof.Gen.KernelIdeal.Regions
import Idealize.ShloMosaic.Lib.StableHlo.Run
import Idealize.ShloMosaic.Lib.KernelVsHost
import Idealize.ShloMosaic.Lib.ValueIdx
import Idealize.ShloMosaic.Lib.Pipeline.Value

/-! # What the host operations between the kernel regions compute

Before each min-plus pass the entry function pads an array: the image (flattened to 2048 × 4096) gets ten rows of
zeros above and below; a column pass's result gets ten columns of the large constant left and right. After the last
region three one-entry arrays are flattened to scalars, divided, compared with zero and selected from. This file
reads each of those stretches as a function of the buffer contents before it, and the paddings and the flattening
at explicit coordinates. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

section Stretches
variable (W : Valuation τ sig (Elt F))

/-- The image flattened: after the first two stretches `main_v0` is the first argument cast to 2048 × 4096, -/
theorem flat0_read : (StableHlo.after hostOps0_1 (StableHlo.after hostOps0 W) (Proc.devRef .tc main_v0) : S2048x4096.Idx → Elt F .f32)
    = shapeCast S2048x4096 (W (Proc.devRef .tc main_arg0)) shapeCasts_S1x1x2048x4096_S2048x4096 := by
  dsimp only [hostOps0, hostOps0_1]; after_results; rfl
/-- `main_v1` the second, -/
theorem flat1_read : (StableHlo.after hostOps0_1 (StableHlo.after hostOps0 W) (Proc.devRef .tc main_v1) : S2048x4096.Idx → Elt F .f32)
    = shapeCast S2048x4096 (W (Proc.devRef .tc main_arg1)) shapeCasts_S1x1x2048x4096_S2048x4096 := by
  dsimp only [hostOps0, hostOps0_1]; after_results; rfl
/-- and `main_v2` the first with ten rows of the zero word above and below. -/
theorem padRows0_read : (StableHlo.after hostOps0_1 (StableHlo.after hostOps0 W) (Proc.devRef .tc main_v2) : S2068x4096.Idx → Elt F .f32)
    = pad S2068x4096 ![10, 0] ![10, 0] ![0, 0]
        (shapeCast S2048x4096 (W (Proc.devRef .tc main_arg0)) shapeCasts_S1x1x2048x4096_S2048x4096 : S2048x4096.Idx → Elt F .f32)
        (constant (F := F) S_ .f32 0x00000000#32) pads_S2048x4096_S2068x4096_10100_000 h_S_ := by
  dsimp only [hostOps0, hostOps0_1]; after_results; rfl

/-- Before the first row pass: `main_v4` is `main_v3` with ten columns of the large constant left and right. -/
theorem padCols1_read : (StableHlo.after hostOps1_1 (StableHlo.after hostOps1 W) (Proc.devRef .tc main_v4) : S2048x4116.Idx → Elt F .f32)
    = pad S2048x4116 ![0, 10] ![0, 10] ![0, 0] (W (Proc.devRef .tc main_v3) : S2048x4096.Idx → Elt F .f32)
        (constant (F := F) S_ .f32 0x5368D4A5#32) pads_S2048x4096_S2048x4116_000_10100 h_S_ := by
  dsimp only [hostOps1, hostOps1_1]; after_results; rfl

/-- Before the second column pass: `main_v6` is `main_v1` with ten rows of the zero word above and below. -/
theorem padRows2_read : (StableHlo.after hostOps2_1 (StableHlo.after hostOps2 W) (Proc.devRef .tc main_v6) : S2068x4096.Idx → Elt F .f32)
    = pad S2068x4096 ![10, 0] ![10, 0] ![0, 0] (W (Proc.devRef .tc main_v1) : S2048x4096.Idx → Elt F .f32)
        (constant (F := F) S_ .f32 0x00000000#32) pads_S2048x4096_S2068x4096_10100_000 h_S_ := by
  dsimp only [hostOps2, hostOps2_1]; after_results; rfl

/-- Before the second row pass: `main_v8` is `main_v7` with ten columns of the large constant left and right. -/
theorem padCols3_read : (StableHlo.after hostOps3_1 (StableHlo.after hostOps3 W) (Proc.devRef .tc main_v8) : S2048x4116.Idx → Elt F .f32)
    = pad S2048x4116 ![0, 10] ![0, 10] ![0, 0] (W (Proc.devRef .tc main_v7) : S2048x4096.Idx → Elt F .f32)
        (constant (F := F) S_ .f32 0x5368D4A5#32) pads_S2048x4096_S2048x4116_000_10100 h_S_ := by
  dsimp only [hostOps3, hostOps3_1]; after_results; rfl

/-- The scalar tail: the three totals flattened to scalars; the result is ten when the first is zero, the quotient of
    the second by the third otherwise, laid out as a one-entry vector. -/
theorem tail_read : (StableHlo.after hostOps5_2 (StableHlo.after hostOps5_1 (StableHlo.after hostOps5 W)) (Proc.devRef .tc main_v17) : S1.Idx → Elt F .f32)
    = shapeCast S1 (select
        (cmpf .oeq (shapeCast S_ (W (Proc.devRef .tc main_v10_0) : S1x1.Idx → Elt F .f32) shapeCasts_S1x1_S_) (constant (F := F) S_ .f32 0x00000000#32))
        (constant (F := F) S_ .f32 0x41200000#32)
        (Host.divf (shapeCast S_ (W (Proc.devRef .tc main_v10_1) : S1x1.Idx → Elt F .f32) shapeCasts_S1x1_S_)
          (shapeCast S_ (W (Proc.devRef .tc main_v10_2) : S1x1.Idx → Elt F .f32) shapeCasts_S1x1_S_))) shapeCasts_S_S1 := by
  dsimp only [hostOps5, hostOps5_1, hostOps5_2]; after_results; rfl

end Stretches

/-! ## The layout steps at coordinates -/

section Layout
variable {α : Type}

/-- The image flattened to 2048 × 4096 has, at `(i, j)`, the image's entry `(0, 0, i, j)`. -/
theorem flat_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- Ten rows added above and below: row `r` with `10 ≤ r < 10 + a` is row `r - 10` of the operand, -/
theorem padRows_inside {a b : ℕ} (x : (⟨2, ![a, b]⟩ : Shape).Idx → α) {u : Shape} (v : u.Idx → α)
    (h : (⟨2, ![a, b]⟩ : Shape).Pads ![10, 0] ![10, 0] ![0, 0] ⟨2, ![a + 20, b]⟩) (hu : 0 < u.numel)
    (r : Fin (a + 20)) (w : Fin b) (h1 : 10 ≤ r.val) (h2 : r.val < 10 + a) :
    pad ⟨2, ![a + 20, b]⟩ ![10, 0] ![10, 0] ![0, 0] x v h hu (ix2 r w) = x (ix2 ⟨r.val - 10, by omega⟩ w) :=
  pad_apply_of_inside _ _ _ x v h hu _ _ (fun d => by
    match d with
    | ⟨0, _⟩ => show r.val = 10 + (r.val - 10) * (0 + 1); omega
    | ⟨1, _⟩ => show w.val = 0 + w.val * (0 + 1); omega)

/-- and every other row holds the padding value. -/
theorem padRows_outside {a b : ℕ} (x : (⟨2, ![a, b]⟩ : Shape).Idx → α) {u : Shape} (v : u.Idx → α)
    (h : (⟨2, ![a, b]⟩ : Shape).Pads ![10, 0] ![10, 0] ![0, 0] ⟨2, ![a + 20, b]⟩) (hu : 0 < u.numel)
    (r : Fin (a + 20)) (w : Fin b) (h1 : ¬ (10 ≤ r.val ∧ r.val < 10 + a)) :
    pad ⟨2, ![a + 20, b]⟩ ![10, 0] ![10, 0] ![0, 0] x v h hu (ix2 r w) = v (Shape.Idx.first hu) :=
  pad_apply_of_not_inside _ _ _ x v h hu _ (0 : Fin 2) (fun hin => h1 (by
    have h0 : 10 ≤ r.val := hin.1
    have h3 : (r.val - 10) / (0 + 1) < a := hin.2.2
    rw [Nat.zero_add, Nat.div_one] at h3
    exact ⟨h0, by omega⟩))

/-- Ten columns added left and right: column `q` with `10 ≤ q < 10 + b` is column `q - 10` of the operand, -/
theorem padCols_inside {a b : ℕ} (x : (⟨2, ![a, b]⟩ : Shape).Idx → α) {u : Shape} (v : u.Idx → α)
    (h : (⟨2, ![a, b]⟩ : Shape).Pads ![0, 10] ![0, 10] ![0, 0] ⟨2, ![a, b + 20]⟩) (hu : 0 < u.numel)
    (i : Fin a) (q : Fin (b + 20)) (h1 : 10 ≤ q.val) (h2 : q.val < 10 + b) :
    pad ⟨2, ![a, b + 20]⟩ ![0, 10] ![0, 10] ![0, 0] x v h hu (ix2 i q) = x (ix2 i ⟨q.val - 10, by omega⟩) :=
  pad_apply_of_inside _ _ _ x v h hu _ _ (fun d => by
    match d with
    | ⟨0, _⟩ => show i.val = 0 + i.val * (0 + 1); omega
    | ⟨1, _⟩ => show q.val = 10 + (q.val - 10) * (0 + 1); omega)

/-- and every other column holds the padding value. -/
theorem padCols_outside {a b : ℕ} (x : (⟨2, ![a, b]⟩ : Shape).Idx → α) {u : Shape} (v : u.Idx → α)
    (h : (⟨2, ![a, b]⟩ : Shape).Pads ![0, 10] ![0, 10] ![0, 0] ⟨2, ![a, b + 20]⟩) (hu : 0 < u.numel)
    (i : Fin a) (q : Fin (b + 20)) (h1 : ¬ (10 ≤ q.val ∧ q.val < 10 + b)) :
    pad ⟨2, ![a, b + 20]⟩ ![0, 10] ![0, 10] ![0, 0] x v h hu (ix2 i q) = v (Shape.Idx.first hu) :=
  pad_apply_of_not_inside _ _ _ x v h hu _ (1 : Fin 2) (fun hin => h1 (by
    have h0 : 10 ≤ q.val := hin.1
    have h3 : (q.val - 10) / (0 + 1) < b := hin.2.2
    rw [Nat.zero_add, Nat.div_one] at h3
    exact ⟨h0, by omega⟩))

end Layout

end Cert.KernelIdeal.Hand

end
-- ==== Proof.Spec.lean ====
/-
  The function both programs compute, on the extended reals: the clamped Euclidean distance transform of each
  argument image by two min-plus passes with 21 taps (down the columns of the image padded with a large cost, then
  along the rows of that result padded again), the square root clamped at ten, and three totals over the image
  combined into one number.  Every piece is a function of the argument arrays at explicit coordinates: a row
  `i : Fin 2048` and a column `j : Fin 4096` of the one `1 × 1 × 2048 × 4096` image.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Spec

/-- An argument image: one extended real at each index of a `1 × 1 × 2048 × 4096` array. -/
abbrev Img : Type := (⟨4, ![1, 1, 2048, 4096]⟩ : Shape).Idx → EReal

/-- The image's entry at row `i`, column `j`. -/
abbrev at2 (x : Img) (i : Fin 2048) (j : Fin 4096) : EReal := x (ix4 (0 : Fin 1) (0 : Fin 1) i j)

/-- The threshold one half of the foreground test. -/
abbrev half : EReal := Ideal.ofBits .f32 0x3F000000#32
/-- The zero word. -/
abbrev zero : EReal := Ideal.ofBits .f32 0x00000000#32
/-- The large cost of a background pixel, and the value both paddings are filled with. -/
abbrev inf : EReal := Ideal.ofBits .f32 0x5368D4A5#32
/-- The clamp of the distance, ten. -/
abbrev ten : EReal := Ideal.ofBits .f32 0x41200000#32

/-- The cost of a pixel: zero on the foreground (value above one half), the large cost elsewhere. -/
def cost (v : EReal) : EReal := Scalar.select (Ideal.cmp .ogt v half) zero inf

/-- One min-plus pass at one position: the least of the 21 neighbours `a k`, each raised by the squared offset
    `(k - 10)²` (100, 81, 64, 49, 36, 25, 16, 9, 4, 1, 0, 1, 4, …, 100), folded from the left. -/
def taps (a : Fin 21 → EReal) : EReal :=
  min (min (min (min (min (min (min (min (min (min (min (min (min (min (min (min (min (min (min (min
    (a 0 + Ideal.ofBits .f32 0x42C80000#32)
    (a 1 + Ideal.ofBits .f32 0x42A20000#32))
    (a 2 + Ideal.ofBits .f32 0x42800000#32))
    (a 3 + Ideal.ofBits .f32 0x42440000#32))
    (a 4 + Ideal.ofBits .f32 0x42100000#32))
    (a 5 + Ideal.ofBits .f32 0x41C80000#32))
    (a 6 + Ideal.ofBits .f32 0x41800000#32))
    (a 7 + Ideal.ofBits .f32 0x41100000#32))
    (a 8 + Ideal.ofBits .f32 0x40800000#32))
    (a 9 + Ideal.ofBits .f32 0x3F800000#32))
    (a 10 + Ideal.ofBits .f32 0x00000000#32))
    (a 11 + Ideal.ofBits .f32 0x3F800000#32))
    (a 12 + Ideal.ofBits .f32 0x40800000#32))
    (a 13 + Ideal.ofBits .f32 0x41100000#32))
    (a 14 + Ideal.ofBits .f32 0x41800000#32))
    (a 15 + Ideal.ofBits .f32 0x41C80000#32))
    (a 16 + Ideal.ofBits .f32 0x42100000#32))
    (a 17 + Ideal.ofBits .f32 0x42440000#32))
    (a 18 + Ideal.ofBits .f32 0x42800000#32))
    (a 19 + Ideal.ofBits .f32 0x42A20000#32))
    (a 20 + Ideal.ofBits .f32 0x42C80000#32)

/-- The cost image with ten rows of the large cost above and below: row `r` of 2068 is row `r - 10` of the image
    when `10 ≤ r < 2058`. -/
def costPad (x : Img) (r : Fin 2068) (w : Fin 4096) : EReal :=
  if h : 10 ≤ r.val ∧ r.val < 2058 then cost (at2 x ⟨r.val - 10, by omega⟩ w) else inf

/-- The pass down the columns: entry `(i, w)` is the taps of rows `i, …, i + 20` of the padded cost in column `w`. -/
def colPass (x : Img) (i : Fin 2048) (w : Fin 4096) : EReal :=
  taps fun k => costPad x ⟨i.val + k.val, by have := i.isLt; have := k.isLt; omega⟩ w

/-- The column pass with ten columns of the large cost left and right: column `q` of 4116 is column `q - 10` when
    `10 ≤ q < 4106`. -/
def rowPad (x : Img) (i : Fin 2048) (q : Fin 4116) : EReal :=
  if h : 10 ≤ q.val ∧ q.val < 4106 then colPass x i ⟨q.val - 10, by omega⟩ else inf

/-- The pass along the rows: entry `(i, j)` is the taps of columns `j, …, j + 20` of the padded column pass in
    row `i`. -/
def rowPass (x : Img) (i : Fin 2048) (j : Fin 4096) : EReal :=
  taps fun k => rowPad x i ⟨j.val + k.val, by have := j.isLt; have := k.isLt; omega⟩

/-- The clamped distance: the square root of the two passes, at most ten. -/
def dist (x : Img) (i : Fin 2048) (j : Fin 4096) : EReal := min (Ideal.sqrt (rowPass x i j)) ten

/-- The 0/1 value of a one-bit word as an extended real (the conversion of a comparison's result to a float). -/
def ofBit (b : BitVec 1) : EReal := ((b.toNat : ℝ) : EReal)

/-- The first total: the second image's entries where the first image's distance is below ten. -/
def filt (gt pred : Img) : EReal :=
  ∑ i : Fin 2048, ∑ j : Fin 4096, at2 pred i j * ofBit (Ideal.cmp .olt (dist gt i j) ten)

/-- The second total: each image's distance times the other image, each product clamped at ten. -/
def num (gt pred : Img) : EReal :=
  ∑ i : Fin 2048, ∑ j : Fin 4096, (min (dist gt i j * at2 pred i j) ten + min (dist pred i j * at2 gt i j) ten)

/-- The third total: the two images' entries. -/
def den (gt pred : Img) : EReal :=
  ∑ i : Fin 2048, ∑ j : Fin 4096, (at2 pred i j + at2 gt i j)

/-- The result: ten when the first total is zero, the quotient of the second by the third otherwise. -/
def result (gt pred : Img) : EReal :=
  Scalar.select (Ideal.cmp .oeq (filt gt pred) zero) ten (Ideal.div (num gt pred) (den gt pred))

end Cert.Spec

end
-- ==== Proof.PassFns.lean ====
/-
  The two min-plus passes as functions of WHOLE arrays, on the extended reals: the vertical pass sends a padded
  array of 2068 rows to the array of the taps of its entries' costs down each column; the horizontal pass sends a
  padded array of 4116 columns to the array of the clamped square roots of the taps along each row.  Each is given
  with its value at explicit coordinates.
-/
import proofs.«168916_j50233937494401_1_alg».proof.Proof.Spec
import Idealize.ShloMosaic.Lib.ValueIdx

noncomputable section

open Idealize.ShloMosaic Idealize.ShloMosaic.ValueIdx

namespace Cert.PassFns

/-- The vertical min-plus pass of a whole padded array of 2068 rows: entry `(i, w)` of the result is the taps of the
    costs of rows `i, …, i + 20` of column `w`. -/
def colOf (p : (⟨2, ![2068, 4096]⟩ : Shape).Idx → EReal) : (⟨2, ![2048, 4096]⟩ : Shape).Idx → EReal :=
  fun y => Cert.Spec.taps fun k =>
    Cert.Spec.cost (p (ix2 (⟨(y 0).val + k.val, by have := idx2_lt0 y; have := k.isLt; omega⟩ : Fin 2068)
      (⟨(y 1).val, idx2_lt1 y⟩ : Fin 4096)))

/-- The vertical pass at explicit coordinates. -/
theorem colOf_apply (p : (⟨2, ![2068, 4096]⟩ : Shape).Idx → EReal) (i : Fin 2048) (w : Fin 4096) :
    colOf p (ix2 i w) = Cert.Spec.taps fun k =>
      Cert.Spec.cost (p (ix2 (⟨i.val + k.val, by have := i.isLt; have := k.isLt; omega⟩ : Fin 2068) w)) := rfl

/-- The horizontal min-plus pass of a whole padded array of 4116 columns, followed by the square root and the clamp at
    ten: entry `(i, j)` of the result is `min (sqrt (taps of columns j, …, j + 20 of row i)) 10`. -/
def rowOf (q : (⟨2, ![2048, 4116]⟩ : Shape).Idx → EReal) : (⟨2, ![2048, 4096]⟩ : Shape).Idx → EReal :=
  fun y => min (Ideal.sqrt (Cert.Spec.taps fun k =>
    q (ix2 (⟨(y 0).val, idx2_lt0 y⟩ : Fin 2048)
      (⟨(y 1).val + k.val, by have := idx2_lt1 y; have := k.isLt; omega⟩ : Fin 4116)))) Cert.Spec.ten

/-- The horizontal pass at explicit coordinates. -/
theorem rowOf_apply (q : (⟨2, ![2048, 4116]⟩ : Shape).Idx → EReal) (i : Fin 2048) (j : Fin 4096) :
    rowOf q (ix2 i j) = min (Ideal.sqrt (Cert.Spec.taps fun k =>
      q (ix2 i (⟨j.val + k.val, by have := j.isLt; have := k.isLt; omega⟩ : Fin 4116)))) Cert.Spec.ten := rfl

end Cert.PassFns

end
-- ==== Proof.Ideal.ColValue0.lean ====
import proofs.«168916_j50233937494401_1_alg».proof.Proof.Ideal.Col0
import proofs.«168916_j50233937494401_1_alg».proof.Proof.PassFns
import Idealize.ShloMosaic.Lib.Pipeline.Value
import Idealize.ShloMosaic.Lib.ValueIdx
import Idealize.ShloMosaic.Lib.ValueLayout

/-! # The vertical pass (region 0) as one function of its input array, on the extended reals

At the ideal float instance, the strip one grid point stores is, entry by entry, the taps of the costs of the 21
entries below it in the loaded strip (`pass0_apply`). Grid point `t` handles columns `256 t, …, 256 t + 255` of
every row, so what it writes back is block `t` of the vertical pass of the WHOLE padded input array
(`flushed0_eq`); the 16 blocks cover the output array, which therefore ends holding that function of the input
array (`array0`). -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The stored strip at an entry -/

/-- The cost strip at an entry is the cost of the loaded entry: above one half gives zero, anything else the large
    constant. -/
theorem cost0_apply (x0 : Vec Ideal S2068x256 .f32) (r : Fin 2068) (jj : Fin 256) :
    k0_pay1 (F := Ideal) x0 (ix2 r jj) = Cert.Spec.cost (x0 (ix2 r jj)) := by
  unfold k0_pay1
  simp only [select_apply, cmpf_apply, broadcast_apply, shapeCast_self]
  rfl

set_option maxHeartbeats 1000000 in
/-- The stored strip at entry `(i, jj)`: the left fold of minima over the 21 rows `i, …, i + 20` of column `jj` of
    the loaded strip, each row's cost raised by its squared offset from row `i + 10`. Every slice of the cost strip
    at row offset `o` reads row `o + i`; sums and minima are entrywise; the constants are broadcasts. -/
theorem pass0_apply (x0 : Vec Ideal S2068x256 .f32) (i : Fin 2048) (jj : Fin 256) :
    pass0 (F := Ideal) x0 (ix2 i jj)
      = Cert.Spec.taps fun k => Cert.Spec.cost (x0 (ix2 (⟨i.val + k.val, by have := i.isLt; have := k.isLt; omega⟩ : Fin 2068) jj)) := by
  have e : ∀ (o : ℕ) (h : o + i.val < 2068), (⟨o + i.val, h⟩ : Fin 2068) = ⟨i.val + o, by omega⟩ :=
    fun o h => Fin.ext (Nat.add_comm _ _)
  unfold pass0 k0_pay5 k0_pay2 k0_pay3 k0_pay4
  simp only [minimumf_apply, addf_apply, broadcast_apply, slice2_axis0_eq, cost0_apply, e]
  rfl

/-! ## From the blocks to the array -/

section Array0
variable (V : (c : Dev nD) → (b : Ref sig .tc) → Buf (Elt Ideal) ((c : Thread nD τ).loc b))

/-- The body's two rectangles start at the origin. -/
theorem origin0 : (![0, 0] : Fin 2 → Nat) = fun _ => 0 := funext fun a => by fin_cases a <;> rfl

/-- The grid has 16 points. -/
theorem points0 (t : Fin cfg0.N) : t.val < 16 := t.isLt.trans_eq N_0

/-- The printed index maps, decided over the grid: at point `t` both windows' blocks sit at block row 0 and block
    column `t`. -/
theorem blockIndex0 : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- WHAT POINT `t` WRITES BACK is block `t` of the vertical pass of the whole input array: entry `(ii, jj)` of the
    block is entry `(ii, 256 t + jj)` of the array, and entry `(ii + k, jj)` of the input block is entry
    `(ii + k, 256 t + jj)` of the input array (a block's coordinate is index × size + the coordinate inside). -/
theorem flushed0_eq (c : Dev nD) (t : Fin cfg0.N) :
    (dat0 (F := Ideal) V c).flushed 1 t
      = ((cfg0.win 1).blk t).view.read (Elt Ideal) (Cert.PassFns.colOf (V c main_v2 : S2068x4096.Idx → EReal)) := by
  show (cfg0.win 1).cut (grid0.coords t) ((dat0 V c).after 1 t) = _
  rw [after0_1]
  unfold out0_1
  rw [View.canon_unit_zero origin0]
  simp only [View.ld_unit_zero (S := S2068x256) origin0]
  obtain ⟨e00, e01, e10, e11⟩ := blockIndex0 t
  have ht := points0 t
  funext j
  obtain ⟨ii, jj, rfl⟩ : ∃ (ii : Fin 2048) (jj : Fin 256), j = (ix2 ii jj : S2048x256.Idx) :=
    ⟨j 0, j 1, eq_ix2 (n0 := 2048) (n1 := 256) j⟩
  show pass0 (iblk0 V c 0 t) (ix2 ii jj)
    = Cert.PassFns.colOf (V c main_v2 : S2068x4096.Idx → EReal) (((cfg0.win 1).blk t).view.emb (ix2 ii jj))
  have hemb : ((cfg0.win 1).blk t).view.emb (ix2 ii jj : S2048x256.Idx)
      = (ix2 ii (⟨t.val * 256 + jj.val, by have := jj.isLt; omega⟩ : Fin 4096) : S2048x4096.Idx) := by
    funext a; apply Fin.ext
    match a with
    | ⟨0, _⟩ => show win0_1.index t (0 : Fin 2) * 2048 + 1 * ii.val = ii.val; omega
    | ⟨1, _⟩ => show win0_1.index t (1 : Fin 2) * 256 + 1 * jj.val = t.val * 256 + jj.val; omega
  rw [hemb, Cert.PassFns.colOf_apply, pass0_apply]
  congr 1; funext k; congr 1
  unfold iblk0
  rw [View.read_apply]
  show V c main_v2 (((cfg0.win 0).blk t).view.emb _) = V c main_v2 _
  congr 1
  funext a; apply Fin.ext
  match a with
  | ⟨0, _⟩ => show win0_0.index t (0 : Fin 2) * 2068 + 1 * (ii.val + k.val) = ii.val + k.val; omega
  | ⟨1, _⟩ => show win0_0.index t (1 : Fin 2) * 256 + 1 * jj.val = t.val * 256 + jj.val; omega

/-- An index of the output array is in point `t`'s block iff each coordinate is in the block's range on its axis. -/
theorem mem_block0 (t : Fin cfg0.N) (i : S2048x4096.Idx) :
    i ∈ ((cfg0.win 1).blk t).view.set ↔ ∀ a : Fin 2, win0_1.index t a * S2048x256.size a ≤ (i a).val
      ∧ (i a).val < win0_1.index t a * S2048x256.size a + S2048x256.size a := by
  show i ∈ ((View.whole main_v3).slice (win0_1.rect t)).set ↔ _
  rw [View.set_slice_whole, Rect.mem_set_unit]
  exact Iff.rfl

/-- Every index of the output array is in the block of the point its column falls in: column `w` is in block
    `w / 256`, and every point writes its block back. -/
theorem covered0 (i : S2048x4096.Idx) :
    ∃ t : Fin cfg0.N, (cfg0.win 1).flush t = true ∧ i ∈ ((cfg0.win 1).blk t).view.set := by
  have hi0 : (i 0).val < 2048 := (i 0).isLt
  have hi1 : (i 1).val < 4096 := (i 1).isLt
  obtain ⟨t, htv⟩ : ∃ t : Fin cfg0.N, t.val = (i 1).val / 256 :=
    ⟨⟨(i 1).val / 256, by rw [show cfg0.N = 16 from N_0]; omega⟩, rfl⟩
  obtain ⟨e00, e01, e10, e11⟩ := blockIndex0 t
  refine ⟨t, flush0_1 t, ?_⟩
  rw [mem_block0]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 256 ≤ (i 1).val ∧ (i 1).val < win0_1.index t (1 : Fin 2) * 256 + 256; omega

/-- THE OUTPUT ARRAY after the region's run is the vertical pass of the input array as the region found it. -/
theorem array0 (c : Dev nD) :
    (dat0 (F := Ideal) V c).arrAt 1 cfg0.N = Cert.PassFns.colOf (V c main_v2 : S2068x4096.Idx → EReal) :=
  (dat0 (F := Ideal) V c).arrAt_eq_of_cover 1 _ (fun t _ => flushed0_eq V c t) covered0

end Array0

end Cert.KernelIdeal.Hand

end
-- ==== Proof.Ideal.RowValue1.lean ====
import proofs.«168916_j50233937494401_1_alg».proof.Proof.Ideal.Row1
import proofs.«168916_j50233937494401_1_alg».proof.Proof.PassFns
import Idealize.ShloMosaic.Lib.Pipeline.Value
import Idealize.ShloMosaic.Lib.ValueIdx
import Idealize.ShloMosaic.Lib.ValueLayout

/-! # The horizontal pass (region 1) as one function of its input array, on the extended reals

At the ideal float instance, the band one grid point stores is, entry by entry, the square root, clamped at ten, of
the taps of the 21 entries to the right of it in the loaded band (`pass1_apply`). Grid point `t` handles rows
`128 t, …, 128 t + 127` of every column, so what it writes back is block `t` of the horizontal pass of the WHOLE
padded input array (`flushed1_eq`); the 16 blocks cover the output array, which therefore ends holding that
function of the input array (`array1`). -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The stored band at an entry -/

/-- An entrywise square root at an entry is the square root of the entry. -/
theorem sqrtAt1 {s : Shape} {φ : FTy} (a : FVec Ideal s φ) (i : s.Idx) :
    Idealize.ShloMosaic.sqrt a i = Ideal.sqrt (a i) := rfl

set_option maxHeartbeats 1000000 in
/-- The stored band at entry `(ii, j)`: the left fold of minima over the 21 columns `j, …, j + 20` of row `ii` of
    the loaded band, each raised by its squared offset from column `j + 10`, then the square root, then the minimum
    with ten. Every slice of the band at column offset `o` reads column `o + j`; sums, minima and the square root
    are entrywise; the constants are broadcasts; the shape cast is to the same shape. -/
theorem pass1_apply (x0 : Vec Ideal S128x4116 .f32) (ii : Fin 128) (j : Fin 4096) :
    pass1 (F := Ideal) x0 (ix2 ii j)
      = min (Ideal.sqrt (Cert.Spec.taps fun k =>
          x0 (ix2 ii (⟨j.val + k.val, by have := j.isLt; have := k.isLt; omega⟩ : Fin 4116)))) Cert.Spec.ten := by
  have e : ∀ (o : ℕ) (h : o + j.val < 4116), (⟨o + j.val, h⟩ : Fin 4116) = ⟨j.val + o, by omega⟩ :=
    fun o h => Fin.ext (Nat.add_comm _ _)
  unfold pass1 k1_pay1 k1_pay3 k1_pay4 k1_pay2
  simp only [minimumf_apply, addf_apply, broadcast_apply, sqrtAt1, shapeCast_self, slice2_axis1_eq, e]
  rfl

/-! ## From the blocks to the array -/

section Array1
variable (V : (c : Dev nD) → (b : Ref sig .tc) → Buf (Elt Ideal) ((c : Thread nD τ).loc b))

/-- The body's two rectangles start at the origin. -/
theorem origin1 : (![0, 0] : Fin 2 → Nat) = fun _ => 0 := funext fun a => by fin_cases a <;> rfl

/-- The grid has 16 points. -/
theorem points1 (t : Fin cfg1.N) : t.val < 16 := t.isLt.trans_eq N_1

/-- The printed index maps, decided over the grid: at point `t` both windows' blocks sit at block row `t` and block
    column 0. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- WHAT POINT `t` WRITES BACK is block `t` of the horizontal pass of the whole input array: entry `(ii, j)` of the
    block is entry `(128 t + ii, j)` of the array, and entry `(ii, j + k)` of the input block is entry
    `(128 t + ii, j + k)` of the input array (a block's coordinate is index × size + the coordinate inside). -/
theorem flushed1_eq (c : Dev nD) (t : Fin cfg1.N) :
    (dat1 (F := Ideal) V c).flushed 1 t
      = ((cfg1.win 1).blk t).view.read (Elt Ideal) (Cert.PassFns.rowOf (V c main_v4 : S2048x4116.Idx → EReal)) := by
  show (cfg1.win 1).cut (grid1.coords t) ((dat1 V c).after 1 t) = _
  rw [after1_1]
  unfold out1_1
  rw [View.canon_unit_zero origin1]
  simp only [View.ld_unit_zero (S := S128x4116) origin1]
  obtain ⟨e00, e01, e10, e11⟩ := blockIndex1 t
  have ht := points1 t
  funext y
  obtain ⟨ii, j, rfl⟩ : ∃ (ii : Fin 128) (j : Fin 4096), y = (ix2 ii j : S128x4096.Idx) :=
    ⟨y 0, y 1, eq_ix2 (n0 := 128) (n1 := 4096) y⟩
  show pass1 (iblk1 V c 0 t) (ix2 ii j)
    = Cert.PassFns.rowOf (V c main_v4 : S2048x4116.Idx → EReal) (((cfg1.win 1).blk t).view.emb (ix2 ii j))
  have hemb : ((cfg1.win 1).blk t).view.emb (ix2 ii j : S128x4096.Idx)
      = (ix2 (⟨t.val * 128 + ii.val, by have := ii.isLt; omega⟩ : Fin 2048) j : S2048x4096.Idx) := by
    funext a; apply Fin.ext
    match a with
    | ⟨0, _⟩ => show win1_1.index t (0 : Fin 2) * 128 + 1 * ii.val = t.val * 128 + ii.val; omega
    | ⟨1, _⟩ => show win1_1.index t (1 : Fin 2) * 4096 + 1 * j.val = j.val; omega
  rw [hemb, Cert.PassFns.rowOf_apply, pass1_apply]
  congr 3; funext k
  unfold iblk1
  rw [View.read_apply]
  show V c main_v4 (((cfg1.win 0).blk t).view.emb _) = V c main_v4 _
  congr 1
  funext a; apply Fin.ext
  match a with
  | ⟨0, _⟩ => show win1_0.index t (0 : Fin 2) * 128 + 1 * ii.val = t.val * 128 + ii.val; omega
  | ⟨1, _⟩ => show win1_0.index t (1 : Fin 2) * 4116 + 1 * (j.val + k.val) = j.val + k.val; omega

/-- An index of the output array is in point `t`'s block iff each coordinate is in the block's range on its axis. -/
theorem mem_block1 (t : Fin cfg1.N) (i : S2048x4096.Idx) :
    i ∈ ((cfg1.win 1).blk t).view.set ↔ ∀ a : Fin 2, win1_1.index t a * S128x4096.size a ≤ (i a).val
      ∧ (i a).val < win1_1.index t a * S128x4096.size a + S128x4096.size a := by
  show i ∈ ((View.whole main_v5).slice (win1_1.rect t)).set ↔ _
  rw [View.set_slice_whole, Rect.mem_set_unit]
  exact Iff.rfl

/-- Every index of the output array is in the block of the point its row falls in: row `r` is in block `r / 128`,
    and every point writes its block back. -/
theorem covered1 (i : S2048x4096.Idx) :
    ∃ t : Fin cfg1.N, (cfg1.win 1).flush t = true ∧ i ∈ ((cfg1.win 1).blk t).view.set := by
  have hi0 : (i 0).val < 2048 := (i 0).isLt
  have hi1 : (i 1).val < 4096 := (i 1).isLt
  obtain ⟨t, htv⟩ : ∃ t : Fin cfg1.N, t.val = (i 0).val / 128 :=
    ⟨⟨(i 0).val / 128, by rw [show cfg1.N = 16 from N_1]; omega⟩, rfl⟩
  obtain ⟨e00, e01, e10, e11⟩ := blockIndex1 t
  refine ⟨t, flush1_1 t, ?_⟩
  rw [mem_block1]
  intro a
  match a with
  | ⟨0, _⟩ => show win1_1.index t (0 : Fin 2) * 128 ≤ (i 0).val ∧ (i 0).val < win1_1.index t (0 : Fin 2) * 128 + 128; omega
  | ⟨1, _⟩ => show win1_1.index t (1 : Fin 2) * 4096 ≤ (i 1).val ∧ (i 1).val < win1_1.index t (1 : Fin 2) * 4096 + 4096; omega

/-- THE OUTPUT ARRAY after the region's run is the horizontal pass of the input array as the region found it. -/
theorem array1 (c : Dev nD) :
    (dat1 (F := Ideal) V c).arrAt 1 cfg1.N = Cert.PassFns.rowOf (V c main_v4 : S2048x4116.Idx → EReal) :=
  (dat1 (F := Ideal) V c).arrAt_eq_of_cover 1 _ (fun t _ => flushed1_eq V c t) covered1

end Array1

end Cert.KernelIdeal.Hand

end
-- ==== Proof.Ideal.ColValue2.lean ====
import proofs.«168916_j50233937494401_1_alg».proof.Proof.Ideal.Col2
import proofs.«168916_j50233937494401_1_alg».proof.Proof.PassFns
import Idealize.ShloMosaic.Lib.Pipeline.Value
import Idealize.ShloMosaic.Lib.ValueIdx
import Idealize.ShloMosaic.Lib.ValueLayout

/-! # The vertical pass (region 2) as one function of its input array, on the extended reals

At the ideal float instance, the strip one grid point stores is, entry by entry, the taps of the costs of the 21
entries below it in the loaded strip (`pass2_apply`). Grid point `t` handles columns `256 t, …, 256 t + 255` of
every row, so what it writes back is block `t` of the vertical pass of the WHOLE padded input array
(`flushed2_eq`); the 16 blocks cover the output array, which therefore ends holding that function of the input
array (`array2`). -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The stored strip at an entry -/

/-- The cost strip at an entry is the cost of the loaded entry: above one half gives zero, anything else the large
    constant. -/
theorem cost2_apply (x0 : Vec Ideal S2068x256 .f32) (r : Fin 2068) (jj : Fin 256) :
    k2_pay1 (F := Ideal) x0 (ix2 r jj) = Cert.Spec.cost (x0 (ix2 r jj)) := by
  unfold k2_pay1
  simp only [select_apply, cmpf_apply, broadcast_apply, shapeCast_self]
  rfl

set_option maxHeartbeats 1000000 in
/-- The stored strip at entry `(i, jj)`: the left fold of minima over the 21 rows `i, …, i + 20` of column `jj` of
    the loaded strip, each row's cost raised by its squared offset from row `i + 10`. Every slice of the cost strip
    at row offset `o` reads row `o + i`; sums and minima are entrywise; the constants are broadcasts. -/
theorem pass2_apply (x0 : Vec Ideal S2068x256 .f32) (i : Fin 2048) (jj : Fin 256) :
    pass2 (F := Ideal) x0 (ix2 i jj)
      = Cert.Spec.taps fun k => Cert.Spec.cost (x0 (ix2 (⟨i.val + k.val, by have := i.isLt; have := k.isLt; omega⟩ : Fin 2068) jj)) := by
  have e : ∀ (o : ℕ) (h : o + i.val < 2068), (⟨o + i.val, h⟩ : Fin 2068) = ⟨i.val + o, by omega⟩ :=
    fun o h => Fin.ext (Nat.add_comm _ _)
  unfold pass2 k2_pay5 k2_pay2 k2_pay3 k2_pay4
  simp only [minimumf_apply, addf_apply, broadcast_apply, slice2_axis0_eq, cost2_apply, e]
  rfl

/-! ## From the blocks to the array -/

section Array2
variable (V : (c : Dev nD) → (b : Ref sig .tc) → Buf (Elt Ideal) ((c : Thread nD τ).loc b))

/-- The body's two rectangles start at the origin. -/
theorem origin2 : (![0, 0] : Fin 2 → Nat) = fun _ => 0 := funext fun a => by fin_cases a <;> rfl

/-- The grid has 16 points. -/
theorem points2 (t : Fin cfg2.N) : t.val < 16 := t.isLt.trans_eq N_2

/-- The printed index maps, decided over the grid: at point `t` both windows' blocks sit at block row 0 and block
    column `t`. -/
theorem blockIndex2 : ∀ t : Fin cfg2.N, win2_0.index t (0 : Fin 2) = 0 ∧ win2_0.index t (1 : Fin 2) = t.val
    ∧ win2_1.index t (0 : Fin 2) = 0 ∧ win2_1.index t (1 : Fin 2) = t.val :=
  (by decide +kernel : ∀ t : Fin grid2.N, _)

/-- WHAT POINT `t` WRITES BACK is block `t` of the vertical pass of the whole input array: entry `(ii, jj)` of the
    block is entry `(ii, 256 t + jj)` of the array, and entry `(ii + k, jj)` of the input block is entry
    `(ii + k, 256 t + jj)` of the input array (a block's coordinate is index × size + the coordinate inside). -/
theorem flushed2_eq (c : Dev nD) (t : Fin cfg2.N) :
    (dat2 (F := Ideal) V c).flushed 1 t
      = ((cfg2.win 1).blk t).view.read (Elt Ideal) (Cert.PassFns.colOf (V c main_v6 : S2068x4096.Idx → EReal)) := by
  show (cfg2.win 1).cut (grid2.coords t) ((dat2 V c).after 1 t) = _
  rw [after2_1]
  unfold out2_1
  rw [View.canon_unit_zero origin2]
  simp only [View.ld_unit_zero (S := S2068x256) origin2]
  obtain ⟨e00, e01, e10, e11⟩ := blockIndex2 t
  have ht := points2 t
  funext j
  obtain ⟨ii, jj, rfl⟩ : ∃ (ii : Fin 2048) (jj : Fin 256), j = (ix2 ii jj : S2048x256.Idx) :=
    ⟨j 0, j 1, eq_ix2 (n0 := 2048) (n1 := 256) j⟩
  show pass2 (iblk2 V c 0 t) (ix2 ii jj)
    = Cert.PassFns.colOf (V c main_v6 : S2068x4096.Idx → EReal) (((cfg2.win 1).blk t).view.emb (ix2 ii jj))
  have hemb : ((cfg2.win 1).blk t).view.emb (ix2 ii jj : S2048x256.Idx)
      = (ix2 ii (⟨t.val * 256 + jj.val, by have := jj.isLt; omega⟩ : Fin 4096) : S2048x4096.Idx) := by
    funext a; apply Fin.ext
    match a with
    | ⟨0, _⟩ => show win2_1.index t (0 : Fin 2) * 2048 + 1 * ii.val = ii.val; omega
    | ⟨1, _⟩ => show win2_1.index t (1 : Fin 2) * 256 + 1 * jj.val = t.val * 256 + jj.val; omega
  rw [hemb, Cert.PassFns.colOf_apply, pass2_apply]
  congr 1; funext k; congr 1
  unfold iblk2
  rw [View.read_apply]
  show V c main_v6 (((cfg2.win 0).blk t).view.emb _) = V c main_v6 _
  congr 1
  funext a; apply Fin.ext
  match a with
  | ⟨0, _⟩ => show win2_0.index t (0 : Fin 2) * 2068 + 1 * (ii.val + k.val) = ii.val + k.val; omega
  | ⟨1, _⟩ => show win2_0.index t (1 : Fin 2) * 256 + 1 * jj.val = t.val * 256 + jj.val; omega

/-- An index of the output array is in point `t`'s block iff each coordinate is in the block's range on its axis. -/
theorem mem_block2 (t : Fin cfg2.N) (i : S2048x4096.Idx) :
    i ∈ ((cfg2.win 1).blk t).view.set ↔ ∀ a : Fin 2, win2_1.index t a * S2048x256.size a ≤ (i a).val
      ∧ (i a).val < win2_1.index t a * S2048x256.size a + S2048x256.size a := by
  show i ∈ ((View.whole main_v7).slice (win2_1.rect t)).set ↔ _
  rw [View.set_slice_whole, Rect.mem_set_unit]
  exact Iff.rfl

/-- Every index of the output array is in the block of the point its column falls in: column `w` is in block
    `w / 256`, and every point writes its block back. -/
theorem covered2 (i : S2048x4096.Idx) :
    ∃ t : Fin cfg2.N, (cfg2.win 1).flush t = true ∧ i ∈ ((cfg2.win 1).blk t).view.set := by
  have hi0 : (i 0).val < 2048 := (i 0).isLt
  have hi1 : (i 1).val < 4096 := (i 1).isLt
  obtain ⟨t, htv⟩ : ∃ t : Fin cfg2.N, t.val = (i 1).val / 256 :=
    ⟨⟨(i 1).val / 256, by rw [show cfg2.N = 16 from N_2]; omega⟩, rfl⟩
  obtain ⟨e00, e01, e10, e11⟩ := blockIndex2 t
  refine ⟨t, flush2_1 t, ?_⟩
  rw [mem_block2]
  intro a
  match a with
  | ⟨0, _⟩ => show win2_1.index t (0 : Fin 2) * 2048 ≤ (i 0).val ∧ (i 0).val < win2_1.index t (0 : Fin 2) * 2048 + 2048; omega
  | ⟨1, _⟩ => show win2_1.index t (1 : Fin 2) * 256 ≤ (i 1).val ∧ (i 1).val < win2_1.index t (1 : Fin 2) * 256 + 256; omega

/-- THE OUTPUT ARRAY after the region's run is the vertical pass of the input array as the region found it. -/
theorem array2 (c : Dev nD) :
    (dat2 (F := Ideal) V c).arrAt 1 cfg2.N = Cert.PassFns.colOf (V c main_v6 : S2068x4096.Idx → EReal) :=
  (dat2 (F := Ideal) V c).arrAt_eq_of_cover 1 _ (fun t _ => flushed2_eq V c t) covered2

end Array2

end Cert.KernelIdeal.Hand

end
-- ==== Proof.Ideal.RowValue3.lean ====
import proofs.«168916_j50233937494401_1_alg».proof.Proof.Ideal.Row3
import proofs.«168916_j50233937494401_1_alg».proof.Proof.PassFns
import Idealize.ShloMosaic.Lib.Pipeline.Value
import Idealize.ShloMosaic.Lib.ValueIdx
import Idealize.ShloMosaic.Lib.ValueLayout

/-! # The horizontal pass (region 3) as one function of its input array, on the extended reals

At the ideal float instance, the band one grid point stores is, entry by entry, the square root, clamped at ten, of
the taps of the 21 entries to the right of it in the loaded band (`pass3_apply`). Grid point `t` handles rows
`128 t, …, 128 t + 127` of every column, so what it writes back is block `t` of the horizontal pass of the WHOLE
padded input array (`flushed3_eq`); the 16 blocks cover the output array, which therefore ends holding that
function of the input array (`array3`). -/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The stored band at an entry -/

/-- An entrywise square root at an entry is the square root of the entry. -/
theorem sqrtAt3 {s : Shape} {φ : FTy} (a : FVec Ideal s φ) (i : s.Idx) :
    Idealize.ShloMosaic.sqrt a i = Ideal.sqrt (a i) := rfl

set_option maxHeartbeats 1000000 in
/-- The stored band at entry `(ii, j)`: the left fold of minima over the 21 columns `j, …, j + 20` of row `ii` of
    the loaded band, each raised by its squared offset from column `j + 10`, then the square root, then the minimum
    with ten. Every slice of the band at column offset `o` reads column `o + j`; sums, minima and the square root
    are entrywise; the constants are broadcasts; the shape cast is to the same shape. -/
theorem pass3_apply (x0 : Vec Ideal S128x4116 .f32) (ii : Fin 128) (j : Fin 4096) :
    pass3 (F := Ideal) x0 (ix2 ii j)
      = min (Ideal.sqrt (Cert.Spec.taps fun k =>
          x0 (ix2 ii (⟨j.val + k.val, by have := j.isLt; have := k.isLt; omega⟩ : Fin 4116)))) Cert.Spec.ten := by
  have e : ∀ (o : ℕ) (h : o + j.val < 4116), (⟨o + j.val, h⟩ : Fin 4116) = ⟨j.val + o, by omega⟩ :=
    fun o h => Fin.ext (Nat.add_comm _ _)
  unfold pass3 k3_pay1 k3_pay3 k3_pay4 k3_pay2
  simp only [minimumf_apply, addf_apply, broadcast_apply, sqrtAt3, shapeCast_self, slice2_axis1_eq, e]
  rfl

/-! ## From the blocks to the array -/

section Array3
variable (V : (c : Dev nD) → (b : Ref sig .tc) → Buf (Elt Ideal) ((c : Thread nD τ).loc b))

/-- The body's two rectangles start at the origin. -/
theorem origin3 : (![0, 0] : Fin 2 → Nat) = fun _ => 0 := funext fun a => by fin_cases a <;> rfl

/-- The grid has 16 points. -/
theorem points3 (t : Fin cfg3.N) : t.val < 16 := t.isLt.trans_eq N_3

/-- The printed index maps, decided over the grid: at point `t` both windows' blocks sit at block row `t` and block
    column 0. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- WHAT POINT `t` WRITES BACK is block `t` of the horizontal pass of the whole input array: entry `(ii, j)` of the
    block is entry `(128 t + ii, j)` of the array, and entry `(ii, j + k)` of the input block is entry
    `(128 t + ii, j + k)` of the input array (a block's coordinate is index × size + the coordinate inside). -/
theorem flushed3_eq (c : Dev nD) (t : Fin cfg3.N) :
    (dat3 (F := Ideal) V c).flushed 1 t
      = ((cfg3.win 1).blk t).view.read (Elt Ideal) (Cert.PassFns.rowOf (V c main_v8 : S2048x4116.Idx → EReal)) := by
  show (cfg3.win 1).cut (grid3.coords t) ((dat3 V c).after 1 t) = _
  rw [after3_1]
  unfold out3_1
  rw [View.canon_unit_zero origin3]
  simp only [View.ld_unit_zero (S := S128x4116) origin3]
  obtain ⟨e00, e01, e10, e11⟩ := blockIndex3 t
  have ht := points3 t
  funext y
  obtain ⟨ii, j, rfl⟩ : ∃ (ii : Fin 128) (j : Fin 4096), y = (ix2 ii j : S128x4096.Idx) :=
    ⟨y 0, y 1, eq_ix2 (n0 := 128) (n1 := 4096) y⟩
  show pass3 (iblk3 V c 0 t) (ix2 ii j)
    = Cert.PassFns.rowOf (V c main_v8 : S2048x4116.Idx → EReal) (((cfg3.win 1).blk t).view.emb (ix2 ii j))
  have hemb : ((cfg3.win 1).blk t).view.emb (ix2 ii j : S128x4096.Idx)
      = (ix2 (⟨t.val * 128 + ii.val, by have := ii.isLt; omega⟩ : Fin 2048) j : S2048x4096.Idx) := by
    funext a; apply Fin.ext
    match a with
    | ⟨0, _⟩ => show win3_1.index t (0 : Fin 2) * 128 + 1 * ii.val = t.val * 128 + ii.val; omega
    | ⟨1, _⟩ => show win3_1.index t (1 : Fin 2) * 4096 + 1 * j.val = j.val; omega
  rw [hemb, Cert.PassFns.rowOf_apply, pass3_apply]
  congr 3; funext k
  unfold iblk3
  rw [View.read_apply]
  show V c main_v8 (((cfg3.win 0).blk t).view.emb _) = V c main_v8 _
  congr 1
  funext a; apply Fin.ext
  match a with
  | ⟨0, _⟩ => show win3_0.index t (0 : Fin 2) * 128 + 1 * ii.val = t.val * 128 + ii.val; omega
  | ⟨1, _⟩ => show win3_0.index t (1 : Fin 2) * 4116 + 1 * (j.val + k.val) = j.val + k.val; omega

/-- An index of the output array is in point `t`'s block iff each coordinate is in the block's range on its axis. -/
theorem mem_block3 (t : Fin cfg3.N) (i : S2048x4096.Idx) :
    i ∈ ((cfg3.win 1).blk t).view.set ↔ ∀ a : Fin 2, win3_1.index t a * S128x4096.size a ≤ (i a).val
      ∧ (i a).val < win3_1.index t a * S128x4096.size a + S128x4096.size a := by
  show i ∈ ((View.whole main_v9).slice (win3_1.rect t)).set ↔ _
  rw [View.set_slice_whole, Rect.mem_set_unit]
  exact Iff.rfl

/-- Every index of the output array is in the block of the point its row falls in: row `r` is in block `r / 128`,
    and every point writes its block back. -/
theorem covered3 (i : S2048x4096.Idx) :
    ∃ t : Fin cfg3.N, (cfg3.win 1).flush t = true ∧ i ∈ ((cfg3.win 1).blk t).view.set := by
  have hi0 : (i 0).val < 2048 := (i 0).isLt
  have hi1 : (i 1).val < 4096 := (i 1).isLt
  obtain ⟨t, htv⟩ : ∃ t : Fin cfg3.N, t.val = (i 0).val / 128 :=
    ⟨⟨(i 0).val / 128, by rw [show cfg3.N = 16 from N_3]; omega⟩, rfl⟩
  obtain ⟨e00, e01, e10, e11⟩ := blockIndex3 t
  refine ⟨t, flush3_1 t, ?_⟩
  rw [mem_block3]
  intro a
  match a with
  | ⟨0, _⟩ => show win3_1.index t (0 : Fin 2) * 128 ≤ (i 0).val ∧ (i 0).val < win3_1.index t (0 : Fin 2) * 128 + 128; omega
  | ⟨1, _⟩ => show win3_1.index t (1 : Fin 2) * 4096 ≤ (i 1).val ∧ (i 1).val < win3_1.index t (1 : Fin 2) * 4096 + 4096; omega

/-- THE OUTPUT ARRAY after the region's run is the horizontal pass of the input array as the region found it. -/
theorem array3 (c : Dev nD) :
    (dat3 (F := Ideal) V c).arrAt 1 cfg3.N = Cert.PassFns.rowOf (V c main_v8 : S2048x4116.Idx → EReal) :=
  (dat3 (F := Ideal) V c).arrAt_eq_of_cover 1 _ (fun t _ => flushed3_eq V c t) covered3

end Array3

end Cert.KernelIdeal.Hand

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.Ideal.TileSums.lean ====
import proofs.«168916_j50233937494401_1_alg».proof.Proof.Gen.KernelIdeal.Skeleton
import proofs.«168916_j50233937494401_1_alg».proof.Proof.Spec
import proofs.«168916_j50233937494401_1_alg».proof.Proof.LibRowSum
import Idealize.ShloMosaic.PureOps.Ideal.Laws
import Idealize.ShloMosaic.Lib.ValueIdx
import Idealize.ShloMosaic.Lib.ValueLayout
import Idealize.ShloMosaic.Lib.Pipeline.Value

/-! # The three totals of one tile of the last region, on the extended reals

One grid point of the last region loads four tiles of 64 rows by 4096 columns (the two distances and the two
images) and forms three numbers from them, each the total over the tile of an entrywise expression: the lane sums
of the 64 rows (a sum along axis 1), recast as a column of 64, summed down the column (a sum along axis 0), recast
as a 1 × 1 array. At the ideal float instance each is the double sum over rows and lanes of its expression at the
entry:
  * the second image's entry times the 0/1 mask "first distance below ten";
  * the first distance times the second image, clamped at ten, plus the second distance times the first image,
    clamped at ten;
  * the second image's entry plus the first image's. -/

noncomputable section

open scoped BigOperators

namespace Cert.KernelIdeal.Hand

open Cert.KernelIdeal Cert.KernelIdeal.Gen
open Idealize.ShloMosaic Idealize.ShloMosaic.ValueIdx

/-! ## Two layout facts and a column sum -/

/-- A vector of `a` entries recast as a column `[a, 1]` reads, at `(r, u)`, the vector at `r`: both have row-major
    position `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- Over column `p` of an `[a, b]` matrix, the source index with coordinate `k` on axis 0 is `(k, p)`. -/
theorem lift_col {a b : ℕ} (h : (⟨2, ![a, b]⟩ : Shape).Reduces [0] ⟨1, ![b]⟩) (p : Fin b) (k : Fin a) :
    h.lift (ix1 p) k = ix2 k p := by
  funext c
  match c with
  | ⟨0, _⟩ => exact Fin.ext rfl
  | ⟨1, _⟩ => exact Fin.ext rfl

/-- The sum of an `[a, b]` matrix along axis 0 at column `p` is the sum of the column's entries. -/
theorem multiReduction_add_col {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (p : Fin b) :
    multiReduction .add [0] ⟨1, ![b]⟩ src acc h hφ hacc (ix1 p) = ∑ k : Fin a, src (ix2 k p) :=
  (Ideal.multiReduction_add_single src acc h hφ hacc (ix1 p)).trans
    (Finset.sum_congr rfl fun k _ => congrArg src (lift_col h p k))

/-! ## The total of a tile -/

/-- The four operations every total ends with — lane sums, recast as a column, the column's sum, recast as a 1 × 1
    array — read at the one index: the double sum of the tile over its rows and lanes. -/
theorem tileTotal (w : FVec Ideal S64x4096 .f32) (y : S1x1.Idx) :
    shapeCast S1x1 (multiReduction .add [0] S1
        (shapeCast S64x1 (multiReduction .add [1] S64 w 0x00000000#32 reduces_S64x4096_S64 (.inl rfl) rfl) shapeCasts_S64_S64x1)
        0x00000000#32 reduces_S64x1_S1 (.inl rfl) rfl) shapeCasts_S1_S1x1 y
      = ∑ r : Fin 64, ∑ l : Fin 4096, w (ix2 r l) := by
  obtain ⟨u, i, rfl⟩ : ∃ (u i : Fin 1), y = (ix2 u i : S1x1.Idx) := ⟨y 0, y 1, eq_ix2 (n0 := 1) (n1 := 1) y⟩
  refine (shapeCast_a_1a_apply _ shapeCasts_S1_S1x1 u i).trans ?_
  refine (multiReduction_add_col _ _ reduces_S64x1_S1 (.inl rfl) rfl i).trans ?_
  refine Finset.sum_congr rfl fun r _ => ?_
  refine (shapeCast_a_a1_apply _ shapeCasts_S64_S64x1 r i).trans ?_
  exact Cert.LibRowSum.multiReduction_add_row _ _ reduces_S64x4096_S64 (.inl rfl) rfl r

/-! ## The mask -/

/-- A one-bit word widened to 32 bits and read as a signed integer, as a real: the word's 0/1 value. -/
theorem maskEntry (b : BitVec 1) : (((b.setWidth 32).toInt : ℝ) : EReal) = Cert.Spec.ofBit b := by
  have e : (b.setWidth 32).toInt = (b.toNat : ℤ) := by
    rcases BitVec.eq_zero_or_eq_one b with rfl | rfl <;> decide
  unfold Cert.Spec.ofBit
  rw [e, Int.cast_natCast]

/-! ## The three totals -/

/-- The first total of a tile: the second image's entries where the first distance is below ten. -/
theorem tile_filt (x0 x3 : Vec Ideal S64x4096 .f32) (y : S1x1.Idx) :
    k4_pay10 (F := Ideal) x0 x3 y
      = ∑ r : Fin 64, ∑ l : Fin 4096, x3 (ix2 r l) * Cert.Spec.ofBit (Ideal.cmp .olt (x0 (ix2 r l)) Cert.Spec.ten) := by
  unfold k4_pay10
  refine (tileTotal _ y).trans ?_
  refine Finset.sum_congr rfl fun r _ => Finset.sum_congr rfl fun l _ => ?_
  unfold k4_pay9 k4_pay7
  simp only [mulf_apply, sitofp_apply, extui_apply, cmpf_apply, broadcast_apply, shapeCast_self]
  exact congrArg (x3 (ix2 r l) * ·) (maskEntry _)

/-- The second total of a tile: the first distance times the second image and the second distance times the first
    image, each product clamped at ten. -/
theorem tile_num (x0 x1 x2 x3 : Vec Ideal S64x4096 .f32) (y : S1x1.Idx) :
    k4_pay11 (F := Ideal) x0 x1 x2 x3 y
      = ∑ r : Fin 64, ∑ l : Fin 4096, (min (x0 (ix2 r l) * x3 (ix2 r l)) Cert.Spec.ten
          + min (x1 (ix2 r l) * x2 (ix2 r l)) Cert.Spec.ten) := by
  unfold k4_pay11
  refine (tileTotal _ y).trans ?_
  refine Finset.sum_congr rfl fun r _ => Finset.sum_congr rfl fun l _ => ?_
  unfold k4_pay9 k4_pay8 k4_pay7
  simp only [addf_apply, minimumf_apply, mulf_apply, broadcast_apply, shapeCast_self]
  rfl

/-- The third total of a tile: the two images' entries. -/
theorem tile_den (x2 x3 : Vec Ideal S64x4096 .f32) (y : S1x1.Idx) :
    k4_pay12 (F := Ideal) x2 x3 y = ∑ r : Fin 64, ∑ l : Fin 4096, (x3 (ix2 r l) + x2 (ix2 r l)) := by
  unfold k4_pay12
  refine (tileTotal _ y).trans ?_
  refine Finset.sum_congr rfl fun r _ => Finset.sum_congr rfl fun l _ => ?_
  unfold k4_pay9 k4_pay8
  simp only [addf_apply, shapeCast_self]

end Cert.KernelIdeal.Hand

end
-- ==== Proof.LibBlocks.lean ====
/-
  A sum over a range cut into equal blocks: the sum over `a · b` consecutive indices is the sum, block by block,
  of the sums over each block's `b` indices — index `t · b + p` being entry `p` of block `t`.
-/
import Mathlib.Algebra.BigOperators.Fin
import Mathlib.Logic.Equiv.Fin.Basic

namespace Cert.LibBlocks

open Finset

/-- The position of entry `p` of block `t` among `a` blocks of `b` entries. -/
theorem pos_lt {a b : ℕ} (t : Fin a) (p : Fin b) : t.val * b + p.val < a * b := by
  have ht := t.isLt
  have hp := p.isLt
  calc t.val * b + p.val < t.val * b + b := by omega
    _ = (t.val + 1) * b := (Nat.succ_mul t.val b).symm
    _ ≤ a * b := Nat.mul_le_mul_right b (by omega)

/-- A sum over `a · b` indices is the iterated sum over `a` blocks of `b` indices each. -/
theorem sum_blocks {M : Type*} [AddCommMonoid M] {a b : ℕ} (f : Fin (a * b) → M) :
    ∑ r : Fin (a * b), f r = ∑ t : Fin a, ∑ p : Fin b, f ⟨t.val * b + p.val, pos_lt t p⟩ := by
  rw [← Finset.sum_product', Finset.univ_product_univ]
  refine (Equiv.sum_comp (finProdFinEquiv (m := a) (n := b)) f).symm.trans ?_
  refine Finset.sum_congr rfl fun x _ => ?_
  refine congrArg f (Fin.ext ?_)
  show x.2.val + b * x.1.val = x.1.val * b + x.2.val
  rw [Nat.mul_comm]; omega

/-- The same at a literal total: a sum over `n` indices with `n = a · b`. -/
theorem sum_blocks_of_eq {M : Type*} [AddCommMonoid M] {n a b : ℕ} (h : n = a * b) (f : Fin n → M) :
    ∑ r : Fin n, f r = ∑ t : Fin a, ∑ p : Fin b, f ⟨t.val * b + p.val, h ▸ pos_lt t p⟩ := by
  subst h
  exact sum_blocks f

end Cert.LibBlocks
-- ==== Proof.Ideal.TotalsValue.lean ====
import proofs.«168916_j50233937494401_1_alg».proof.Proof.Ideal.Totals
import proofs.«168916_j50233937494401_1_alg».proof.Proof.Ideal.TileSums
import proofs.«168916_j50233937494401_1_alg».proof.Proof.Spec
import proofs.«168916_j50233937494401_1_alg».proof.Proof.LibBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Arrays

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The outputs after the region -/

/-- Output 0 after the region: its one cell holds accumulator 0's value after the last point (the window's one
    block is the whole [1,1] array). -/
abbrev out4_0 (c : Dev nD) : Buf (Elt F) ((c : Thread nD τ).loc main_v10_0) := acc4_0 V c 31 last4_lt

/-- The one write-back of output 0, at the last point, writes it: block (0, 0) read through zero offsets is the array. -/
theorem flushed4_4 (c : Dev nD) (t : Fin cfg4.N) (hf : (cfg4.win 4).flush t = true) :
    (dat4 V c).flushed 4 t = ((cfg4.win 4).blk t).view.read (Elt F) (out4_0 V c) := by
  show (cfg4.win 4).cut (grid4.coords t) ((dat4 V c).after 4 t) = _
  rw [after4_4]
  have hz' : (fun a => win4_4.index t a * main_v10_0.ty.shape.size a) = fun _ => 0 := funext fun a => by fin_cases a <;> rfl
  exact (Memref.read_access_unit_zero (Elt F) main_v10_0 hz' (fun a => by rw [congrFun hz' a]; simp) (out4_0 V c)).symm

/-- So output 0's array ends holding accumulator 0's final value: the last point's block covers it. -/
theorem arrAt4_0 (c : Dev nD) : (dat4 V c).arrAt 4 cfg4.N = out4_0 V c :=
  (dat4 V c).arrAt_eq_of_cover 4 (out4_0 V c) (flushed4_4 V c) fun i =>
    ⟨⟨31, last4_lt⟩, (flush4_4 _).mpr rfl, by
      show i ∈ ((View.whole main_v10_0).slice (win4_4.rect ⟨31, last4_lt⟩)).set
      rw [View.set_slice_whole, Rect.mem_set_unit]
      intro a
      have h0 : (i 0 : Nat) < 1 := (i 0).isLt
      have h1 : (i 1 : Nat) < 1 := (i 1).isLt
      match a with
      | ⟨0, _⟩ => show win4_4.index ⟨31, last4_lt⟩ 0 * win4_4.size 0 ≤ (i 0 : Nat) ∧ (i 0 : Nat) < win4_4.index ⟨31, last4_lt⟩ 0 * win4_4.size 0 + win4_4.xsize (grid4.coords ⟨31, last4_lt⟩) 0
                  rw [show win4_4.index ⟨31, last4_lt⟩ 0 * win4_4.size 0 = 0 from by decide +kernel, show win4_4.xsize (grid4.coords ⟨31, last4_lt⟩) 0 = 1 from by decide +kernel]; omega
      | ⟨1, _⟩ => show win4_4.index ⟨31, last4_lt⟩ 1 * win4_4.size 1 ≤ (i 1 : Nat) ∧ (i 1 : Nat) < win4_4.index ⟨31, last4_lt⟩ 1 * win4_4.size 1 + win4_4.xsize (grid4.coords ⟨31, last4_lt⟩) 1
                  rw [show win4_4.index ⟨31, last4_lt⟩ 1 * win4_4.size 1 = 0 from by decide +kernel, show win4_4.xsize (grid4.coords ⟨31, last4_lt⟩) 1 = 1 from by decide +kernel]; omega⟩

/-- Output 1 after the region: its one cell holds accumulator 1's value after the last point (the window's one
    block is the whole [1,1] array). -/
abbrev out4_1 (c : Dev nD) : Buf (Elt F) ((c : Thread nD τ).loc main_v10_1) := acc4_1 V c 31 last4_lt

/-- The one write-back of output 1, at the last point, writes it: block (0, 0) read through zero offsets is the array. -/
theorem flushed4_5 (c : Dev nD) (t : Fin cfg4.N) (hf : (cfg4.win 5).flush t = true) :
    (dat4 V c).flushed 5 t = ((cfg4.win 5).blk t).view.read (Elt F) (out4_1 V c) := by
  show (cfg4.win 5).cut (grid4.coords t) ((dat4 V c).after 5 t) = _
  rw [after4_5]
  have hz' : (fun a => win4_5.index t a * main_v10_1.ty.shape.size a) = fun _ => 0 := funext fun a => by fin_cases a <;> rfl
  exact (Memref.read_access_unit_zero (Elt F) main_v10_1 hz' (fun a => by rw [congrFun hz' a]; simp) (out4_1 V c)).symm

/-- So output 1's array ends holding accumulator 1's final value: the last point's block covers it. -/
theorem arrAt4_1 (c : Dev nD) : (dat4 V c).arrAt 5 cfg4.N = out4_1 V c :=
  (dat4 V c).arrAt_eq_of_cover 5 (out4_1 V c) (flushed4_5 V c) fun i =>
    ⟨⟨31, last4_lt⟩, (flush4_5 _).mpr rfl, by
      show i ∈ ((View.whole main_v10_1).slice (win4_5.rect ⟨31, last4_lt⟩)).set
      rw [View.set_slice_whole, Rect.mem_set_unit]
      intro a
      have h0 : (i 0 : Nat) < 1 := (i 0).isLt
      have h1 : (i 1 : Nat) < 1 := (i 1).isLt
      match a with
      | ⟨0, _⟩ => show win4_5.index ⟨31, last4_lt⟩ 0 * win4_5.size 0 ≤ (i 0 : Nat) ∧ (i 0 : Nat) < win4_5.index ⟨31, last4_lt⟩ 0 * win4_5.size 0 + win4_5.xsize (grid4.coords ⟨31, last4_lt⟩) 0
                  rw [show win4_5.index ⟨31, last4_lt⟩ 0 * win4_5.size 0 = 0 from by decide +kernel, show win4_5.xsize (grid4.coords ⟨31, last4_lt⟩) 0 = 1 from by decide +kernel]; omega
      | ⟨1, _⟩ => show win4_5.index ⟨31, last4_lt⟩ 1 * win4_5.size 1 ≤ (i 1 : Nat) ∧ (i 1 : Nat) < win4_5.index ⟨31, last4_lt⟩ 1 * win4_5.size 1 + win4_5.xsize (grid4.coords ⟨31, last4_lt⟩) 1
                  rw [show win4_5.index ⟨31, last4_lt⟩ 1 * win4_5.size 1 = 0 from by decide +kernel, show win4_5.xsize (grid4.coords ⟨31, last4_lt⟩) 1 = 1 from by decide +kernel]; omega⟩

/-- Output 2 after the region: its one cell holds accumulator 2's value after the last point (the window's one
    block is the whole [1,1] array). -/
abbrev out4_2 (c : Dev nD) : Buf (Elt F) ((c : Thread nD τ).loc main_v10_2) := acc4_2 V c 31 last4_lt

/-- The one write-back of output 2, at the last point, writes it: block (0, 0) read through zero offsets is the array. -/
theorem flushed4_6 (c : Dev nD) (t : Fin cfg4.N) (hf : (cfg4.win 6).flush t = true) :
    (dat4 V c).flushed 6 t = ((cfg4.win 6).blk t).view.read (Elt F) (out4_2 V c) := by
  show (cfg4.win 6).cut (grid4.coords t) ((dat4 V c).after 6 t) = _
  rw [after4_6]
  have hz' : (fun a => win4_6.index t a * main_v10_2.ty.shape.size a) = fun _ => 0 := funext fun a => by fin_cases a <;> rfl
  exact (Memref.read_access_unit_zero (Elt F) main_v10_2 hz' (fun a => by rw [congrFun hz' a]; simp) (out4_2 V c)).symm

/-- So output 2's array ends holding accumulator 2's final value: the last point's block covers it. -/
theorem arrAt4_2 (c : Dev nD) : (dat4 V c).arrAt 6 cfg4.N = out4_2 V c :=
  (dat4 V c).arrAt_eq_of_cover 6 (out4_2 V c) (flushed4_6 V c) fun i =>
    ⟨⟨31, last4_lt⟩, (flush4_6 _).mpr rfl, by
      show i ∈ ((View.whole main_v10_2).slice (win4_6.rect ⟨31, last4_lt⟩)).set
      rw [View.set_slice_whole, Rect.mem_set_unit]
      intro a
      have h0 : (i 0 : Nat) < 1 := (i 0).isLt
      have h1 : (i 1 : Nat) < 1 := (i 1).isLt
      match a with
      | ⟨0, _⟩ => show win4_6.index ⟨31, last4_lt⟩ 0 * win4_6.size 0 ≤ (i 0 : Nat) ∧ (i 0 : Nat) < win4_6.index ⟨31, last4_lt⟩ 0 * win4_6.size 0 + win4_6.xsize (grid4.coords ⟨31, last4_lt⟩) 0
                  rw [show win4_6.index ⟨31, last4_lt⟩ 0 * win4_6.size 0 = 0 from by decide +kernel, show win4_6.xsize (grid4.coords ⟨31, last4_lt⟩) 0 = 1 from by decide +kernel]; omega
      | ⟨1, _⟩ => show win4_6.index ⟨31, last4_lt⟩ 1 * win4_6.size 1 ≤ (i 1 : Nat) ∧ (i 1 : Nat) < win4_6.index ⟨31, last4_lt⟩ 1 * win4_6.size 1 + win4_6.xsize (grid4.coords ⟨31, last4_lt⟩) 1
                  rw [show win4_6.index ⟨31, last4_lt⟩ 1 * win4_6.size 1 = 0 from by decide +kernel, show win4_6.xsize (grid4.coords ⟨31, last4_lt⟩) 1 = 1 from by decide +kernel]; omega⟩

end Arrays

/-! ## The three totals at the ideal instance -/

section Value

open Idealize.ShloMosaic.ValueIdx
open scoped BigOperators

/-- A running total that starts at its first term and adds one term per step is the sum of the terms so far. -/
theorem fold_eq_sum {M : Type} [AddCommMonoid M] {N : ℕ} (f : Fin N → M) (a : (n : ℕ) → n < N → M)
    (h0 : ∀ h, a 0 h = f ⟨0, h⟩) (hs : ∀ n h, a (n + 1) h = a n (Nat.lt_of_succ_lt h) + f ⟨n + 1, h⟩) :
    ∀ (n : ℕ) (h : n < N), a n h = ∑ k : Fin (n + 1), f ⟨k.val, lt_of_lt_of_le k.isLt h⟩
  | 0, h => by rw [h0, Fin.sum_univ_one]; rfl
  | n + 1, h => by
    rw [hs, fold_eq_sum f a h0 hs n (Nat.lt_of_succ_lt h)]
    exact (Fin.sum_univ_castSucc (fun k : Fin (n + 1 + 1) => f ⟨k.val, lt_of_lt_of_le k.isLt h⟩)).symm

/-- One accumulator step at the ideal instance, at the one index: what the cell held plus the tile's total. -/
theorem k4_pay1_apply (v27 : FVec Ideal S1x1 .f32) (v36 : Vec Ideal S1x1 .f32) (y : S1x1.Idx) : k4_pay1 v27 v36 y = v36 y + v27 y := by
  unfold k4_pay1; rw [shapeCast_self]; rfl
theorem k4_pay2_apply (v31 : FVec Ideal S1x1 .f32) (v41 : Vec Ideal S1x1 .f32) (y : S1x1.Idx) : k4_pay2 v31 v41 y = v41 y + v31 y := by
  unfold k4_pay2; rw [shapeCast_self]; rfl
theorem k4_pay3_apply (v35 : FVec Ideal S1x1 .f32) (v46 : Vec Ideal S1x1 .f32) (y : S1x1.Idx) : k4_pay3 v35 v46 y = v46 y + v35 y := by
  unfold k4_pay3; rw [shapeCast_self]; rfl
/-- The zeroed cell is zero. -/
theorem k4_pay4_apply (y : S1x1.Idx) : k4_pay4 (F := Ideal) y = 0 := by
  unfold k4_pay4; rw [shapeCast_self]; exact Ideal.ofBits_zero_f32
theorem k4_pay5_apply (y : S1x1.Idx) : k4_pay5 (F := Ideal) y = 0 := by
  unfold k4_pay5; rw [shapeCast_self]; exact Ideal.ofBits_zero_f32
theorem k4_pay6_apply (y : S1x1.Idx) : k4_pay6 (F := Ideal) y = 0 := by
  unfold k4_pay6; rw [shapeCast_self]; exact Ideal.ofBits_zero_f32

variable (V : (c : Dev nD) → (b : Ref sig .tc) → Buf (Elt Ideal) ((c : Thread nD τ).loc b))

/-- The region's four input arrays as the region finds them, as functions of the coordinates: the two clamped
    distances (of gt, of pred) and the two images (gt, pred). -/
abbrev D4 (c : Dev nD) : S2048x4096.Idx → EReal := V c main_v5
abbrev E4 (c : Dev nD) : S2048x4096.Idx → EReal := V c main_v9
abbrev G4 (c : Dev nD) : S2048x4096.Idx → EReal := V c main_v0
abbrev Q4 (c : Dev nD) : S2048x4096.Idx → EReal := V c main_v1

/-- Accumulator 0 after point `n`, at its one index: the sum of the tile totals of points 0 to `n`. -/
theorem acc4_0_sum (c : Dev nD) (y : S1x1.Idx) (n : ℕ) (h : n < cfg4.N) :
    acc4_0 V c n h y = ∑ k : Fin (n + 1), tile4_0 (iblk4 V c 0 ⟨k.val, lt_of_lt_of_le k.isLt h⟩) (iblk4 V c 1 ⟨k.val, lt_of_lt_of_le k.isLt h⟩)
      (iblk4 V c 2 ⟨k.val, lt_of_lt_of_le k.isLt h⟩) (iblk4 V c 3 ⟨k.val, lt_of_lt_of_le k.isLt h⟩) y :=
  fold_eq_sum (fun t : Fin cfg4.N => tile4_0 (iblk4 V c 0 t) (iblk4 V c 1 t) (iblk4 V c 2 t) (iblk4 V c 3 t) y) (fun n h => acc4_0 V c n h y)
    (fun h => by show k4_pay1 (F := Ideal) _ (k4_pay4 (F := Ideal)) y = _; rw [k4_pay1_apply, k4_pay4_apply, zero_add])
    (fun n h => by show k4_pay1 (F := Ideal) _ (acc4_0 V c n _) y = _; rw [k4_pay1_apply]) n h

/-- Accumulator 1 after point `n`, at its one index: the sum of the tile totals of points 0 to `n`. -/
theorem acc4_1_sum (c : Dev nD) (y : S1x1.Idx) (n : ℕ) (h : n < cfg4.N) :
    acc4_1 V c n h y = ∑ k : Fin (n + 1), tile4_1 (iblk4 V c 0 ⟨k.val, lt_of_lt_of_le k.isLt h⟩) (iblk4 V c 1 ⟨k.val, lt_of_lt_of_le k.isLt h⟩)
      (iblk4 V c 2 ⟨k.val, lt_of_lt_of_le k.isLt h⟩) (iblk4 V c 3 ⟨k.val, lt_of_lt_of_le k.isLt h⟩) y :=
  fold_eq_sum (fun t : Fin cfg4.N => tile4_1 (iblk4 V c 0 t) (iblk4 V c 1 t) (iblk4 V c 2 t) (iblk4 V c 3 t) y) (fun n h => acc4_1 V c n h y)
    (fun h => by show k4_pay2 (F := Ideal) _ (k4_pay5 (F := Ideal)) y = _; rw [k4_pay2_apply, k4_pay5_apply, zero_add])
    (fun n h => by show k4_pay2 (F := Ideal) _ (acc4_1 V c n _) y = _; rw [k4_pay2_apply]) n h

/-- Accumulator 2 after point `n`, at its one index: the sum of the tile totals of points 0 to `n`. -/
theorem acc4_2_sum (c : Dev nD) (y : S1x1.Idx) (n : ℕ) (h : n < cfg4.N) :
    acc4_2 V c n h y = ∑ k : Fin (n + 1), tile4_2 (iblk4 V c 0 ⟨k.val, lt_of_lt_of_le k.isLt h⟩) (iblk4 V c 1 ⟨k.val, lt_of_lt_of_le k.isLt h⟩)
      (iblk4 V c 2 ⟨k.val, lt_of_lt_of_le k.isLt h⟩) (iblk4 V c 3 ⟨k.val, lt_of_lt_of_le k.isLt h⟩) y :=
  fold_eq_sum (fun t : Fin cfg4.N => tile4_2 (iblk4 V c 0 t) (iblk4 V c 1 t) (iblk4 V c 2 t) (iblk4 V c 3 t) y) (fun n h => acc4_2 V c n h y)
    (fun h => by show k4_pay3 (F := Ideal) _ (k4_pay6 (F := Ideal)) y = _; rw [k4_pay3_apply, k4_pay6_apply, zero_add])
    (fun n h => by show k4_pay3 (F := Ideal) _ (acc4_2 V c n _) y = _; rw [k4_pay3_apply]) n h

/-- Row `r` of block `t` (of 32 blocks of 64 rows) is a row of the 2048. -/
theorem row4_lt (t : Fin cfg4.N) (r : Fin 64) : t.val * 64 + r.val < 2048 := by
  have ht : t.val < 32 := lt_of_lt_of_eq t.isLt (show cfg4.N = 32 from N_4)
  have := r.isLt; omega

/-- Entry (r, l) of window 0's block at point `t` is entry (64·t + r, l) of its array. -/
theorem iblk4_0_apply (c : Dev nD) (t : Fin cfg4.N) (r : Fin 64) (l : Fin 4096) :
    (iblk4 V c 0 t : Vec Ideal S64x4096 .f32) (ix2 r l) = D4 V c (ix2 ⟨t.val * 64 + r.val, row4_lt t r⟩ l) := by
  have hi : win4_0.index t 0 = t.val ∧ win4_0.index t 1 = 0 :=
    (by decide +kernel : ∀ t : Fin grid4.N, win4_0.index t 0 = t.val ∧ win4_0.index t 1 = 0) t
  unfold iblk4
  rw [View.read_apply]
  show V c main_v5 _ = V c main_v5 _
  congr 1
  funext a
  apply Fin.ext
  match a with
  | ⟨0, _⟩ => show win4_0.index t 0 * 64 + 1 * r.val = t.val * 64 + r.val; rw [hi.1]; omega
  | ⟨1, _⟩ => show win4_0.index t 1 * 4096 + 1 * l.val = l.val; rw [hi.2]; omega

/-- Entry (r, l) of window 1's block at point `t` is entry (64·t + r, l) of its array. -/
theorem iblk4_1_apply (c : Dev nD) (t : Fin cfg4.N) (r : Fin 64) (l : Fin 4096) :
    (iblk4 V c 1 t : Vec Ideal S64x4096 .f32) (ix2 r l) = E4 V c (ix2 ⟨t.val * 64 + r.val, row4_lt t r⟩ l) := by
  have hi : win4_1.index t 0 = t.val ∧ win4_1.index t 1 = 0 :=
    (by decide +kernel : ∀ t : Fin grid4.N, win4_1.index t 0 = t.val ∧ win4_1.index t 1 = 0) t
  unfold iblk4
  rw [View.read_apply]
  show V c main_v9 _ = V c main_v9 _
  congr 1
  funext a
  apply Fin.ext
  match a with
  | ⟨0, _⟩ => show win4_1.index t 0 * 64 + 1 * r.val = t.val * 64 + r.val; rw [hi.1]; omega
  | ⟨1, _⟩ => show win4_1.index t 1 * 4096 + 1 * l.val = l.val; rw [hi.2]; omega

/-- Entry (r, l) of window 2's block at point `t` is entry (64·t + r, l) of its array. -/
theorem iblk4_2_apply (c : Dev nD) (t : Fin cfg4.N) (r : Fin 64) (l : Fin 4096) :
    (iblk4 V c 2 t : Vec Ideal S64x4096 .f32) (ix2 r l) = G4 V c (ix2 ⟨t.val * 64 + r.val, row4_lt t r⟩ l) := by
  have hi : win4_2.index t 0 = t.val ∧ win4_2.index t 1 = 0 :=
    (by decide +kernel : ∀ t : Fin grid4.N, win4_2.index t 0 = t.val ∧ win4_2.index t 1 = 0) t
  unfold iblk4
  rw [View.read_apply]
  show V c main_v0 _ = V c main_v0 _
  congr 1
  funext a
  apply Fin.ext
  match a with
  | ⟨0, _⟩ => show win4_2.index t 0 * 64 + 1 * r.val = t.val * 64 + r.val; rw [hi.1]; omega
  | ⟨1, _⟩ => show win4_2.index t 1 * 4096 + 1 * l.val = l.val; rw [hi.2]; omega

/-- Entry (r, l) of window 3's block at point `t` is entry (64·t + r, l) of its array. -/
theorem iblk4_3_apply (c : Dev nD) (t : Fin cfg4.N) (r : Fin 64) (l : Fin 4096) :
    (iblk4 V c 3 t : Vec Ideal S64x4096 .f32) (ix2 r l) = Q4 V c (ix2 ⟨t.val * 64 + r.val, row4_lt t r⟩ l) := by
  have hi : win4_3.index t 0 = t.val ∧ win4_3.index t 1 = 0 :=
    (by decide +kernel : ∀ t : Fin grid4.N, win4_3.index t 0 = t.val ∧ win4_3.index t 1 = 0) t
  unfold iblk4
  rw [View.read_apply]
  show V c main_v1 _ = V c main_v1 _
  congr 1
  funext a
  apply Fin.ext
  match a with
  | ⟨0, _⟩ => show win4_3.index t 0 * 64 + 1 * r.val = t.val * 64 + r.val; rw [hi.1]; omega
  | ⟨1, _⟩ => show win4_3.index t 1 * 4096 + 1 * l.val = l.val; rw [hi.2]; omega

/-- A sum over the 2048 rows is the sum over the 32 grid points of the sums over each block's 64 rows. -/
theorem sum_rows4 (f : Fin 2048 → EReal) :
    ∑ i : Fin 2048, f i = ∑ k : Fin (31 + 1), ∑ r : Fin 64, f ⟨(⟨k.val, lt_of_lt_of_le k.isLt last4_lt⟩ : Fin cfg4.N).val * 64 + r.val, row4_lt _ r⟩ :=
  Cert.LibBlocks.sum_blocks_of_eq (show 2048 = 32 * 64 from rfl) f

/-- The first total over the image: pred where the distance of gt is below ten. -/
def filt4 (c : Dev nD) : EReal :=
  ∑ i : Fin 2048, ∑ j : Fin 4096, Q4 V c (ix2 i j) * Cert.Spec.ofBit (Ideal.cmp .olt (D4 V c (ix2 i j)) Cert.Spec.ten)
/-- The second: each distance times the other image, each product clamped at ten. -/
def num4 (c : Dev nD) : EReal :=
  ∑ i : Fin 2048, ∑ j : Fin 4096, (min (D4 V c (ix2 i j) * Q4 V c (ix2 i j)) Cert.Spec.ten + min (E4 V c (ix2 i j) * G4 V c (ix2 i j)) Cert.Spec.ten)
/-- The third: the two images' entries. -/
def den4 (c : Dev nD) : EReal :=
  ∑ i : Fin 2048, ∑ j : Fin 4096, (Q4 V c (ix2 i j) + G4 V c (ix2 i j))

/-- TOTAL 0: output 0 ends holding the first total. -/
theorem total4_0 (c : Dev nD) : (dat4 (F := Ideal) V c).arrAt 4 cfg4.N = fun _ => filt4 V c := by
  rw [arrAt4_0]
  funext y
  show acc4_0 V c 31 last4_lt y = filt4 V c
  unfold filt4
  rw [acc4_0_sum V c y 31 last4_lt, sum_rows4]
  refine Finset.sum_congr rfl fun k _ => ?_
  unfold tile4_0
  rw [tile_filt]
  refine Finset.sum_congr rfl fun r _ => Finset.sum_congr rfl fun l _ => ?_
  rw [iblk4_0_apply, iblk4_3_apply]

/-- TOTAL 1: output 1 ends holding the second total. -/
theorem total4_1 (c : Dev nD) : (dat4 (F := Ideal) V c).arrAt 5 cfg4.N = fun _ => num4 V c := by
  rw [arrAt4_1]
  funext y
  show acc4_1 V c 31 last4_lt y = num4 V c
  unfold num4
  rw [acc4_1_sum V c y 31 last4_lt, sum_rows4]
  refine Finset.sum_congr rfl fun k _ => ?_
  unfold tile4_1
  rw [tile_num]
  refine Finset.sum_congr rfl fun r _ => Finset.sum_congr rfl fun l _ => ?_
  rw [iblk4_0_apply, iblk4_1_apply, iblk4_2_apply, iblk4_3_apply]

/-- TOTAL 2: output 2 ends holding the third total. -/
theorem total4_2 (c : Dev nD) : (dat4 (F := Ideal) V c).arrAt 6 cfg4.N = fun _ => den4 V c := by
  rw [arrAt4_2]
  funext y
  show acc4_2 V c 31 last4_lt y = den4 V c
  unfold den4
  rw [acc4_2_sum V c y 31 last4_lt, sum_rows4]
  refine Finset.sum_congr rfl fun k _ => ?_
  unfold tile4_2
  rw [tile_den]
  refine Finset.sum_congr rfl fun r _ => Finset.sum_congr rfl fun l _ => ?_
  rw [iblk4_2_apply, iblk4_3_apply]

end Value

end Cert.KernelIdeal.Hand

end
-- ==== Proof.Consts.lean ====
import proofs.«168916_j50233937494401_1_alg».proof.Proof.Spec

/-! # Two constants as numbers

The foreground threshold is the real one half and the unit word is one; the only consequences used are that zero
is not above the threshold, so a zero pixel is background and costs the large constant, and that dividing by the
unit word changes nothing. -/

noncomputable section

namespace Cert.Consts

open Idealize.ShloMosaic

/-- The threshold word denotes one half. -/
theorem ofBits_half : Ideal.ofBits .f32 0x3F000000#32 = ((1 / 2 : ℝ) : EReal) := by
  simp [Ideal.ofBits, Ideal.ieee, -EReal.coe_mul]; norm_num

/-- The unit word denotes one. -/
theorem ofBits_one : Ideal.ofBits .f32 0x3F800000#32 = 1 := by
  simp [Ideal.ofBits, Ideal.ieee, -EReal.coe_mul]; norm_num

/-- A zero pixel is not above one half, so its cost is the large constant: padding the image with zeros and then
    taking costs is padding the costs with the large constant. -/
theorem cost_zero : Cert.Spec.cost Cert.Spec.zero = Cert.Spec.inf := by
  have h : ¬ (Cert.Spec.half < Cert.Spec.zero) := by
    show ¬ (Ideal.ofBits .f32 0x3F000000#32 < Ideal.ofBits .f32 0x00000000#32)
    rw [ofBits_half, Ideal.ofBits_zero_f32]
    exact not_lt.mpr (by exact_mod_cast (by norm_num : (0 : ℝ) ≤ 1 / 2))
  unfold Cert.Spec.cost Ideal.cmp
  simp only [h, decide_false]
  rfl

end Cert.Consts

end
-- ==== Proof.PassBridge.lean ====
import proofs.«168916_j50233937494401_1_alg».proof.Proof.Spec
import proofs.«168916_j50233937494401_1_alg».proof.Proof.PassFns
import proofs.«168916_j50233937494401_1_alg».proof.Proof.Consts
import Idealize.ShloMosaic.Lib.KernelVsHost
import Idealize.ShloMosaic.Lib.ValueIdx
import Idealize.ShloMosaic.Lib.Pipeline.Value

/-! # The two passes over padded arrays are the specification's passes

The kernel pads the IMAGE with zero rows and takes costs inside the column pass; the specification pads the COSTS
with the large constant. A zero pixel costs the large constant, so the two agree row by row. The row pass pads the
column pass's result with the large constant on both sides, as the specification does. -/

set_option maxRecDepth 16384

noncomputable section

namespace Cert.PassBridge

open Idealize.ShloMosaic Idealize.ShloMosaic.ValueIdx
open Cert.Spec Cert.PassFns

abbrev T2048x4096 : Shape := ⟨2, ![2048, 4096]⟩
abbrev T2068x4096 : Shape := ⟨2, ![2068, 4096]⟩
abbrev T2048x4116 : Shape := ⟨2, ![2048, 4116]⟩

section Layout
variable {α : Type}

/-- The image flattened to 2048 × 4096 has, at `(i, j)`, the image's entry `(0, 0, i, j)`. -/
theorem flat_apply (x : (⟨4, ![1, 1, 2048, 4096]⟩ : Shape).Idx → α)
    (h : (⟨4, ![1, 1, 2048, 4096]⟩ : Shape).ShapeCasts T2048x4096) (i : Fin 2048) (j : Fin 4096) :
    shapeCast T2048x4096 x h (ix2 i j) = x (ix4 (0 : Fin 1) (0 : Fin 1) i j) :=
  shapeCast_apply x h _ _ (by
    rw [Shape.rowMajor_val_four, Shape.rowMajor_val_two]
    show ((0 * 1 + 0) * 2048 + i.val) * 4096 + j.val = i.val * 4096 + j.val
    simp)

/-- Ten rows added above and below: row `r` with `10 ≤ r < 2058` is row `r - 10` of the operand, -/
theorem padRows_inside (x : T2048x4096.Idx → α) {u : Shape} (v : u.Idx → α)
    (h : T2048x4096.Pads ![10, 0] ![10, 0] ![0, 0] T2068x4096) (hu : 0 < u.numel)
    (r : Fin 2068) (w : Fin 4096) (h1 : 10 ≤ r.val) (h2 : r.val < 2058) :
    pad T2068x4096 ![10, 0] ![10, 0] ![0, 0] x v h hu (ix2 r w) = x (ix2 ⟨r.val - 10, by omega⟩ w) :=
  pad_apply_of_inside _ _ _ x v h hu _ _ (fun d => by
    match d with
    | ⟨0, _⟩ => show r.val = 10 + (r.val - 10) * (0 + 1); omega
    | ⟨1, _⟩ => show w.val = 0 + w.val * (0 + 1); omega)

/-- and every other row holds the padding value. -/
theorem padRows_outside (x : T2048x4096.Idx → α) {u : Shape} (v : u.Idx → α)
    (h : T2048x4096.Pads ![10, 0] ![10, 0] ![0, 0] T2068x4096) (hu : 0 < u.numel)
    (r : Fin 2068) (w : Fin 4096) (h1 : ¬ (10 ≤ r.val ∧ r.val < 2058)) :
    pad T2068x4096 ![10, 0] ![10, 0] ![0, 0] x v h hu (ix2 r w) = v (Shape.Idx.first hu) :=
  pad_apply_of_not_inside _ _ _ x v h hu _ (0 : Fin 2) (fun hin => h1 (by
    have h0 : 10 ≤ r.val := hin.1
    have h3 : (r.val - 10) / (0 + 1) < 2048 := hin.2.2
    rw [Nat.zero_add, Nat.div_one] at h3
    exact ⟨h0, by omega⟩))

/-- Ten columns added left and right: column `q` with `10 ≤ q < 4106` is column `q - 10` of the operand, -/
theorem padCols_inside (x : T2048x4096.Idx → α) {u : Shape} (v : u.Idx → α)
    (h : T2048x4096.Pads ![0, 10] ![0, 10] ![0, 0] T2048x4116) (hu : 0 < u.numel)
    (i : Fin 2048) (q : Fin 4116) (h1 : 10 ≤ q.val) (h2 : q.val < 4106) :
    pad T2048x4116 ![0, 10] ![0, 10] ![0, 0] x v h hu (ix2 i q) = x (ix2 i ⟨q.val - 10, by omega⟩) :=
  pad_apply_of_inside _ _ _ x v h hu _ _ (fun d => by
    match d with
    | ⟨0, _⟩ => show i.val = 0 + i.val * (0 + 1); omega
    | ⟨1, _⟩ => show q.val = 10 + (q.val - 10) * (0 + 1); omega)

/-- and every other column holds the padding value. -/
theorem padCols_outside (x : T2048x4096.Idx → α) {u : Shape} (v : u.Idx → α)
    (h : T2048x4096.Pads ![0, 10] ![0, 10] ![0, 0] T2048x4116) (hu : 0 < u.numel)
    (i : Fin 2048) (q : Fin 4116) (h1 : ¬ (10 ≤ q.val ∧ q.val < 4106)) :
    pad T2048x4116 ![0, 10] ![0, 10] ![0, 0] x v h hu (ix2 i q) = v (Shape.Idx.first hu) :=
  pad_apply_of_not_inside _ _ _ x v h hu _ (1 : Fin 2) (fun hin => h1 (by
    have h0 : 10 ≤ q.val := hin.1
    have h3 : (q.val - 10) / (0 + 1) < 4096 := hin.2.2
    rw [Nat.zero_add, Nat.div_one] at h3
    exact ⟨h0, by omega⟩))

end Layout

/-- THE COLUMN PASS. The column pass of the flattened image padded with zero rows is the specification's column
    pass of the image: inside the image the padded row is the image's row; outside, the zero costs the large
    constant, which is what the specification pads the costs with. -/
theorem col_bridge (x : Img) (hc : (⟨4, ![1, 1, 2048, 4096]⟩ : Shape).ShapeCasts T2048x4096)
    {u : Shape} (hp : T2048x4096.Pads ![10, 0] ![10, 0] ![0, 0] T2068x4096) (hu : 0 < u.numel)
    (v : u.Idx → EReal) (hv : v (Shape.Idx.first hu) = zero) (i : Fin 2048) (w : Fin 4096) :
    colOf (pad T2068x4096 ![10, 0] ![10, 0] ![0, 0] (shapeCast T2048x4096 x hc) v hp hu) (ix2 i w) = colPass x i w := by
  rw [colOf_apply]
  unfold colPass
  refine congrArg taps (funext fun k => ?_)
  unfold costPad
  split
  · rename_i h
    rw [padRows_inside _ _ hp hu _ w h.1 h.2, flat_apply]
  · rename_i h
    rw [padRows_outside _ _ hp hu _ w h, hv]
    exact Cert.Consts.cost_zero

/-- THE ROW PASS. The row pass of an array holding the specification's column pass, padded with columns of the large
    constant, is the specification's clamped distance. -/
theorem row_bridge (x : Img) (colArr : T2048x4096.Idx → EReal) (hcol : ∀ i w, colArr (ix2 i w) = colPass x i w)
    {u : Shape} (hp : T2048x4096.Pads ![0, 10] ![0, 10] ![0, 0] T2048x4116) (hu : 0 < u.numel)
    (v : u.Idx → EReal) (hv : v (Shape.Idx.first hu) = inf) (i : Fin 2048) (j : Fin 4096) :
    rowOf (pad T2048x4116 ![0, 10] ![0, 10] ![0, 0] colArr v hp hu) (ix2 i j) = Cert.Spec.dist x i j := by
  rw [rowOf_apply]
  unfold Cert.Spec.dist rowPass
  refine congrArg (fun z => min (Ideal.sqrt z) ten) (congrArg taps (funext fun k => ?_))
  unfold rowPad
  split
  · rename_i h
    rw [padCols_inside _ _ hp hu i _ h.1 h.2, hcol]
  · rename_i h
    rw [padCols_outside _ _ hp hu i _ h, hv]

end Cert.PassBridge

end
-- ==== Proof.Ideal.Values.lean ====
import proofs.«168916_j50233937494401_1_alg».proof.Proof.Ideal.Run
import proofs.«168916_j50233937494401_1_alg».proof.Proof.Ideal.HostReads
import proofs.«168916_j50233937494401_1_alg».proof.Proof.Ideal.ColValue0
import proofs.«168916_j50233937494401_1_alg».proof.Proof.Ideal.RowValue1
import proofs.«168916_j50233937494401_1_alg».proof.Proof.Ideal.ColValue2
import proofs.«168916_j50233937494401_1_alg».proof.Proof.Ideal.RowValue3
import proofs.«168916_j50233937494401_1_alg».proof.Proof.Ideal.TotalsValue
import proofs.«168916_j50233937494401_1_alg».proof.Proof.PassBridge
import proofs.«168916_j50233937494401_1_alg».proof.Proof.Spec

/-! # The value the entry function returns, on the extended reals

Reading the contents between the items one after the other: the flattened images; the first image padded with zero
rows, its column pass, that padded with columns of the large constant, its row pass with the clamped square root —
the specification's distance of the first image —; the same four steps for the second image; the three totals over
the two distances and the two images; and the scalar tail. The result is the specification's. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec

variable (m : (ℓ : Loc nD τ sig) → Buf (Elt Ideal) ℓ) (ρ : Dev nD → PrngReg) (c : Dev nD)

/-- The two argument images on core `c`. -/
abbrev gtImg : Img := m ((c : Thread nD τ).loc main_arg0)
abbrev predImg : Img := m ((c : Thread nD τ).loc main_arg1)

/-! ## The first image -/

theorem v0_flat : (W2 (F := Ideal) m ρ c (Proc.devRef .tc main_v0) : S2048x4096.Idx → EReal)
    = shapeCast S2048x4096 (gtImg m c) shapeCasts_S1x1x2048x4096_S2048x4096 :=
  flat0_read (F := Ideal) (W0 m ρ c)

theorem v1_flat : (W2 (F := Ideal) m ρ c (Proc.devRef .tc main_v1) : S2048x4096.Idx → EReal)
    = shapeCast S2048x4096 (predImg m c) shapeCasts_S1x1x2048x4096_S2048x4096 :=
  flat1_read (F := Ideal) (W0 m ρ c)

theorem v2_pad : (W2 (F := Ideal) m ρ c (Proc.devRef .tc main_v2) : S2068x4096.Idx → EReal)
    = pad S2068x4096 ![10, 0] ![10, 0] ![0, 0] (shapeCast S2048x4096 (gtImg m c) shapeCasts_S1x1x2048x4096_S2048x4096)
        (constant (F := Ideal) S_ .f32 0x00000000#32) pads_S2048x4096_S2068x4096_10100_000 h_S_ :=
  padRows0_read (F := Ideal) (W0 m ρ c)

theorem v3_col : (W3 (F := Ideal) m ρ c (Proc.devRef .tc main_v3) : S2048x4096.Idx → EReal)
    = Cert.PassFns.colOf (W2 (F := Ideal) m ρ c (Proc.devRef .tc main_v2)) :=
  (W3_arr m ρ c 1).trans (array0 (V2 m ρ) c)

/-- After region 0 `main_v3` holds the specification's column pass of the first image. -/
theorem v3_apply (i : Fin 2048) (w : Fin 4096) :
    (W3 (F := Ideal) m ρ c (Proc.devRef .tc main_v3) : S2048x4096.Idx → EReal) (ix2 i w) = colPass (gtImg m c) i w := by
  rw [v3_col, v2_pad]
  exact Cert.PassBridge.col_bridge (gtImg m c) _ _ h_S_ _ rfl i w

theorem v4_pad : (W5 (F := Ideal) m ρ c (Proc.devRef .tc main_v4) : S2048x4116.Idx → EReal)
    = pad S2048x4116 ![0, 10] ![0, 10] ![0, 0] (W3 (F := Ideal) m ρ c (Proc.devRef .tc main_v3) : S2048x4096.Idx → EReal)
        (constant (F := Ideal) S_ .f32 0x5368D4A5#32) pads_S2048x4096_S2048x4116_000_10100 h_S_ :=
  padCols1_read (F := Ideal) (W3 m ρ c)

theorem v5_row : (W6 (F := Ideal) m ρ c (Proc.devRef .tc main_v5) : S2048x4096.Idx → EReal)
    = Cert.PassFns.rowOf (W5 (F := Ideal) m ρ c (Proc.devRef .tc main_v4)) :=
  (W6_arr m ρ c 1).trans (array1 (V5 m ρ) c)

/-- After region 1 `main_v5` holds the specification's clamped distance of the first image. -/
theorem v5_apply (i : Fin 2048) (j : Fin 4096) :
    (W6 (F := Ideal) m ρ c (Proc.devRef .tc main_v5) : S2048x4096.Idx → EReal) (ix2 i j) = Cert.Spec.dist (gtImg m c) i j := by
  rw [v5_row, v4_pad]
  exact Cert.PassBridge.row_bridge (gtImg m c) _ (v3_apply m ρ c) _ h_S_ _ rfl i j

/-! ## The second image -/

theorem v6_pad : (W8 (F := Ideal) m ρ c (Proc.devRef .tc main_v6) : S2068x4096.Idx → EReal)
    = pad S2068x4096 ![10, 0] ![10, 0] ![0, 0] (shapeCast S2048x4096 (predImg m c) shapeCasts_S1x1x2048x4096_S2048x4096)
        (constant (F := Ideal) S_ .f32 0x00000000#32) pads_S2048x4096_S2068x4096_10100_000 h_S_ := by
  refine (padRows2_read (F := Ideal) (W6 m ρ c)).trans ?_
  rw [W6_main_v1 m ρ c, v1_flat]

theorem v7_col : (W9 (F := Ideal) m ρ c (Proc.devRef .tc main_v7) : S2048x4096.Idx → EReal)
    = Cert.PassFns.colOf (W8 (F := Ideal) m ρ c (Proc.devRef .tc main_v6)) :=
  (W9_arr m ρ c 1).trans (array2 (V8 m ρ) c)

theorem v7_apply (i : Fin 2048) (w : Fin 4096) :
    (W9 (F := Ideal) m ρ c (Proc.devRef .tc main_v7) : S2048x4096.Idx → EReal) (ix2 i w) = colPass (predImg m c) i w := by
  rw [v7_col, v6_pad]
  exact Cert.PassBridge.col_bridge (predImg m c) _ _ h_S_ _ rfl i w

theorem v8_pad : (W11 (F := Ideal) m ρ c (Proc.devRef .tc main_v8) : S2048x4116.Idx → EReal)
    = pad S2048x4116 ![0, 10] ![0, 10] ![0, 0] (W9 (F := Ideal) m ρ c (Proc.devRef .tc main_v7) : S2048x4096.Idx → EReal)
        (constant (F := Ideal) S_ .f32 0x5368D4A5#32) pads_S2048x4096_S2048x4116_000_10100 h_S_ :=
  padCols3_read (F := Ideal) (W9 m ρ c)

theorem v9_row : (W12 (F := Ideal) m ρ c (Proc.devRef .tc main_v9) : S2048x4096.Idx → EReal)
    = Cert.PassFns.rowOf (W11 (F := Ideal) m ρ c (Proc.devRef .tc main_v8)) :=
  (W12_arr m ρ c 1).trans (array3 (V11 m ρ) c)

/-- After region 3 `main_v9` holds the specification's clamped distance of the second image. -/
theorem v9_apply (i : Fin 2048) (j : Fin 4096) :
    (W12 (F := Ideal) m ρ c (Proc.devRef .tc main_v9) : S2048x4096.Idx → EReal) (ix2 i j) = Cert.Spec.dist (predImg m c) i j := by
  rw [v9_row, v8_pad]
  exact Cert.PassBridge.row_bridge (predImg m c) _ (v7_apply m ρ c) _ h_S_ _ rfl i j

/-! ## What the totals region reads -/

theorem in5_apply (i : Fin 2048) (j : Fin 4096) :
    (V12 (F := Ideal) m ρ c main_v5 : S2048x4096.Idx → EReal) (ix2 i j) = Cert.Spec.dist (gtImg m c) i j := by
  show (W12 (F := Ideal) m ρ c (Proc.devRef .tc main_v5) : S2048x4096.Idx → EReal) (ix2 i j) = _
  rw [W12_main_v5 m ρ c]; exact v5_apply m ρ c i j

theorem in9_apply (i : Fin 2048) (j : Fin 4096) :
    (V12 (F := Ideal) m ρ c main_v9 : S2048x4096.Idx → EReal) (ix2 i j) = Cert.Spec.dist (predImg m c) i j :=
  v9_apply m ρ c i j

theorem in0_apply (i : Fin 2048) (j : Fin 4096) :
    (V12 (F := Ideal) m ρ c main_v0 : S2048x4096.Idx → EReal) (ix2 i j) = at2 (gtImg m c) i j := by
  show (W12 (F := Ideal) m ρ c (Proc.devRef .tc main_v0) : S2048x4096.Idx → EReal) (ix2 i j) = _
  rw [W12_main_v0 m ρ c, v0_flat]; exact Cert.PassBridge.flat_apply _ _ i j

theorem in1_apply (i : Fin 2048) (j : Fin 4096) :
    (V12 (F := Ideal) m ρ c main_v1 : S2048x4096.Idx → EReal) (ix2 i j) = at2 (predImg m c) i j := by
  show (W12 (F := Ideal) m ρ c (Proc.devRef .tc main_v1) : S2048x4096.Idx → EReal) (ix2 i j) = _
  rw [W12_main_v1 m ρ c, v1_flat]; exact Cert.PassBridge.flat_apply _ _ i j

/-! ## The three totals -/

theorem filt_eq : (W13 (F := Ideal) m ρ c (Proc.devRef .tc main_v10_0) : S1x1.Idx → EReal) = fun _ => filt (gtImg m c) (predImg m c) := by
  refine ((W13_arr m ρ c 4).trans (total4_0 (V12 m ρ) c)).trans (funext fun _ => ?_)
  unfold filt filt4
  exact Finset.sum_congr rfl fun i _ => Finset.sum_congr rfl fun j _ => by
    rw [show Q4 (V12 m ρ) c (ix2 i j) = _ from in1_apply m ρ c i j, show D4 (V12 m ρ) c (ix2 i j) = _ from in5_apply m ρ c i j]

theorem num_eq : (W13 (F := Ideal) m ρ c (Proc.devRef .tc main_v10_1) : S1x1.Idx → EReal) = fun _ => num (gtImg m c) (predImg m c) := by
  refine ((W13_arr m ρ c 5).trans (total4_1 (V12 m ρ) c)).trans (funext fun _ => ?_)
  unfold num num4
  exact Finset.sum_congr rfl fun i _ => Finset.sum_congr rfl fun j _ => by
    rw [show Q4 (V12 m ρ) c (ix2 i j) = _ from in1_apply m ρ c i j, show D4 (V12 m ρ) c (ix2 i j) = _ from in5_apply m ρ c i j,
      show E4 (V12 m ρ) c (ix2 i j) = _ from in9_apply m ρ c i j, show G4 (V12 m ρ) c (ix2 i j) = _ from in0_apply m ρ c i j]

theorem den_eq : (W13 (F := Ideal) m ρ c (Proc.devRef .tc main_v10_2) : S1x1.Idx → EReal) = fun _ => den (gtImg m c) (predImg m c) := by
  refine ((W13_arr m ρ c 6).trans (total4_2 (V12 m ρ) c)).trans (funext fun _ => ?_)
  unfold den den4
  exact Finset.sum_congr rfl fun i _ => Finset.sum_congr rfl fun j _ => by
    rw [show Q4 (V12 m ρ) c (ix2 i j) = _ from in1_apply m ρ c i j, show G4 (V12 m ρ) c (ix2 i j) = _ from in0_apply m ρ c i j]

/-! ## The result -/

/-- THE VALUE: at the end the result buffer holds the specification's number. -/
theorem result_value : (W16 (F := Ideal) m ρ c (Proc.devRef .tc main_v17) : S1.Idx → EReal)
    = fun _ => result (gtImg m c) (predImg m c) := by
  refine (tail_read (F := Ideal) (W13 m ρ c)).trans ?_
  rw [filt_eq, num_eq, den_eq]
  first
    | rfl
    | (funext j; simp only [shapeCast, select, cmpf, Host.divf, constant]; rfl)

/-- The run with its value: every execution ends without a fault, the result buffer at the specification's number
    and the two arguments as launched. -/
theorem run_value : θ_run defs (onTc (τ := τ) (main (F := Ideal))) ⟨m, fun _ => 0, ρ⟩ (fun r => ∀ c : Dev nD,
      r.2.mem ((c.tc : Thread nD τ).loc main_v17) = (fun _ => result (gtImg m c) (predImg m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v17 (by decide))).trans (result_value m ρ c),
     (h c _ (mem_uc main_arg0 (by decide))).trans (W16_main_arg0 m ρ c),
     (h c _ (mem_uc main_arg1 (by decide))).trans (W16_main_arg1 m ρ c)⟩) (run_all m ρ)

end Cert.KernelIdeal.Hand

end
-- ==== Proof.LibAfter.lean ====
/-
  Two general facts about the fold of a line of host operations over a valuation: the fold over a concatenation is the
  fold over the second line from the fold over the first, and an operation that writes one buffer of a list writes
  inside that list.
-/
import Idealize.ShloMosaic.Lib.StableHlo.Run

noncomputable section

namespace Idealize.ShloMosaic.StableHlo

variable {τ : Topo} {sig : RefSig} {Val : EltTy → Type}

/-- Running two lines one after the other: the contents after the concatenation are the contents after the second
    line, started from the contents after the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The one buffer `y`, a member of the list `W`, lies in `W` read as a set of device buffers. -/
theorem singleton_sub_of_mem {W : List (Ref sig .tc)} {y : Ref sig .tc} (h : y ∈ W) :
    ({(Proc.devRef .tc y : DevRef τ sig)} : Finset (DevRef τ sig)) ⊆ (W.map (Proc.devRef (τ := τ) .tc)).toFinset :=
  Finset.singleton_subset_iff.mpr (List.mem_toFinset.mpr (List.mem_map_of_mem h))

end Idealize.ShloMosaic.StableHlo

end
-- ==== Proof.RefValue.lean ====
/-
  The reference program's result, at the extended reals, is the specification's function of the two argument arrays.
  The reference pads, slices, adds a squared offset and takes minima 21 times down the columns and 21 times along the
  rows, takes the square root and clamps at ten, for each argument; then sums three arrays built from the two distance
  arrays and the arguments, and combines the three totals.  Each stage is read here at explicit coordinates (row
  `i : Fin 2048`, column `j : Fin 4096`) as a function of ANY input array, so the two arguments share every lemma:
  a padded array at a coordinate is the array inside the padding and the padding value outside; a slice at offset `k`
  reads coordinate `i + k`; the 21-fold minimum is `Spec.taps`.  The sums over the array's index set become double
  sums over rows and columns; the initial values are the zero word; the mean over the one batch entry is a quotient
  by the word of one.
  The operations are read in nine consecutive windows, each over ANY contents of the buffers it reads, so that a
  stage's input array is one atom and no stage's term is repeated inside the next: the cost and row padding of the
  first argument, its column pass, the column padding, its row pass with root and clamp; the same four for the second
  argument; and the totals with the result.  The padding value's buffer, written once in the first window, is read
  again by every padding, and the first distance array is read again by the last window: both are followed through
  the windows that do not write them.
-/
import proofs.«168916_j50233937494401_1_alg».proof.Defs
import proofs.«168916_j50233937494401_1_alg».proof.Proof.Gen.ReferenceIdeal
import proofs.«168916_j50233937494401_1_alg».proof.Proof.RefOps
import proofs.«168916_j50233937494401_1_alg».proof.Proof.Spec
import proofs.«168916_j50233937494401_1_alg».proof.Proof.LibAfter
import Idealize.ShloMosaic.Lib.StableHlo.Run
import Idealize.ShloMosaic.Lib.KernelVsHost

noncomputable section

open scoped BigOperators

namespace Cert.ReferenceIdeal.RefValue

open Cert.ReferenceIdeal Cert.ReferenceIdeal.Gen
open Idealize.ShloMosaic Idealize.ShloMosaic.TcCoe Idealize.SL.Sem Idealize.ShloMosaic.StableHlo Idealize.ShloMosaic.ValueIdx

/-- A scalar constant spread over any shape reads, at every index, as the constant's word. -/
theorem bcast_const (t : Shape) (h : S_.BroadcastsInDim t (![] : Fin 0 → Fin t.rank)) (b : BitVec 32) (j : t.Idx) :
    broadcastInDim t ![] h (constant (F := Ideal) S_ .f32 b) j = Ideal.ofBits .f32 b := rfl

/-! ## The layout operations at explicit coordinates -/

/-- A window of 2048 rows starting at row `k` of the row-padded array: entry `(i, w)` is entry `(i + k, w)`. -/
theorem slice_col {k : ℕ} (p : S1x1x2068x4096.Idx → EReal) (h : S1x1x2068x4096.Slices ![0, 0, k, 0] S1x1x2048x4096)
    (i : Fin 2048) (w : Fin 4096) (hk : i.val + k < 2068) :
    extractStridedSlice S1x1x2048x4096 ![0, 0, k, 0] p h (ix4 0 0 i w) = p (ix4 0 0 ⟨i.val + k, hk⟩ w) :=
  extractStridedSlice_apply _ p h _ _ (fun a => match a with
    | ⟨0, _⟩ => by show (0 : ℕ) = 0 + 0; rfl
    | ⟨1, _⟩ => by show (0 : ℕ) = 0 + 0; rfl
    | ⟨2, _⟩ => by show i.val + k = k + i.val; omega
    | ⟨3, _⟩ => by show w.val = 0 + w.val; omega)

/-- A window of 4096 columns starting at column `k` of the column-padded array: entry `(i, j)` is entry `(i, j + k)`. -/
theorem slice_row {k : ℕ} (p : S1x1x2048x4116.Idx → EReal) (h : S1x1x2048x4116.Slices ![0, 0, 0, k] S1x1x2048x4096)
    (i : Fin 2048) (j : Fin 4096) (hk : j.val + k < 4116) :
    extractStridedSlice S1x1x2048x4096 ![0, 0, 0, k] p h (ix4 0 0 i j) = p (ix4 0 0 i ⟨j.val + k, hk⟩) :=
  extractStridedSlice_apply _ p h _ _ (fun a => match a with
    | ⟨0, _⟩ => by show (0 : ℕ) = 0 + 0; rfl
    | ⟨1, _⟩ => by show (0 : ℕ) = 0 + 0; rfl
    | ⟨2, _⟩ => by show i.val = 0 + i.val; omega
    | ⟨3, _⟩ => by show j.val + k = k + j.val; omega)

/-- Ten rows of padding above and below: row `r` of 2068 is row `r - 10` of the array inside, the padding value outside. -/
theorem pad_col (y : S1x1x2048x4096.Idx → EReal) (v : S_.Idx → EReal)
    (h : S1x1x2048x4096.Pads (![0, 0, 10, 0] : Fin 4 → Nat) ![0, 0, 10, 0] ![0, 0, 0, 0] S1x1x2068x4096) (hu : 0 < S_.numel)
    (r : Fin 2068) (w : Fin 4096) :
    pad S1x1x2068x4096 ![0, 0, 10, 0] ![0, 0, 10, 0] ![0, 0, 0, 0] y v h hu (ix4 0 0 r w)
      = if hr : 10 ≤ r.val ∧ r.val < 2058 then y (ix4 0 0 ⟨r.val - 10, by omega⟩ w) else v (Shape.Idx.first hu) := by
  by_cases hr : 10 ≤ r.val ∧ r.val < 2058
  · rw [dif_pos hr]
    exact pad_apply_of_inside _ _ _ y v h hu _ (ix4 0 0 ⟨r.val - 10, by omega⟩ w) (fun a => match a with
      | ⟨0, _⟩ => by show (0 : ℕ) = 0 + 0 * (0 + 1); rfl
      | ⟨1, _⟩ => by show (0 : ℕ) = 0 + 0 * (0 + 1); rfl
      | ⟨2, _⟩ => by show r.val = 10 + (r.val - 10) * (0 + 1); omega
      | ⟨3, _⟩ => by show w.val = 0 + w.val * (0 + 1); omega)
  · rw [dif_neg hr]
    exact pad_apply_of_not_inside _ _ _ y v h hu _ (2 : Fin 4) (by
      show ¬(10 ≤ r.val ∧ (r.val - 10) % (0 + 1) = 0 ∧ (r.val - 10) / (0 + 1) < 2048)
      omega)

/-- Ten columns of padding left and right: column `q` of 4116 is column `q - 10` of the array inside, the padding value
    outside. -/
theorem pad_row (y : S1x1x2048x4096.Idx → EReal) (v : S_.Idx → EReal)
    (h : S1x1x2048x4096.Pads (![0, 0, 0, 10] : Fin 4 → Nat) ![0, 0, 0, 10] ![0, 0, 0, 0] S1x1x2048x4116) (hu : 0 < S_.numel)
    (i : Fin 2048) (q : Fin 4116) :
    pad S1x1x2048x4116 ![0, 0, 0, 10] ![0, 0, 0, 10] ![0, 0, 0, 0] y v h hu (ix4 0 0 i q)
      = if hq : 10 ≤ q.val ∧ q.val < 4106 then y (ix4 0 0 i ⟨q.val - 10, by omega⟩) else v (Shape.Idx.first hu) := by
  by_cases hq : 10 ≤ q.val ∧ q.val < 4106
  · rw [dif_pos hq]
    exact pad_apply_of_inside _ _ _ y v h hu _ (ix4 0 0 i ⟨q.val - 10, by omega⟩) (fun a => match a with
      | ⟨0, _⟩ => by show (0 : ℕ) = 0 + 0 * (0 + 1); rfl
      | ⟨1, _⟩ => by show (0 : ℕ) = 0 + 0 * (0 + 1); rfl
      | ⟨2, _⟩ => by show i.val = 0 + i.val * (0 + 1); omega
      | ⟨3, _⟩ => by show q.val = 10 + (q.val - 10) * (0 + 1); omega)
  · rw [dif_neg hq]
    exact pad_apply_of_not_inside _ _ _ y v h hu _ (3 : Fin 4) (by
      show ¬(10 ≤ q.val ∧ (q.val - 10) % (0 + 1) = 0 ∧ (q.val - 10) / (0 + 1) < 4096)
      omega)

/-! ## The stages as functions of an array -/

/-- The 21 taps down the columns of a row-padded array. -/
def colStage (p : FVec Ideal S1x1x2068x4096 .f32) : FVec Ideal S1x1x2048x4096 .f32 :=
  minimumf (minimumf (minimumf (minimumf (minimumf (minimumf (minimumf (minimumf (minimumf (minimumf (minimumf (minimumf (minimumf (minimumf (minimumf (minimumf (minimumf (minimumf (minimumf (minimumf (addf (extractStridedSlice S1x1x2048x4096 ![0, 0, 0, 0] p slices_S1x1x2068x4096_S1x1x2048x4096_0_0_0_0) (broadcastInDim S1x1x2048x4096 ![] bcast_S_S1x1x2048x4096 (constant S_ .f32 0x42C80000#32)))
    (addf (extractStridedSlice S1x1x2048x4096 ![0, 0, 1, 0] p slices_S1x1x2068x4096_S1x1x2048x4096_0_0_1_0) (broadcastInDim S1x1x2048x4096 ![] bcast_S_S1x1x2048x4096 (constant S_ .f32 0x42A20000#32))))
    (addf (extractStridedSlice S1x1x2048x4096 ![0, 0, 2, 0] p slices_S1x1x2068x4096_S1x1x2048x4096_0_0_2_0) (broadcastInDim S1x1x2048x4096 ![] bcast_S_S1x1x2048x4096 (constant S_ .f32 0x42800000#32))))
    (addf (extractStridedSlice S1x1x2048x4096 ![0, 0, 3, 0] p slices_S1x1x2068x4096_S1x1x2048x4096_0_0_3_0) (broadcastInDim S1x1x2048x4096 ![] bcast_S_S1x1x2048x4096 (constant S_ .f32 0x42440000#32))))
    (addf (extractStridedSlice S1x1x2048x4096 ![0, 0, 4, 0] p slices_S1x1x2068x4096_S1x1x2048x4096_0_0_4_0) (broadcastInDim S1x1x2048x4096 ![] bcast_S_S1x1x2048x4096 (constant S_ .f32 0x42100000#32))))
    (addf (extractStridedSlice S1x1x2048x4096 ![0, 0, 5, 0] p slices_S1x1x2068x4096_S1x1x2048x4096_0_0_5_0) (broadcastInDim S1x1x2048x4096 ![] bcast_S_S1x1x2048x4096 (constant S_ .f32 0x41C80000#32))))
    (addf (extractStridedSlice S1x1x2048x4096 ![0, 0, 6, 0] p slices_S1x1x2068x4096_S1x1x2048x4096_0_0_6_0) (broadcastInDim S1x1x2048x4096 ![] bcast_S_S1x1x2048x4096 (constant S_ .f32 0x41800000#32))))
    (addf (extractStridedSlice S1x1x2048x4096 ![0, 0, 7, 0] p slices_S1x1x2068x4096_S1x1x2048x4096_0_0_7_0) (broadcastInDim S1x1x2048x4096 ![] bcast_S_S1x1x2048x4096 (constant S_ .f32 0x41100000#32))))
    (addf (extractStridedSlice S1x1x2048x4096 ![0, 0, 8, 0] p slices_S1x1x2068x4096_S1x1x2048x4096_0_0_8_0) (broadcastInDim S1x1x2048x4096 ![] bcast_S_S1x1x2048x4096 (constant S_ .f32 0x40800000#32))))
    (addf (extractStridedSlice S1x1x2048x4096 ![0, 0, 9, 0] p slices_S1x1x2068x4096_S1x1x2048x4096_0_0_9_0) (broadcastInDim S1x1x2048x4096 ![] bcast_S_S1x1x2048x4096 (constant S_ .f32 0x3F800000#32))))
    (addf (extractStridedSlice S1x1x2048x4096 ![0, 0, 10, 0] p slices_S1x1x2068x4096_S1x1x2048x4096_0_0_10_0) (broadcastInDim S1x1x2048x4096 ![] bcast_S_S1x1x2048x4096 (constant S_ .f32 0x00000000#32))))
    (addf (extractStridedSlice S1x1x2048x4096 ![0, 0, 11, 0] p slices_S1x1x2068x4096_S1x1x2048x4096_0_0_11_0) (broadcastInDim S1x1x2048x4096 ![] bcast_S_S1x1x2048x4096 (constant S_ .f32 0x3F800000#32))))
    (addf (extractStridedSlice S1x1x2048x4096 ![0, 0, 12, 0] p slices_S1x1x2068x4096_S1x1x2048x4096_0_0_12_0) (broadcastInDim S1x1x2048x4096 ![] bcast_S_S1x1x2048x4096 (constant S_ .f32 0x40800000#32))))
    (addf (extractStridedSlice S1x1x2048x4096 ![0, 0, 13, 0] p slices_S1x1x2068x4096_S1x1x2048x4096_0_0_13_0) (broadcastInDim S1x1x2048x4096 ![] bcast_S_S1x1x2048x4096 (constant S_ .f32 0x41100000#32))))
    (addf (extractStridedSlice S1x1x2048x4096 ![0, 0, 14, 0] p slices_S1x1x2068x4096_S1x1x2048x4096_0_0_14_0) (broadcastInDim S1x1x2048x4096 ![] bcast_S_S1x1x2048x4096 (constant S_ .f32 0x41800000#32))))
    (addf (extractStridedSlice S1x1x2048x4096 ![0, 0, 15, 0] p slices_S1x1x2068x4096_S1x1x2048x4096_0_0_15_0) (broadcastInDim S1x1x2048x4096 ![] bcast_S_S1x1x2048x4096 (constant S_ .f32 0x41C80000#32))))
    (addf (extractStridedSlice S1x1x2048x4096 ![0, 0, 16, 0] p slices_S1x1x2068x4096_S1x1x2048x4096_0_0_16_0) (broadcastInDim S1x1x2048x4096 ![] bcast_S_S1x1x2048x4096 (constant S_ .f32 0x42100000#32))))
    (addf (extractStridedSlice S1x1x2048x4096 ![0, 0, 17, 0] p slices_S1x1x2068x4096_S1x1x2048x4096_0_0_17_0) (broadcastInDim S1x1x2048x4096 ![] bcast_S_S1x1x2048x4096 (constant S_ .f32 0x42440000#32))))
    (addf (extractStridedSlice S1x1x2048x4096 ![0, 0, 18, 0] p slices_S1x1x2068x4096_S1x1x2048x4096_0_0_18_0) (broadcastInDim S1x1x2048x4096 ![] bcast_S_S1x1x2048x4096 (constant S_ .f32 0x42800000#32))))
    (addf (extractStridedSlice S1x1x2048x4096 ![0, 0, 19, 0] p slices_S1x1x2068x4096_S1x1x2048x4096_0_0_19_0) (broadcastInDim S1x1x2048x4096 ![] bcast_S_S1x1x2048x4096 (constant S_ .f32 0x42A20000#32))))
    (addf (extractStridedSlice S1x1x2048x4096 ![0, 0, 20, 0] p slices_S1x1x2068x4096_S1x1x2048x4096_0_0_20_0) (broadcastInDim S1x1x2048x4096 ![] bcast_S_S1x1x2048x4096 (constant S_ .f32 0x42C80000#32)))

/-- The 21 taps along the rows of a column-padded array. -/
def rowStage (p : FVec Ideal S1x1x2048x4116 .f32) : FVec Ideal S1x1x2048x4096 .f32 :=
  minimumf (minimumf (minimumf (minimumf (minimumf (minimumf (minimumf (minimumf (minimumf (minimumf (minimumf (minimumf (minimumf (minimumf (minimumf (minimumf (minimumf (minimumf (minimumf (minimumf (addf (extractStridedSlice S1x1x2048x4096 ![0, 0, 0, 0] p slices_S1x1x2048x4116_S1x1x2048x4096_0_0_0_0) (broadcastInDim S1x1x2048x4096 ![] bcast_S_S1x1x2048x4096 (constant S_ .f32 0x42C80000#32)))
    (addf (extractStridedSlice S1x1x2048x4096 ![0, 0, 0, 1] p slices_S1x1x2048x4116_S1x1x2048x4096_0_0_0_1) (broadcastInDim S1x1x2048x4096 ![] bcast_S_S1x1x2048x4096 (constant S_ .f32 0x42A20000#32))))
    (addf (extractStridedSlice S1x1x2048x4096 ![0, 0, 0, 2] p slices_S1x1x2048x4116_S1x1x2048x4096_0_0_0_2) (broadcastInDim S1x1x2048x4096 ![] bcast_S_S1x1x2048x4096 (constant S_ .f32 0x42800000#32))))
    (addf (extractStridedSlice S1x1x2048x4096 ![0, 0, 0, 3] p slices_S1x1x2048x4116_S1x1x2048x4096_0_0_0_3) (broadcastInDim S1x1x2048x4096 ![] bcast_S_S1x1x2048x4096 (constant S_ .f32 0x42440000#32))))
    (addf (extractStridedSlice S1x1x2048x4096 ![0, 0, 0, 4] p slices_S1x1x2048x4116_S1x1x2048x4096_0_0_0_4) (broadcastInDim S1x1x2048x4096 ![] bcast_S_S1x1x2048x4096 (constant S_ .f32 0x42100000#32))))
    (addf (extractStridedSlice S1x1x2048x4096 ![0, 0, 0, 5] p slices_S1x1x2048x4116_S1x1x2048x4096_0_0_0_5) (broadcastInDim S1x1x2048x4096 ![] bcast_S_S1x1x2048x4096 (constant S_ .f32 0x41C80000#32))))
    (addf (extractStridedSlice S1x1x2048x4096 ![0, 0, 0, 6] p slices_S1x1x2048x4116_S1x1x2048x4096_0_0_0_6) (broadcastInDim S1x1x2048x4096 ![] bcast_S_S1x1x2048x4096 (constant S_ .f32 0x41800000#32))))
    (addf (extractStridedSlice S1x1x2048x4096 ![0, 0, 0, 7] p slices_S1x1x2048x4116_S1x1x2048x4096_0_0_0_7) (broadcastInDim S1x1x2048x4096 ![] bcast_S_S1x1x2048x4096 (constant S_ .f32 0x41100000#32))))
    (addf (extractStridedSlice S1x1x2048x4096 ![0, 0, 0, 8] p slices_S1x1x2048x4116_S1x1x2048x4096_0_0_0_8) (broadcastInDim S1x1x2048x4096 ![] bcast_S_S1x1x2048x4096 (constant S_ .f32 0x40800000#32))))
    (addf (extractStridedSlice S1x1x2048x4096 ![0, 0, 0, 9] p slices_S1x1x2048x4116_S1x1x2048x4096_0_0_0_9) (broadcastInDim S1x1x2048x4096 ![] bcast_S_S1x1x2048x4096 (constant S_ .f32 0x3F800000#32))))
    (addf (extractStridedSlice S1x1x2048x4096 ![0, 0, 0, 10] p slices_S1x1x2048x4116_S1x1x2048x4096_0_0_0_10) (broadcastInDim S1x1x2048x4096 ![] bcast_S_S1x1x2048x4096 (constant S_ .f32 0x00000000#32))))
    (addf (extractStridedSlice S1x1x2048x4096 ![0, 0, 0, 11] p slices_S1x1x2048x4116_S1x1x2048x4096_0_0_0_11) (broadcastInDim S1x1x2048x4096 ![] bcast_S_S1x1x2048x4096 (constant S_ .f32 0x3F800000#32))))
    (addf (extractStridedSlice S1x1x2048x4096 ![0, 0, 0, 12] p slices_S1x1x2048x4116_S1x1x2048x4096_0_0_0_12) (broadcastInDim S1x1x2048x4096 ![] bcast_S_S1x1x2048x4096 (constant S_ .f32 0x40800000#32))))
    (addf (extractStridedSlice S1x1x2048x4096 ![0, 0, 0, 13] p slices_S1x1x2048x4116_S1x1x2048x4096_0_0_0_13) (broadcastInDim S1x1x2048x4096 ![] bcast_S_S1x1x2048x4096 (constant S_ .f32 0x41100000#32))))
    (addf (extractStridedSlice S1x1x2048x4096 ![0, 0, 0, 14] p slices_S1x1x2048x4116_S1x1x2048x4096_0_0_0_14) (broadcastInDim S1x1x2048x4096 ![] bcast_S_S1x1x2048x4096 (constant S_ .f32 0x41800000#32))))
    (addf (extractStridedSlice S1x1x2048x4096 ![0, 0, 0, 15] p slices_S1x1x2048x4116_S1x1x2048x4096_0_0_0_15) (broadcastInDim S1x1x2048x4096 ![] bcast_S_S1x1x2048x4096 (constant S_ .f32 0x41C80000#32))))
    (addf (extractStridedSlice S1x1x2048x4096 ![0, 0, 0, 16] p slices_S1x1x2048x4116_S1x1x2048x4096_0_0_0_16) (broadcastInDim S1x1x2048x4096 ![] bcast_S_S1x1x2048x4096 (constant S_ .f32 0x42100000#32))))
    (addf (extractStridedSlice S1x1x2048x4096 ![0, 0, 0, 17] p slices_S1x1x2048x4116_S1x1x2048x4096_0_0_0_17) (broadcastInDim S1x1x2048x4096 ![] bcast_S_S1x1x2048x4096 (constant S_ .f32 0x42440000#32))))
    (addf (extractStridedSlice S1x1x2048x4096 ![0, 0, 0, 18] p slices_S1x1x2048x4116_S1x1x2048x4096_0_0_0_18) (broadcastInDim S1x1x2048x4096 ![] bcast_S_S1x1x2048x4096 (constant S_ .f32 0x42800000#32))))
    (addf (extractStridedSlice S1x1x2048x4096 ![0, 0, 0, 19] p slices_S1x1x2048x4116_S1x1x2048x4096_0_0_0_19) (broadcastInDim S1x1x2048x4096 ![] bcast_S_S1x1x2048x4096 (constant S_ .f32 0x42A20000#32))))
    (addf (extractStridedSlice S1x1x2048x4096 ![0, 0, 0, 20] p slices_S1x1x2048x4116_S1x1x2048x4096_0_0_0_20) (broadcastInDim S1x1x2048x4096 ![] bcast_S_S1x1x2048x4096 (constant S_ .f32 0x42C80000#32)))

theorem colStage_apply (p : FVec Ideal S1x1x2068x4096 .f32) (i : Fin 2048) (w : Fin 4096) :
    colStage p (ix4 0 0 i w)
      = Cert.Spec.taps fun k => p (ix4 0 0 ⟨i.val + k.val, by have := i.isLt; have := k.isLt; omega⟩ w) := by
  unfold colStage
  simp only [minimumf_apply, addf_apply, bcast_const]
  rw [slice_col (k := 0) p _ i w (by have := i.isLt; omega),
    slice_col (k := 1) p _ i w (by have := i.isLt; omega),
    slice_col (k := 2) p _ i w (by have := i.isLt; omega),
    slice_col (k := 3) p _ i w (by have := i.isLt; omega),
    slice_col (k := 4) p _ i w (by have := i.isLt; omega),
    slice_col (k := 5) p _ i w (by have := i.isLt; omega),
    slice_col (k := 6) p _ i w (by have := i.isLt; omega),
    slice_col (k := 7) p _ i w (by have := i.isLt; omega),
    slice_col (k := 8) p _ i w (by have := i.isLt; omega),
    slice_col (k := 9) p _ i w (by have := i.isLt; omega),
    slice_col (k := 10) p _ i w (by have := i.isLt; omega),
    slice_col (k := 11) p _ i w (by have := i.isLt; omega),
    slice_col (k := 12) p _ i w (by have := i.isLt; omega),
    slice_col (k := 13) p _ i w (by have := i.isLt; omega),
    slice_col (k := 14) p _ i w (by have := i.isLt; omega),
    slice_col (k := 15) p _ i w (by have := i.isLt; omega),
    slice_col (k := 16) p _ i w (by have := i.isLt; omega),
    slice_col (k := 17) p _ i w (by have := i.isLt; omega),
    slice_col (k := 18) p _ i w (by have := i.isLt; omega),
    slice_col (k := 19) p _ i w (by have := i.isLt; omega),
    slice_col (k := 20) p _ i w (by have := i.isLt; omega)]
  rfl

theorem rowStage_apply (p : FVec Ideal S1x1x2048x4116 .f32) (i : Fin 2048) (j : Fin 4096) :
    rowStage p (ix4 0 0 i j)
      = Cert.Spec.taps fun k => p (ix4 0 0 i ⟨j.val + k.val, by have := j.isLt; have := k.isLt; omega⟩) := by
  unfold rowStage
  simp only [minimumf_apply, addf_apply, bcast_const]
  rw [slice_row (k := 0) p _ i j (by have := j.isLt; omega),
    slice_row (k := 1) p _ i j (by have := j.isLt; omega),
    slice_row (k := 2) p _ i j (by have := j.isLt; omega),
    slice_row (k := 3) p _ i j (by have := j.isLt; omega),
    slice_row (k := 4) p _ i j (by have := j.isLt; omega),
    slice_row (k := 5) p _ i j (by have := j.isLt; omega),
    slice_row (k := 6) p _ i j (by have := j.isLt; omega),
    slice_row (k := 7) p _ i j (by have := j.isLt; omega),
    slice_row (k := 8) p _ i j (by have := j.isLt; omega),
    slice_row (k := 9) p _ i j (by have := j.isLt; omega),
    slice_row (k := 10) p _ i j (by have := j.isLt; omega),
    slice_row (k := 11) p _ i j (by have := j.isLt; omega),
    slice_row (k := 12) p _ i j (by have := j.isLt; omega),
    slice_row (k := 13) p _ i j (by have := j.isLt; omega),
    slice_row (k := 14) p _ i j (by have := j.isLt; omega),
    slice_row (k := 15) p _ i j (by have := j.isLt; omega),
    slice_row (k := 16) p _ i j (by have := j.isLt; omega),
    slice_row (k := 17) p _ i j (by have := j.isLt; omega),
    slice_row (k := 18) p _ i j (by have := j.isLt; omega),
    slice_row (k := 19) p _ i j (by have := j.isLt; omega),
    slice_row (k := 20) p _ i j (by have := j.isLt; omega)]
  rfl

/-- The cost of every pixel of an image. -/
def costArr (x : FVec Ideal S1x1x2048x4096 .f32) : FVec Ideal S1x1x2048x4096 .f32 :=
  select (cmpf .ogt x (broadcastInDim S1x1x2048x4096 ![] bcast_S_S1x1x2048x4096 (constant S_ .f32 0x3F000000#32)))
    (broadcastInDim S1x1x2048x4096 ![] bcast_S_S1x1x2048x4096 (constant S_ .f32 0x00000000#32))
    (broadcastInDim S1x1x2048x4096 ![] bcast_S_S1x1x2048x4096 (constant S_ .f32 0x5368D4A5#32))

theorem costArr_apply (x : FVec Ideal S1x1x2048x4096 .f32) (j : S1x1x2048x4096.Idx) :
    costArr x j = Cert.Spec.cost (x j) := rfl

/-- An array with ten rows of the large cost above and below. -/
def padCol (y : FVec Ideal S1x1x2048x4096 .f32) : FVec Ideal S1x1x2068x4096 .f32 :=
  pad S1x1x2068x4096 ![0, 0, 10, 0] ![0, 0, 10, 0] ![0, 0, 0, 0] y (constant (F := Ideal) S_ .f32 0x5368D4A5#32)
    pads_S1x1x2048x4096_S1x1x2068x4096_000_000_10100_000 h_S_

/-- An array with ten columns of the large cost left and right. -/
def padRow (y : FVec Ideal S1x1x2048x4096 .f32) : FVec Ideal S1x1x2048x4116 .f32 :=
  pad S1x1x2048x4116 ![0, 0, 0, 10] ![0, 0, 0, 10] ![0, 0, 0, 0] y (constant (F := Ideal) S_ .f32 0x5368D4A5#32)
    pads_S1x1x2048x4096_S1x1x2048x4116_000_000_000_10100 h_S_

/-- The clamped distance transform of an image, as the reference composes it. -/
def edt (x : FVec Ideal S1x1x2048x4096 .f32) : FVec Ideal S1x1x2048x4096 .f32 :=
  minimumf (Host.sqrt (rowStage (padRow (colStage (padCol (costArr x))))))
    (broadcastInDim S1x1x2048x4096 ![] bcast_S_S1x1x2048x4096 (constant S_ .f32 0x41200000#32))

/-! ## Each stage at explicit coordinates is the specification's -/

theorem padCol_cost (x : FVec Ideal S1x1x2048x4096 .f32) (r : Fin 2068) (w : Fin 4096) :
    padCol (costArr x) (ix4 0 0 r w) = Cert.Spec.costPad x r w := by
  unfold padCol Cert.Spec.costPad
  rw [pad_col]
  rfl

theorem colStage_cost (x : FVec Ideal S1x1x2048x4096 .f32) (i : Fin 2048) (w : Fin 4096) :
    colStage (padCol (costArr x)) (ix4 0 0 i w) = Cert.Spec.colPass x i w := by
  rw [colStage_apply]
  unfold Cert.Spec.colPass
  exact congrArg Cert.Spec.taps (funext fun k => padCol_cost x _ w)

theorem padRow_col (x : FVec Ideal S1x1x2048x4096 .f32) (i : Fin 2048) (q : Fin 4116) :
    padRow (colStage (padCol (costArr x))) (ix4 0 0 i q) = Cert.Spec.rowPad x i q := by
  unfold padRow Cert.Spec.rowPad
  rw [pad_row]
  by_cases hq : 10 ≤ q.val ∧ q.val < 4106
  · rw [dif_pos hq, dif_pos hq]; exact colStage_cost x i _
  · rw [dif_neg hq, dif_neg hq]; rfl

theorem rowStage_col (x : FVec Ideal S1x1x2048x4096 .f32) (i : Fin 2048) (j : Fin 4096) :
    rowStage (padRow (colStage (padCol (costArr x)))) (ix4 0 0 i j) = Cert.Spec.rowPass x i j := by
  rw [rowStage_apply]
  unfold Cert.Spec.rowPass
  exact congrArg Cert.Spec.taps (funext fun k => padRow_col x i _)

theorem edt_apply (x : FVec Ideal S1x1x2048x4096 .f32) (i : Fin 2048) (j : Fin 4096) :
    edt x (ix4 0 0 i j) = Cert.Spec.dist x i j := by
  unfold edt Cert.Spec.dist
  rw [minimumf_apply, bcast_const]
  show min (Ideal.sqrt (rowStage (padRow (colStage (padCol (costArr x)))) (ix4 0 0 i j))) _ = _
  rw [rowStage_col]

/-! ## Sums over the image -/

/-- The image's index set is rows times columns. -/
def imgEquiv : S1x1x2048x4096.Idx ≃ Fin 2048 × Fin 4096 where
  toFun j := (j 2, j 3)
  invFun p := ix4 0 0 p.1 p.2
  left_inv j := by
    have h0 : j 0 = (0 : Fin 1) := Fin.ext (by have h : (j 0).val < 1 := (j 0).isLt; show (j 0).val = 0; omega)
    have h1 : j 1 = (0 : Fin 1) := Fin.ext (by have h : (j 1).val < 1 := (j 1).isLt; show (j 1).val = 0; omega)
    have h := eq_ix4 j
    rw [h0, h1] at h
    exact h.symm
  right_inv _ := rfl

/-- A sum over the image is the double sum over rows and columns. -/
theorem sum_img (f : S1x1x2048x4096.Idx → EReal) :
    ∑ j, f j = ∑ i : Fin 2048, ∑ j : Fin 4096, f (ix4 0 0 i j) := by
  rw [← Equiv.sum_comp imgEquiv.symm f, Fintype.sum_prod_type]
  rfl

/-- A sum over the one index of a one-entry array is its entry. -/
theorem sum_one (f : S1.Idx → EReal) : ∑ j, f j = f (ix1 0) := by
  have h : ∀ j : S1.Idx, j = ix1 0 := fun j => by
    rw [eq_ix1 j]
    exact congrArg ix1 (Fin.ext (by have h : (j 0).val < 1 := (j 0).isLt; show (j 0).val = 0; omega))
  exact Finset.sum_eq_single (ix1 0) (fun b _ hb => absurd (h b) hb) (fun hn => absurd (Finset.mem_univ _) hn)

/-- The square root of the row pass, clamped at ten. -/
def clampStage (p : FVec Ideal S1x1x2048x4116 .f32) : FVec Ideal S1x1x2048x4096 .f32 :=
  minimumf (Host.sqrt (rowStage p))
    (broadcastInDim S1x1x2048x4096 ![] bcast_S_S1x1x2048x4096 (constant S_ .f32 0x41200000#32))

theorem edt_eq (x : FVec Ideal S1x1x2048x4096 .f32) : edt x = clampStage (padRow (colStage (padCol (costArr x)))) := rfl

/-! ## The nine windows of the reference's operations, each over any contents of the buffers it reads -/

theorem win1_v3 (W : Valuation τ sig (Elt Ideal)) :
    after (RefOps.win1 (F := Ideal)) W (Proc.devRef .tc main_v3) = padCol (costArr (W (Proc.devRef .tc main_arg0))) := by
  dsimp only [RefOps.win1]; after_results_simp <;> rfl

theorem win1_cst (W : Valuation τ sig (Elt Ideal)) :
    after (RefOps.win1 (F := Ideal)) W (Proc.devRef .tc main_cst) = (constant (F := Ideal) S_ .f32 0x5368D4A5#32) := by
  dsimp only [RefOps.win1]; after_results_simp <;> rfl

theorem win1_arg0 (W : Valuation τ sig (Elt Ideal)) :
    after (RefOps.win1 (F := Ideal)) W (Proc.devRef .tc main_arg0) = W (Proc.devRef .tc main_arg0) := by
  dsimp only [RefOps.win1]; after_results_simp

theorem win1_arg1 (W : Valuation τ sig (Elt Ideal)) :
    after (RefOps.win1 (F := Ideal)) W (Proc.devRef .tc main_arg1) = W (Proc.devRef .tc main_arg1) := by
  dsimp only [RefOps.win1]; after_results_simp

theorem win2_v86 (W : Valuation τ sig (Elt Ideal)) :
    after (RefOps.win2 (F := Ideal)) W (Proc.devRef .tc main_v86) = colStage (W (Proc.devRef .tc main_v3)) := by
  dsimp only [RefOps.win2]; after_results_simp <;> rfl

theorem win2_cst (W : Valuation τ sig (Elt Ideal)) :
    after (RefOps.win2 (F := Ideal)) W (Proc.devRef .tc main_cst) = W (Proc.devRef .tc main_cst) := by
  dsimp only [RefOps.win2]; after_results_simp

theorem win2_arg0 (W : Valuation τ sig (Elt Ideal)) :
    after (RefOps.win2 (F := Ideal)) W (Proc.devRef .tc main_arg0) = W (Proc.devRef .tc main_arg0) := by
  dsimp only [RefOps.win2]; after_results_simp

theorem win2_arg1 (W : Valuation τ sig (Elt Ideal)) :
    after (RefOps.win2 (F := Ideal)) W (Proc.devRef .tc main_arg1) = W (Proc.devRef .tc main_arg1) := by
  dsimp only [RefOps.win2]; after_results_simp

theorem win3_v87 (W : Valuation τ sig (Elt Ideal)) (hc : W (Proc.devRef .tc main_cst) = (constant (F := Ideal) S_ .f32 0x5368D4A5#32)) :
    after (RefOps.win3 (F := Ideal)) W (Proc.devRef .tc main_v87) = padRow (W (Proc.devRef .tc main_v86)) := by
  dsimp only [RefOps.win3]; after_results_simp; rw [hc]; rfl

theorem win3_cst (W : Valuation τ sig (Elt Ideal)) :
    after (RefOps.win3 (F := Ideal)) W (Proc.devRef .tc main_cst) = W (Proc.devRef .tc main_cst) := by
  dsimp only [RefOps.win3]; after_results_simp

theorem win3_arg0 (W : Valuation τ sig (Elt Ideal)) :
    after (RefOps.win3 (F := Ideal)) W (Proc.devRef .tc main_arg0) = W (Proc.devRef .tc main_arg0) := by
  dsimp only [RefOps.win3]; after_results_simp

theorem win3_arg1 (W : Valuation τ sig (Elt Ideal)) :
    after (RefOps.win3 (F := Ideal)) W (Proc.devRef .tc main_arg1) = W (Proc.devRef .tc main_arg1) := by
  dsimp only [RefOps.win3]; after_results_simp

theorem win4_v173 (W : Valuation τ sig (Elt Ideal)) :
    after (RefOps.win4 (F := Ideal)) W (Proc.devRef .tc main_v173) = clampStage (W (Proc.devRef .tc main_v87)) := by
  dsimp only [RefOps.win4]; after_results_simp <;> rfl

theorem win4_cst (W : Valuation τ sig (Elt Ideal)) :
    after (RefOps.win4 (F := Ideal)) W (Proc.devRef .tc main_cst) = W (Proc.devRef .tc main_cst) := by
  dsimp only [RefOps.win4]; after_results_simp

theorem win4_arg0 (W : Valuation τ sig (Elt Ideal)) :
    after (RefOps.win4 (F := Ideal)) W (Proc.devRef .tc main_arg0) = W (Proc.devRef .tc main_arg0) := by
  dsimp only [RefOps.win4]; after_results_simp

theorem win4_arg1 (W : Valuation τ sig (Elt Ideal)) :
    after (RefOps.win4 (F := Ideal)) W (Proc.devRef .tc main_arg1) = W (Proc.devRef .tc main_arg1) := by
  dsimp only [RefOps.win4]; after_results_simp

theorem win5_v177 (W : Valuation τ sig (Elt Ideal)) (hc : W (Proc.devRef .tc main_cst) = (constant (F := Ideal) S_ .f32 0x5368D4A5#32)) :
    after (RefOps.win5 (F := Ideal)) W (Proc.devRef .tc main_v177) = padCol (costArr (W (Proc.devRef .tc main_arg1))) := by
  dsimp only [RefOps.win5]; after_results_simp; rw [hc]; rfl

theorem win5_cst (W : Valuation τ sig (Elt Ideal)) :
    after (RefOps.win5 (F := Ideal)) W (Proc.devRef .tc main_cst) = W (Proc.devRef .tc main_cst) := by
  dsimp only [RefOps.win5]; after_results_simp

theorem win5_arg0 (W : Valuation τ sig (Elt Ideal)) :
    after (RefOps.win5 (F := Ideal)) W (Proc.devRef .tc main_arg0) = W (Proc.devRef .tc main_arg0) := by
  dsimp only [RefOps.win5]; after_results_simp

theorem win5_arg1 (W : Valuation τ sig (Elt Ideal)) :
    after (RefOps.win5 (F := Ideal)) W (Proc.devRef .tc main_arg1) = W (Proc.devRef .tc main_arg1) := by
  dsimp only [RefOps.win5]; after_results_simp

theorem win5_v173 (W : Valuation τ sig (Elt Ideal)) :
    after (RefOps.win5 (F := Ideal)) W (Proc.devRef .tc main_v173) = W (Proc.devRef .tc main_v173) := by
  dsimp only [RefOps.win5]; after_results_simp

theorem win6_v260 (W : Valuation τ sig (Elt Ideal)) :
    after (RefOps.win6 (F := Ideal)) W (Proc.devRef .tc main_v260) = colStage (W (Proc.devRef .tc main_v177)) := by
  dsimp only [RefOps.win6]; after_results_simp <;> rfl

theorem win6_cst (W : Valuation τ sig (Elt Ideal)) :
    after (RefOps.win6 (F := Ideal)) W (Proc.devRef .tc main_cst) = W (Proc.devRef .tc main_cst) := by
  dsimp only [RefOps.win6]; after_results_simp

theorem win6_arg0 (W : Valuation τ sig (Elt Ideal)) :
    after (RefOps.win6 (F := Ideal)) W (Proc.devRef .tc main_arg0) = W (Proc.devRef .tc main_arg0) := by
  dsimp only [RefOps.win6]; after_results_simp

theorem win6_arg1 (W : Valuation τ sig (Elt Ideal)) :
    after (RefOps.win6 (F := Ideal)) W (Proc.devRef .tc main_arg1) = W (Proc.devRef .tc main_arg1) := by
  dsimp only [RefOps.win6]; after_results_simp

theorem win6_v173 (W : Valuation τ sig (Elt Ideal)) :
    after (RefOps.win6 (F := Ideal)) W (Proc.devRef .tc main_v173) = W (Proc.devRef .tc main_v173) := by
  dsimp only [RefOps.win6]; after_results_simp

theorem win7_v261 (W : Valuation τ sig (Elt Ideal)) (hc : W (Proc.devRef .tc main_cst) = (constant (F := Ideal) S_ .f32 0x5368D4A5#32)) :
    after (RefOps.win7 (F := Ideal)) W (Proc.devRef .tc main_v261) = padRow (W (Proc.devRef .tc main_v260)) := by
  dsimp only [RefOps.win7]; after_results_simp; rw [hc]; rfl

theorem win7_arg0 (W : Valuation τ sig (Elt Ideal)) :
    after (RefOps.win7 (F := Ideal)) W (Proc.devRef .tc main_arg0) = W (Proc.devRef .tc main_arg0) := by
  dsimp only [RefOps.win7]; after_results_simp

theorem win7_arg1 (W : Valuation τ sig (Elt Ideal)) :
    after (RefOps.win7 (F := Ideal)) W (Proc.devRef .tc main_arg1) = W (Proc.devRef .tc main_arg1) := by
  dsimp only [RefOps.win7]; after_results_simp

theorem win7_v173 (W : Valuation τ sig (Elt Ideal)) :
    after (RefOps.win7 (F := Ideal)) W (Proc.devRef .tc main_v173) = W (Proc.devRef .tc main_v173) := by
  dsimp only [RefOps.win7]; after_results_simp

theorem win8_v347 (W : Valuation τ sig (Elt Ideal)) :
    after (RefOps.win8 (F := Ideal)) W (Proc.devRef .tc main_v347) = clampStage (W (Proc.devRef .tc main_v261)) := by
  dsimp only [RefOps.win8]; after_results_simp <;> rfl

theorem win8_arg0 (W : Valuation τ sig (Elt Ideal)) :
    after (RefOps.win8 (F := Ideal)) W (Proc.devRef .tc main_arg0) = W (Proc.devRef .tc main_arg0) := by
  dsimp only [RefOps.win8]; after_results_simp

theorem win8_arg1 (W : Valuation τ sig (Elt Ideal)) :
    after (RefOps.win8 (F := Ideal)) W (Proc.devRef .tc main_arg1) = W (Proc.devRef .tc main_arg1) := by
  dsimp only [RefOps.win8]; after_results_simp

theorem win8_v173 (W : Valuation τ sig (Elt Ideal)) :
    after (RefOps.win8 (F := Ideal)) W (Proc.devRef .tc main_v173) = W (Proc.devRef .tc main_v173) := by
  dsimp only [RefOps.win8]; after_results_simp

/-! ## The last window: three totals and the result, as functions of the two distance arrays and the arguments -/

/-- The host's sum of a whole array into a result whose axes all have size one: the initial value plus the total. -/
theorem reduceAdd_total {s t : Shape} {axes : List (Fin s.rank)} (h : s.ReducesTo axes t) (ht : ∀ b, t.size b = 1)
    (x : FVec Ideal s .f32) (init : S_.Idx → EReal) (hu : 0 < S_.numel) (j : t.Idx) :
    Host.reduceAdd x init h hu j = init (Shape.Idx.first hu) + ∑ i, x i := by
  simp only [Host.reduceAdd, Ideal.hostReduceAdd_def]
  exact Ideal.hostReduceAdd_total h ht x _ j

/-- The second image where the first image's distance is below ten. -/
def filtArr (dgt pred : FVec Ideal S1x1x2048x4096 .f32) : FVec Ideal S1x1x2048x4096 .f32 :=
  mulf pred (uitofp .f32 (cmpf .olt dgt (broadcastInDim S1x1x2048x4096 ![] bcast_S_S1x1x2048x4096 (constant S_ .f32 0x41200000#32))))

/-- Each distance times the other image, clamped at ten, added. -/
def numArr (dgt dest gt pred : FVec Ideal S1x1x2048x4096 .f32) : FVec Ideal S1x1x2048x4096 .f32 :=
  addf (minimumf (mulf dgt pred) (broadcastInDim S1x1x2048x4096 ![] bcast_S_S1x1x2048x4096 (constant S_ .f32 0x41200000#32)))
    (minimumf (mulf dest gt) (broadcastInDim S1x1x2048x4096 ![] bcast_S_S1x1x2048x4096 (constant S_ .f32 0x41200000#32)))

def filtT (dgt pred : FVec Ideal S1x1x2048x4096 .f32) : FVec Ideal S_ .f32 :=
  Host.reduceAdd (filtArr dgt pred) (constant S_ .f32 0x00000000#32) reducesTo_S1x1x2048x4096_S_d0_1_2_3 h_S_

def numT (dgt dest gt pred : FVec Ideal S1x1x2048x4096 .f32) : FVec Ideal S1 .f32 :=
  Host.reduceAdd (numArr dgt dest gt pred) (constant S_ .f32 0x00000000#32) reducesTo_S1x1x2048x4096_S1_d1_2_3 h_S_

def denT (gt pred : FVec Ideal S1x1x2048x4096 .f32) : FVec Ideal S_ .f32 :=
  Host.divf (Host.reduceAdd (addf (Host.reduceAdd pred (constant S_ .f32 0x00000000#32) reducesTo_S1x1x2048x4096_S1_d1_2_3 h_S_)
      (Host.reduceAdd gt (constant S_ .f32 0x00000000#32) reducesTo_S1x1x2048x4096_S1_d1_2_3 h_S_)) (constant S_ .f32 0x00000000#32) reducesTo_S1_S_d0 h_S_)
    (constant S_ .f32 0x3F800000#32)

/-- The result array of the last window. -/
def tailTerm (dgt dest gt pred : FVec Ideal S1x1x2048x4096 .f32) : FVec Ideal S1 .f32 :=
  select (broadcastInDim S1 ![] bcast_S_S1 (cmpf .oeq (filtT dgt pred) (constant S_ .f32 0x00000000#32)))
    (broadcastInDim S1 ![] bcast_S_S1 (constant S_ .f32 0x41200000#32))
    (Host.divf (numT dgt dest gt pred) (broadcastInDim S1 ![] bcast_S_S1 (denT gt pred)))

theorem win9_v369 (W : Valuation τ sig (Elt Ideal)) :
    after (RefOps.win9 (F := Ideal)) W (Proc.devRef .tc main_v369)
      = tailTerm (W (Proc.devRef .tc main_v173)) (W (Proc.devRef .tc main_v347)) (W (Proc.devRef .tc main_arg0))
          (W (Proc.devRef .tc main_arg1)) := by
  dsimp only [RefOps.win9]; after_results_simp <;> rfl

theorem win9_arg0 (W : Valuation τ sig (Elt Ideal)) :
    after (RefOps.win9 (F := Ideal)) W (Proc.devRef .tc main_arg0) = W (Proc.devRef .tc main_arg0) := by
  dsimp only [RefOps.win9]; after_results_simp

theorem win9_arg1 (W : Valuation τ sig (Elt Ideal)) :
    after (RefOps.win9 (F := Ideal)) W (Proc.devRef .tc main_arg1) = W (Proc.devRef .tc main_arg1) := by
  dsimp only [RefOps.win9]; after_results_simp

/-- The word of `1.0` denotes the real one. -/
theorem ofBits_one : Ideal.ofBits .f32 0x3F800000#32 = 1 := by
  simp [Ideal.ofBits, Ideal.ieee, -EReal.coe_mul]; norm_num

/-- The quotient by the word of `1.0` is the dividend. -/
theorem div_one (x : EReal) : Ideal.div x (Ideal.ofBits .f32 0x3F800000#32) = x := by
  rw [ofBits_one]
  have h : (1 : EReal) = ((1 : ℝ) : EReal) := rfl
  rw [h, Ideal.div_coe (by norm_num : (1 : ℝ) ≠ 0)]
  simp

theorem filtT_eq (gt pred : FVec Ideal S1x1x2048x4096 .f32) (i : S_.Idx) :
    filtT (edt gt) pred i = Cert.Spec.filt gt pred := by
  unfold filtT
  rw [reduceAdd_total _ (fun b => b.elim0), sum_img]
  have h0 : constant (F := Ideal) S_ .f32 0x00000000#32 (Shape.Idx.first h_S_) = 0 := Ideal.ofBits_zero_f32
  rw [h0, zero_add]
  unfold Cert.Spec.filt
  refine Finset.sum_congr rfl fun a _ => Finset.sum_congr rfl fun b _ => ?_
  show pred (ix4 0 0 a b) * Cert.Spec.ofBit (Ideal.cmp .olt (edt gt (ix4 0 0 a b)) Cert.Spec.ten) = _
  rw [edt_apply]

theorem numT_eq (gt pred : FVec Ideal S1x1x2048x4096 .f32) (c : S1.Idx) :
    numT (edt gt) (edt pred) gt pred c = Cert.Spec.num gt pred := by
  unfold numT
  rw [reduceAdd_total _ (by decide), sum_img]
  have h0 : constant (F := Ideal) S_ .f32 0x00000000#32 (Shape.Idx.first h_S_) = 0 := Ideal.ofBits_zero_f32
  rw [h0, zero_add]
  unfold Cert.Spec.num
  refine Finset.sum_congr rfl fun a _ => Finset.sum_congr rfl fun b _ => ?_
  show min (edt gt (ix4 0 0 a b) * pred (ix4 0 0 a b)) Cert.Spec.ten
      + min (edt pred (ix4 0 0 a b) * gt (ix4 0 0 a b)) Cert.Spec.ten = _
  rw [edt_apply, edt_apply]

theorem denT_eq (gt pred : FVec Ideal S1x1x2048x4096 .f32) (i : S_.Idx) :
    denT gt pred i = Cert.Spec.den gt pred := by
  unfold denT
  show Ideal.div (Host.reduceAdd (addf (Host.reduceAdd pred (constant S_ .f32 0x00000000#32) reducesTo_S1x1x2048x4096_S1_d1_2_3 h_S_)
      (Host.reduceAdd gt (constant S_ .f32 0x00000000#32) reducesTo_S1x1x2048x4096_S1_d1_2_3 h_S_)) (constant S_ .f32 0x00000000#32) reducesTo_S1_S_d0 h_S_ i)
    (Ideal.ofBits .f32 0x3F800000#32) = _
  rw [div_one, reduceAdd_total _ (fun b => b.elim0), sum_one, addf_apply,
    reduceAdd_total _ (by decide), reduceAdd_total _ (by decide)]
  have h0 : constant (F := Ideal) S_ .f32 0x00000000#32 (Shape.Idx.first h_S_) = 0 := Ideal.ofBits_zero_f32
  rw [h0, zero_add, zero_add, zero_add, sum_img, sum_img]
  unfold Cert.Spec.den
  simp only [Finset.sum_add_distrib]

/-- The last window's result, at the two distance arrays of the arguments, is the specification's. -/
theorem tailTerm_eq (gt pred : FVec Ideal S1x1x2048x4096 .f32) :
    tailTerm (edt gt) (edt pred) gt pred = fun _ => Cert.Spec.result gt pred := by
  funext c
  show Scalar.select (Ideal.cmp .oeq (filtT (edt gt) pred _) (Ideal.ofBits .f32 0x00000000#32))
      (Ideal.ofBits .f32 0x41200000#32)
      (Ideal.div (numT (edt gt) (edt pred) gt pred c) (denT gt pred _)) = _
  rw [filtT_eq, numT_eq, denT_eq]
  rfl

/-! ## The nine windows chained -/

section Chain

variable (V0 : Valuation τ sig (Elt Ideal))

local notation "𝕍1" => after (RefOps.win1 (F := Ideal)) V0
local notation "𝕍2" => after (RefOps.win2 (F := Ideal)) 𝕍1
local notation "𝕍3" => after (RefOps.win3 (F := Ideal)) 𝕍2
local notation "𝕍4" => after (RefOps.win4 (F := Ideal)) 𝕍3
local notation "𝕍5" => after (RefOps.win5 (F := Ideal)) 𝕍4
local notation "𝕍6" => after (RefOps.win6 (F := Ideal)) 𝕍5
local notation "𝕍7" => after (RefOps.win7 (F := Ideal)) 𝕍6
local notation "𝕍8" => after (RefOps.win8 (F := Ideal)) 𝕍7
local notation "𝕍9" => after (RefOps.win9 (F := Ideal)) 𝕍8

/-- The padding value's buffer keeps the large cost through the first six windows. -/
theorem cst6 : 𝕍6 (Proc.devRef .tc main_cst) = (constant (F := Ideal) S_ .f32 0x5368D4A5#32) := by
  rw [win6_cst, win5_cst, win4_cst, win3_cst, win2_cst, win1_cst]

theorem cst4 : 𝕍4 (Proc.devRef .tc main_cst) = (constant (F := Ideal) S_ .f32 0x5368D4A5#32) := by
  rw [win4_cst, win3_cst, win2_cst, win1_cst]

theorem cst2 : 𝕍2 (Proc.devRef .tc main_cst) = (constant (F := Ideal) S_ .f32 0x5368D4A5#32) := by
  rw [win2_cst, win1_cst]

/-- The first argument is never written. -/
theorem arg0_8 : 𝕍8 (Proc.devRef .tc main_arg0) = V0 (Proc.devRef .tc main_arg0) := by
  rw [win8_arg0, win7_arg0, win6_arg0, win5_arg0, win4_arg0, win3_arg0, win2_arg0, win1_arg0]

/-- The second argument is never written. -/
theorem arg1_8 : 𝕍8 (Proc.devRef .tc main_arg1) = V0 (Proc.devRef .tc main_arg1) := by
  rw [win8_arg1, win7_arg1, win6_arg1, win5_arg1, win4_arg1, win3_arg1, win2_arg1, win1_arg1]

theorem arg1_4 : 𝕍4 (Proc.devRef .tc main_arg1) = V0 (Proc.devRef .tc main_arg1) := by
  rw [win4_arg1, win3_arg1, win2_arg1, win1_arg1]

/-- After the fourth window the first distance array is the distance transform of the first argument, and it stays
    through the eighth. -/
theorem dgt8 : 𝕍8 (Proc.devRef .tc main_v173) = edt (V0 (Proc.devRef .tc main_arg0)) := by
  rw [win8_v173, win7_v173, win6_v173, win5_v173, win4_v173, win3_v87 _ (cst2 V0), win2_v86, win1_v3, edt_eq]

/-- After the eighth window the second distance array is the distance transform of the second argument. -/
theorem dest8 : 𝕍8 (Proc.devRef .tc main_v347) = edt (V0 (Proc.devRef .tc main_arg1)) := by
  rw [win8_v347, win7_v261 _ (cst6 V0), win6_v260, win5_v177 _ (cst4 V0), arg1_4, edt_eq]

/-- After all nine windows the result buffer holds the specification's number. -/
theorem chain_v369 : 𝕍9 (Proc.devRef .tc main_v369)
    = fun _ => Cert.Spec.result (V0 (Proc.devRef .tc main_arg0)) (V0 (Proc.devRef .tc main_arg1)) := by
  rw [win9_v369, dgt8, dest8, arg0_8, arg1_8]
  exact tailTerm_eq _ _

theorem chain_arg0 : 𝕍9 (Proc.devRef .tc main_arg0) = V0 (Proc.devRef .tc main_arg0) := by
  rw [win9_arg0, arg0_8]

theorem chain_arg1 : 𝕍9 (Proc.devRef .tc main_arg1) = V0 (Proc.devRef .tc main_arg1) := by
  rw [win9_arg1, arg1_8]

end Chain

/-! ## The reference's run -/

/-- Every weakly fair execution of the reference terminates with its result the specification's function of the
    two argument arrays as the run found them, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v369)
          = (fun _ => Cert.Spec.result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v369).trans (chain_v369 (launchContents m c)),
      (h c main_arg0).trans (chain_arg0 (launchContents m c)),
      (h c main_arg1).trans (chain_arg1 (launchContents m c))⟩)
    (RefOps.run_after (F := Ideal) m ρ)

end Cert.ReferenceIdeal.RefValue

end
-- ==== Proof.lean ====
/- The certificate of the clamped-distance edge score.

   Both programs compute, for two images `gt` and `pred` of 2048 × 4096 pixels, the clamped Euclidean distance to the
   nearest foreground pixel of each image — two min-plus passes with 21 taps, down the columns and then along the
   rows, a square root, a clamp at ten —, then three totals over the images and the distances, and from them one
   number: ten when the first total is zero, the quotient of the other two otherwise. The kernel does the passes in
   four kernel regions over column strips and row bands and the totals in a fifth that accumulates over 32 bands; the
   reference does everything on whole arrays. On the extended reals both are the one function `Cert.Spec.result`:
   the only laws used are that a sum may be taken in any grouping and order, and that a zero pixel costs the large
   constant. No finiteness of the inputs is needed.

   The three frames: the kernel's entry function is run item by item over its five regions, once at any float
   instance (`Proof/Ideal/Run.lean`, and its copy for the word-level program `Proof/Word/Run.lean`); the
   reference's frame is its run — read window by window over its 477 operations — with the result dropped. The idealization rewrote nothing, so `preserves` is
   trivial. -/
import proofs.«168916_j50233937494401_1_alg».proof.Defs
import proofs.«168916_j50233937494401_1_alg».proof.Proof.Gen.Kernel
import proofs.«168916_j50233937494401_1_alg».proof.Proof.Gen.KernelIdeal
import proofs.«168916_j50233937494401_1_alg».proof.Proof.Gen.ReferenceIdeal
import proofs.«168916_j50233937494401_1_alg».proof.Proof.Gen.Pre_finite_inputs
import proofs.«168916_j50233937494401_1_alg».proof.Proof.Word.Run
import proofs.«168916_j50233937494401_1_alg».proof.Proof.Ideal.Run
import proofs.«168916_j50233937494401_1_alg».proof.Proof.Ideal.Values
import proofs.«168916_j50233937494401_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RefValue.run_spec m ρ)

/-- From memories that agree on the two images both programs end with the specification's number in their result. -/
theorem algebraic : Cert.algebraic_KernelIdeal_ReferenceIdeal := by
  intro m ρ m' ρ' _ hagree
  refine ⟨fun c => fun _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨?_, (h c).2⟩) (Cert.ReferenceIdeal.RefValue.run_spec m' ρ')
  show _ = (fun _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
  rw [(h c).1, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
